-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v98)) (v1 : (c : Dev Cert.KernelIdeal.nD) → Buf (Elt Ideal) ((c.tc : Thread Cert.KernelIdeal.nD Cert.KernelIdeal.τ).loc Cert.KernelIdeal.main_v101)) (v2 : (c : Dev Cert.KernelIdeal.nD) → Buf (Elt Ideal) ((c.tc : Thread Cert.KernelIdeal.nD Cert.KernelIdeal.τ).loc Cert.KernelIdeal.main_v48_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_v101) = v1 c
          ∧ r.2.mem ((c.tc : Thread Cert.KernelIdeal.nD Cert.KernelIdeal.τ).loc Cert.KernelIdeal.main_v48_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S2x4096 : Shape := ⟨2, ![2, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x4096 .f32) (main_arg2 : FVec F S4096x4096 .f32) (main_arg3 : IVec S2x4096 32) (main_arg4 : IVec S2x4096 32) (main_arg5 : IVec S2x4096 32) (main_arg6 : IVec S2x4096 32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  main_v13
-- ==== Kernel.lean ====
abbrev S4096x4096 : Shape := ⟨2, ![4096, 4096]⟩
abbrev S2x4096 : Shape := ⟨2, ![2, 4096]⟩
abbrev S1x4096 : Shape := ⟨2, ![1, 4096]⟩
abbrev S4096x512 : Shape := ⟨2, ![4096, 512]⟩
abbrev S1x512 : Shape := ⟨2, ![1, 512]⟩
abbrev S512 : Shape := ⟨1, ![512]⟩
abbrev S4096 : Shape := ⟨1, ![4096]⟩
abbrev S_ : Shape := ⟨0, ![]⟩
abbrev S4096x1 : Shape := ⟨2, ![4096, 1]⟩
abbrev S8x1x4096 : Shape := ⟨3, ![8, 1, 4096]⟩
abbrev S8x1x512 : Shape := ⟨3, ![8, 1, 512]⟩
abbrev S512x4096 : Shape := ⟨2, ![512, 4096]⟩
abbrev S1x1x4096 : Shape := ⟨3, ![1, 1, 4096]⟩
abbrev S1x1x512 : Shape := ⟨3, ![1, 1, 512]⟩
abbrev S512x1 : Shape := ⟨2, ![512, 1]⟩
abbrev S8x4096 : Shape := ⟨2, ![8, 4096]⟩
abbrev S16x1x256 : Shape := ⟨3, ![16, 1, 256]⟩
abbrev S256x4096 : Shape := ⟨2, ![256, 4096]⟩
abbrev S1x256 : Shape := ⟨2, ![1, 256]⟩
abbrev S1x1x256 : Shape := ⟨3, ![1, 1, 256]⟩
abbrev S256x1 : Shape := ⟨2, ![256, 1]⟩
abbrev S256 : Shape := ⟨1, ![256]⟩
abbrev S1024x1024 : Shape := ⟨2, ![1024, 1024]⟩
abbrev S1x1024 : Shape := ⟨2, ![1, 1024]⟩
abbrev S1024x1 : Shape := ⟨2, ![1024, 1]⟩

abbrev nBuf : Space → Nat
  | .hbm => 136
  | .vmem => 32
  | .smem => 0
  | _ => 0

abbrev hbmTy0_0 (i : Nat) : BufTy := match i % 128 with
  | 0 => ⟨S4096x4096, .f32⟩
  | 1 => ⟨S4096x4096, .f32⟩
  | 2 => ⟨S4096x4096, .f32⟩
  | 3 => ⟨S2x4096, .i32⟩
  | 4 => ⟨S2x4096, .i32⟩
  | 5 => ⟨S2x4096, .i32⟩
  | 6 => ⟨S2x4096, .i32⟩
  | 7 => ⟨S1x4096, .f32⟩
  | 8 => ⟨S4096, .f32⟩
  | 9 => ⟨S_, .f32⟩
  | 10 => ⟨S4096, .f32⟩
  | 11 => ⟨S1x4096, .i32⟩
  | 12 => ⟨S4096, .i32⟩
  | 13 => ⟨S1x4096, .i32⟩
  | 14 => ⟨S4096, .i32⟩
  | 15 => ⟨S_, .i32⟩
  | 16 => ⟨S4096, .i32⟩
  | 17 => ⟨S4096, .i1⟩
  | 18 => ⟨S_, .i32⟩
  | 19 => ⟨S4096, .i32⟩
  | 20 => ⟨S4096, .i32⟩
  | 21 => ⟨S4096, .i32⟩
  | 22 => ⟨S4096x1, .i32⟩
  | 23 => ⟨S4096, .f32⟩
  | 24 => ⟨S_, .i32⟩
  | 25 => ⟨S4096, .i32⟩
  | 26 => ⟨S4096, .i1⟩
  | 27 => ⟨S_, .i32⟩
  | 28 => ⟨S4096, .i32⟩
  | 29 => ⟨S4096, .i32⟩
  | 30 => ⟨S4096, .i32⟩
  | 31 => ⟨S4096x1, .i32⟩
  | 32 => ⟨S4096, .f32⟩
  | 33 => ⟨S8x1x4096, .f32⟩
  | 34 => ⟨S8x1x512, .f32⟩
  | 35 => ⟨S8x4096, .f32⟩
  | 36 => ⟨S_, .f32⟩
  | 37 => ⟨S4096, .f32⟩
  | 38 => ⟨S4096, .f32⟩
  | 39 => ⟨S_, .f32⟩
  | 40 => ⟨S_, .f32⟩
  | 41 => ⟨S4096, .f32⟩
  | 42 => ⟨S4096, .f32⟩
  | 43 => ⟨S_, .f32⟩
  | 44 => ⟨S4096, .f32⟩
  | 45 => ⟨S1x4096, .i32⟩
  | 46 => ⟨S4096, .i32⟩
  | 47 => ⟨S1x4096, .i32⟩
  | 48 => ⟨S4096, .i32⟩
  | 49 => ⟨S_, .i32⟩
  | 50 => ⟨S4096, .i32⟩
  | 51 => ⟨S4096, .i1⟩
  | 52 => ⟨S_, .i32⟩
  | 53 => ⟨S4096, .i32⟩
  | 54 => ⟨S4096, .i32⟩
  | 55 => ⟨S4096, .i32⟩
  | 56 => ⟨S4096x1, .i32⟩
  | 57 => ⟨S4096, .f32⟩
  | 58 => ⟨S_, .i32⟩
  | 59 => ⟨S4096, .i32⟩
  | 60 => ⟨S4096, .i1⟩
  | 61 => ⟨S_, .i32⟩
  | 62 => ⟨S4096, .i32⟩
  | 63 => ⟨S4096, .i32⟩
  | 64 => ⟨S4096, .i32⟩
  | 65 => ⟨S4096x1, .i32⟩
  | 66 => ⟨S4096, .f32⟩
  | 67 => ⟨S1x4096, .f32⟩
  | 68 => ⟨S4096x4096, .f32⟩
  | 69 => ⟨S16x1x256, .f32⟩
  | 70 => ⟨S4096, .f32⟩
  | 71 => ⟨S_, .f32⟩
  | 72 => ⟨S4096, .f32⟩
  | 73 => ⟨S4096, .f32⟩
  | 74 => ⟨S4096, .f32⟩
  | 75 => ⟨S_, .f32⟩
  | 76 => ⟨S4096, .f32⟩
  | 77 => ⟨S1x4096, .i32⟩
  | 78 => ⟨S4096, .i32⟩
  | 79 => ⟨S1x4096, .i32⟩
  | 80 => ⟨S4096, .i32⟩
  | 81 => ⟨S_, .i32⟩
  | 82 => ⟨S4096, .i32⟩
  | 83 => ⟨S4096, .i1⟩
  | 84 => ⟨S_, .i32⟩
  | 85 => ⟨S4096, .i32⟩
  | 86 => ⟨S4096, .i32⟩
  | 87 => ⟨S4096, .i32⟩
  | 88 => ⟨S4096x1, .i32⟩
  | 89 => ⟨S4096, .f32⟩
  | 90 => ⟨S_, .i32⟩
  | 91 => ⟨S4096, .i32⟩
  | 92 => ⟨S4096, .i1⟩
  | 93 => ⟨S_, .i32⟩
  | 94 => ⟨S4096, .i32⟩
  | 95 => ⟨S4096, .i32⟩
  | 96 => ⟨S4096, .i32⟩
  | 97 => ⟨S4096x1, .i32⟩
  | 98 => ⟨S4096, .f32⟩
  | 99 => ⟨S_, .f32⟩
  | 100 => ⟨S4096, .f32⟩
  | 101 => ⟨S4096, .f32⟩
  | 102 => ⟨S4096, .f32⟩
  | 103 => ⟨S_, .f32⟩
  | 104 => ⟨S_, .f32⟩
  | 105 => ⟨S4096, .f32⟩
  | 106 => ⟨S4096, .f32⟩
  | 107 => ⟨S_, .f32⟩
  | 108 => ⟨S4096, .f32⟩
  | 109 => ⟨S1x4096, .i32⟩
  | 110 => ⟨S4096, .i32⟩
  | 111 => ⟨S1x4096, .i32⟩
  | 112 => ⟨S4096, .i32⟩
  | 113 => ⟨S_, .i32⟩
  | 114 => ⟨S4096, .i32⟩
  | 115 => ⟨S4096, .i1⟩
  | 116 => ⟨S_, .i32⟩
  | 117 => ⟨S4096, .i32⟩
  | 118 => ⟨S4096, .i32⟩
  | 119 => ⟨S4096, .i32⟩
  | 120 => ⟨S4096x1, .i32⟩
  | 121 => ⟨S4096, .f32⟩
  | 122 => ⟨S_, .i32⟩
  | 123 => ⟨S4096, .i32⟩
  | 124 => ⟨S4096, .i1⟩
  | 125 => ⟨S_, .i32⟩
  | 126 => ⟨S4096, .i32⟩
  | 127 => ⟨S4096, .i32⟩
  | _ => ⟨S4096x4096, .f32⟩

abbrev hbmTy0_1 (i : Nat) : BufTy := match i % 128 with
  | 0 => ⟨S4096, .i32⟩
  | 1 => ⟨S4096x1, .i32⟩
  | 2 => ⟨S4096, .f32⟩
  | 3 => ⟨S1x4096, .f32⟩
  | 4 => ⟨S4096x4096, .f32⟩
  | 5 => ⟨S1x4096, .f32⟩
  | 6 => ⟨S1x4096, .f32⟩
  | 7 => ⟨S4096x4096, .f32⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | .local _ .vmem, ⟨0, _⟩ => ⟨S4096x512, .f32⟩
  | .local _ .vmem, ⟨1, _⟩ => ⟨S4096x512, .f32⟩
  | .local _ .vmem, ⟨2, _⟩ => ⟨S1x512, .f32⟩
  | .local _ .vmem, ⟨3, _⟩ => ⟨S1x512, .f32⟩
  | .local _ .vmem, ⟨4, _⟩ => ⟨S512x4096, .f32⟩
  | .local _ .vmem, ⟨5, _⟩ => ⟨S512x4096, .f32⟩
  | .local _ .vmem, ⟨6, _⟩ => ⟨S1x1x4096, .f32⟩
  | .local _ .vmem, ⟨7, _⟩ => ⟨S1x1x4096, .f32⟩
  | .local _ .vmem, ⟨8, _⟩ => ⟨S1x1x512, .f32⟩
  | .local _ .vmem, ⟨9, _⟩ => ⟨S1x1x512, .f32⟩
  | .local _ .vmem, ⟨10, _⟩ => ⟨S256x4096, .f32⟩
  | .local _ .vmem, ⟨11, _⟩ => ⟨S256x4096, .f32⟩
  | .local _ .vmem, ⟨12, _⟩ => ⟨S1x256, .f32⟩
  | .local _ .vmem, ⟨13, _⟩ => ⟨S1x256, .f32⟩
  | .local _ .vmem, ⟨14, _⟩ => ⟨S256x4096, .f32⟩
  | .local _ .vmem, ⟨15, _⟩ => ⟨S256x4096, .f32⟩
  | .local _ .vmem, ⟨16, _⟩ => ⟨S1x1x256, .f32⟩
  | .local _ .vmem, ⟨17, _⟩ => ⟨S1x1x256, .f32⟩
  | .local _ .vmem, ⟨18, _⟩ => ⟨S1024x1024, .f32⟩
  | .local _ .vmem, ⟨19, _⟩ => ⟨S1024x1024, .f32⟩
  | .local _ .vmem, ⟨20, _⟩ => ⟨S1x1024, .f32⟩
  | .local _ .vmem, ⟨21, _⟩ => ⟨S1x1024, .f32⟩
  | .local _ .vmem, ⟨22, _⟩ => ⟨S1024x1024, .f32⟩
  | .local _ .vmem, ⟨23, _⟩ => ⟨S1024x1024, .f32⟩
  | .local _ .vmem, ⟨24, _⟩ => ⟨S1024x1024, .f32⟩
  | .local _ .vmem, ⟨25, _⟩ => ⟨S1024x1024, .f32⟩
  | .local _ .vmem, ⟨26, _⟩ => ⟨S1x1024, .f32⟩
  | .local _ .vmem, ⟨27, _⟩ => ⟨S1x1024, .f32⟩
  | .local _ .vmem, ⟨28, _⟩ => ⟨S1x1024, .f32⟩
  | .local _ .vmem, ⟨29, _⟩ => ⟨S1x1024, .f32⟩
  | .local _ .vmem, ⟨30, _⟩ => ⟨S1024x1024, .f32⟩
  | .local _ .vmem, ⟨31, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21_0 : Ref sig .tc := ⟨.hbm, 33, rfl⟩
abbrev main_v21_1 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_c_8 : Ref sig .tc := ⟨.hbm, 58, rfl⟩
abbrev main_v40 : Ref sig .tc := ⟨.hbm, 59, rfl⟩
abbrev main_v41 : Ref sig .tc := ⟨.hbm, 60, rfl⟩
abbrev main_c_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48_0 : Ref sig .tc := ⟨.hbm, 68, rfl⟩
abbrev main_v48_1 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_11 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c_12 : Ref sig .tc := ⟨.hbm, 81, rfl⟩
abbrev main_v58 : Ref sig .tc := ⟨.hbm, 82, rfl⟩
abbrev main_v59 : Ref sig .tc := ⟨.hbm, 83, rfl⟩
abbrev main_c_13 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_14 : Ref sig .tc := ⟨.hbm, 90, rfl⟩
abbrev main_v65 : Ref sig .tc := ⟨.hbm, 91, rfl⟩
abbrev main_v66 : Ref sig .tc := ⟨.hbm, 92, rfl⟩
abbrev main_c_15 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_16 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_17 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_18 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_c_19 : Ref sig .tc := ⟨.hbm, 113, rfl⟩
abbrev main_v83 : Ref sig .tc := ⟨.hbm, 114, rfl⟩
abbrev main_v84 : Ref sig .tc := ⟨.hbm, 115, rfl⟩
abbrev main_c_20 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_c_21 : Ref sig .tc := ⟨.hbm, 122, rfl⟩
abbrev main_v90 : Ref sig .tc := ⟨.hbm, 123, rfl⟩
abbrev main_v91 : Ref sig .tc := ⟨.hbm, 124, rfl⟩
abbrev main_c_22 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc4_stg3_0 : Ref sig .tc := ⟨.vmem, 30, rfl⟩
abbrev cc4_stg3_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc4_sem3_0 : DmaSem sig := 30
abbrev cc4_sem3_1 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S256x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x4096 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x1x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![4, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![4, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S1024x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

class Facts₀ : Prop where
  inb_S4096x512_S4096x512_0_0 : ∀ a, (![0, 0] : Fin 2 → Nat) a + S4096x512.size a ≤ S4096x512.size a
  h_S4096x512 : 0 < S4096x512.numel
  reduces_S4096x512_S512 : S4096x512.Reduces [0] S512
  shapeCasts_S512_S1x512 : S512.ShapeCasts S1x512
  inb_S1x512_S1x512_0_0 : ∀ a, (![0, 0] : Fin 2 → Nat) a + S1x512.size a ≤ S1x512.size a
  h_S1x512 : 0 < S1x512.numel
  shapeCasts_S1x4096_S4096 : S1x4096.ShapeCasts S4096
  bcast_S_S4096 : S_.BroadcastsInDim S4096 (![] : Fin 0 → Fin S4096.rank)
  slices_S2x4096_S1x4096_1_0 : S2x4096.Slices ![1, 0] S1x4096
  slices_S2x4096_S1x4096_0_0 : S2x4096.Slices ![0, 0] S1x4096
  bcast_S4096_S4096x1_0 : S4096.BroadcastsInDim S4096x1 (![0] : Fin 1 → Fin S4096x1.rank)
  inb_S512x4096_S512x4096_0_0 : ∀ a, (![0, 0] : Fin 2 → Nat) a + S512x4096.size a ≤ S512x4096.size a
  h_S512x4096 : 0 < S512x4096.numel
  reduces_S512x4096_S4096 : S512x4096.Reduces [0] S4096
  shapeCasts_S4096_S1x4096 : S4096.ShapeCasts S1x4096
  shapeCasts_S1x4096_S1x1x4096 : S1x4096.ShapeCasts S1x1x4096
  inb_S1x1x4096_S1x1x4096_0_0_0 : ∀ a, (![0, 0, 0] : Fin 3 → Nat) a + S1x1x4096.size a ≤ S1x1x4096.size a
  h_S1x1x4096 : 0 < S1x1x4096.numel
  reduces_S512x4096_S512 : S512x4096.Reduces [1] S512
  shapeCasts_S512_S512x1 : S512.ShapeCasts S512x1
  transposes_S512x1_p1_0_S1x512 : S512x1.Transposes [1, 0] S1x512
  shapeCasts_S1x512_S1x1x512 : S1x512.ShapeCasts S1x1x512
  inb_S1x1x512_S1x1x512_0_0_0 : ∀ a, (![0, 0, 0] : Fin 3 → Nat) a + S1x1x512.size a ≤ S1x1x512.size a
  h_S1x1x512 : 0 < S1x1x512.numel
  shapeCasts_S8x1x4096_S8x4096 : S8x1x4096.ShapeCasts S8x4096
  reducesTo_S8x4096_S4096_d0 : S8x4096.ReducesTo [0] S4096
  h_S_ : 0 < S_.numel
  shapeCasts_S8x1x512_S4096 : S8x1x512.ShapeCasts S4096
  reducesTo_S4096_S_d0 : S4096.ReducesTo [0] S_
  inb_S256x4096_S256x4096_0_0 : ∀ a, (![0, 0] : Fin 2 → Nat) a + S256x4096.size a ≤ S256x4096.size a
  h_S256x4096 : 0 < S256x4096.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  transposes_S1x256_p1_0_S256x1 : S1x256.Transposes [1, 0] S256x1
  broadcasts_S256x1_S256x4096 : S256x1.Broadcasts S256x4096
  reduces_S256x4096_S256 : S256x4096.Reduces [1] S256
  shapeCasts_S256_S256x1 : S256.ShapeCasts S256x1
  transposes_S256x1_p1_0_S1x256 : S256x1.Transposes [1, 0] S1x256
  shapeCasts_S1x256_S1x1x256 : S1x256.ShapeCasts S1x1x256
  inb_S1x1x256_S1x1x256_0_0_0 : ∀ a, (![0, 0, 0] : Fin 3 → Nat) a + S1x1x256.size a ≤ S1x1x256.size a
  h_S1x1x256 : 0 < S1x1x256.numel
  shapeCasts_S16x1x256_S4096 : S16x1x256.ShapeCasts S4096
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  transposes_S1x1024_p1_0_S1024x1 : S1x1024.Transposes [1, 0] S1024x1
  broadcasts_S1024x1_S1024x1024 : S1024x1.Broadcasts S1024x1024
  gather_S4096_S4096x1_S4096_n_0_n_n_0_1_1_wf : GatherDims.WF S4096 S4096x1 S4096 [] [0] [] [0] [] 1 ![1]
  scatter_S4096_S4096x1_S4096_n_0_0_1_wf : ScatterDims.WF S4096 S4096x1 S4096 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S4096x4096.size a
  hwx0_0 : ∀ i : grid0.Coords, EltTy.bits .f32 = 32 ∨ (Rect.block (s := S4096x4096) S4096x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x4096.size a
  hwx0_1 : ∀ i : grid0.Coords, EltTy.bits .f32 = 32 ∨ (Rect.block (s := S1x4096) S1x512.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .f32 = 32 ∨ (Rect.block (s := S4096x4096) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x4096.size a ≤ S8x1x4096.size a
  hwx1_1 : ∀ i : grid1.Coords, EltTy.bits .f32 = 32 ∨ (Rect.block (s := S8x1x4096) S1x1x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x512.size a ≤ S8x1x512.size a
  hwx1_2 : ∀ i : grid1.Coords, EltTy.bits .f32 = 32 ∨ (Rect.block (s := S8x1x512) S1x1x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x4096.size a ≤ S4096x4096.size a
  hwx2_0 : ∀ i : grid2.Coords, EltTy.bits .f32 = 32 ∨ (Rect.block (s := S4096x4096) S256x4096.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x4096.size a
  hwx2_1 : ∀ i : grid2.Coords, EltTy.bits .f32 = 32 ∨ (Rect.block (s := S1x4096) S1x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x4096.size a ≤ S4096x4096.size a
  hwx2_2 : ∀ i : grid2.Coords, EltTy.bits .f32 = 32 ∨ (Rect.block (s := S4096x4096) S256x4096.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1x256.size a ≤ S16x1x256.size a
  hwx2_3 : ∀ i : grid2.Coords, EltTy.bits .f32 = 32 ∨ (Rect.block (s := S16x1x256) S1x1x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S4096x4096.size a
  hwx3_0 : ∀ i : grid3.Coords, EltTy.bits .f32 = 32 ∨ (Rect.block (s := S4096x4096) S1024x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x1024.size a ≤ S1x4096.size a
  hwx3_1 : ∀ i : grid3.Coords, EltTy.bits .f32 = 32 ∨ (Rect.block (s := S1x4096) S1x1024.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x1024.size a ≤ S4096x4096.size a
  hwx3_2 : ∀ i : grid3.Coords, EltTy.bits .f32 = 32 ∨ (Rect.block (s := S4096x4096) S1024x1024.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S4096x4096.size a
  hwx4_0 : ∀ i : grid4.Coords, EltTy.bits .f32 = 32 ∨ (Rect.block (s := S4096x4096) S1024x1024.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x1024.size a ≤ S1x4096.size a
  hwx4_1 : ∀ i : grid4.Coords, EltTy.bits .f32 = 32 ∨ (Rect.block (s := S1x4096) S1x1024.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x1024.size a ≤ S1x4096.size a
  hwx4_2 : ∀ i : grid4.Coords, EltTy.bits .f32 = 32 ∨ (Rect.block (s := S1x4096) S1x1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x1024.size a ≤ S4096x4096.size a
  hwx4_3 : ∀ i : grid4.Coords, EltTy.bits .f32 = 32 ∨ (Rect.block (s := S4096x4096) S1024x1024.size (cc4_transform_3 i) (hinb4_3 i)).WholeWords (EltTy.packing .f32)

variable [Facts₀]

def gather_S4096_S4096x1_S4096_n_0_n_n_0_1_1 : GatherDims S4096 S4096x1 S4096 where
  offsetDims := []
  collapsedSliceDims := [0]
  operandBatchingDims := []
  startIndicesBatchingDims := []
  startIndexMap := [0]
  indexVectorDim := 1
  sliceSizes := ![1]
  wf := gather_S4096_S4096x1_S4096_n_0_n_n_0_1_1_wf
def scatter_S4096_S4096x1_S4096_n_0_0_1 : ScatterDims S4096 S4096x1 S4096 where
  updateWindowDims := []
  insertedWindowDims := [0]
  scatterDimsToOperandDims := [0]
  indexVectorDim := 1
  wf := scatter_S4096_S4096x1_S4096_n_0_0_1_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21_0) S1x1x4096.size cc1_transform_1 reads1_1 true false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21_1) S1x1x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg2) S256x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S1x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v48_0) S256x4096.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v48_1) S1x1x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg0) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v97) S1x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v98) S1024x1024.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_arg1) S1024x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v99) S1x1024.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v100) S1x1024.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v101) S1024x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S4096x4096 : Shape := ⟨2, ![4096, 4096]⟩
abbrev S2x4096 : Shape := ⟨2, ![2, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩

abbrev nBuf : Space → Nat
  | .hbm => 125
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S2x4096, .i32⟩
  | .hbm, ⟨4, _⟩ => ⟨S2x4096, .i32⟩
  | .hbm, ⟨5, _⟩ => ⟨S2x4096, .i32⟩
  | .hbm, ⟨6, _⟩ => ⟨S2x4096, .i32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S1x4096, .i32⟩
  | .hbm, ⟨12, _⟩ => ⟨S4096, .i32⟩
  | .hbm, ⟨13, _⟩ => ⟨S1x4096, .i32⟩
  | .hbm, ⟨14, _⟩ => ⟨S4096, .i32⟩
  | .hbm, ⟨15, _⟩ => ⟨S_, .i32⟩
  | .hbm, ⟨16, _⟩ => ⟨S4096, .i32⟩
  | .hbm, ⟨17, _⟩ => ⟨S4096, .i1⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S4096, .i32⟩
  | .hbm, ⟨22, _⟩ => ⟨S4096x1, .i32⟩
  | .hbm, ⟨23, _⟩ => ⟨S4096, .f32⟩
  | .hbm, ⟨24, _⟩ => ⟨S_, .i32⟩
  | .hbm, ⟨25, _⟩ => ⟨S4096, .i32⟩
  | .hbm, ⟨26, _⟩ => ⟨S4096, .i1⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S4096, .i32⟩
  | .hbm, ⟨31, _⟩ => ⟨S4096x1, .i32⟩
  | .hbm, ⟨32, _⟩ => ⟨S4096, .f32⟩
  | .hbm, ⟨33, _⟩ => ⟨S4096x1, .f32⟩
  | .hbm, ⟨34, _⟩ => ⟨S4096x4096, .f32⟩
  | .hbm, ⟨35, _⟩ => ⟨S4096x4096, .f32⟩
  | .hbm, ⟨36, _⟩ => ⟨S_, .f32⟩
  | .hbm, ⟨37, _⟩ => ⟨S4096, .f32⟩
  | .hbm, ⟨38, _⟩ => ⟨S_, .f32⟩
  | .hbm, ⟨39, _⟩ => ⟨S4096, .f32⟩
  | .hbm, ⟨40, _⟩ => ⟨S1x4096, .i32⟩
  | .hbm, ⟨41, _⟩ => ⟨S4096, .i32⟩
  | .hbm, ⟨42, _⟩ => ⟨S1x4096, .i32⟩
  | .hbm, ⟨43, _⟩ => ⟨S4096, .i32⟩
  | .hbm, ⟨44, _⟩ => ⟨S_, .i32⟩
  | .hbm, ⟨45, _⟩ => ⟨S4096, .i32⟩
  | .hbm, ⟨46, _⟩ => ⟨S4096, .i1⟩
  | .hbm, ⟨47, _⟩ => ⟨S_, .i32⟩
  | .hbm, ⟨48, _⟩ => ⟨S4096, .i32⟩
  | .hbm, ⟨49, _⟩ => ⟨S4096, .i32⟩
  | .hbm, ⟨50, _⟩ => ⟨S4096, .i32⟩
  | .hbm, ⟨51, _⟩ => ⟨S4096x1, .i32⟩
  | .hbm, ⟨52, _⟩ => ⟨S4096, .f32⟩
  | .hbm, ⟨53, _⟩ => ⟨S_, .i32⟩
  | .hbm, ⟨54, _⟩ => ⟨S4096, .i32⟩
  | .hbm, ⟨55, _⟩ => ⟨S4096, .i1⟩
  | .hbm, ⟨56, _⟩ => ⟨S_, .i32⟩
  | .hbm, ⟨57, _⟩ => ⟨S4096, .i32⟩
  | .hbm, ⟨58, _⟩ => ⟨S4096, .i32⟩
  | .hbm, ⟨59, _⟩ => ⟨S4096, .i32⟩
  | .hbm, ⟨60, _⟩ => ⟨S4096x1, .i32⟩
  | .hbm, ⟨61, _⟩ => ⟨S4096, .f32⟩
  | .hbm, ⟨62, _⟩ => ⟨S4096x1, .f32⟩
  | .hbm, ⟨63, _⟩ => ⟨S4096x4096, .f32⟩
  | .hbm, ⟨64, _⟩ => ⟨S4096x4096, .f32⟩
  | .hbm, ⟨65, _⟩ => ⟨S_, .f32⟩
  | .hbm, ⟨66, _⟩ => ⟨S4096, .f32⟩
  | .hbm, ⟨67, _⟩ => ⟨S4096, .f32⟩
  | .hbm, ⟨68, _⟩ => ⟨S_, .f32⟩
  | .hbm, ⟨69, _⟩ => ⟨S4096, .f32⟩
  | .hbm, ⟨70, _⟩ => ⟨S1x4096, .i32⟩
  | .hbm, ⟨71, _⟩ => ⟨S4096, .i32⟩
  | .hbm, ⟨72, _⟩ => ⟨S1x4096, .i32⟩
  | .hbm, ⟨73, _⟩ => ⟨S4096, .i32⟩
  | .hbm, ⟨74, _⟩ => ⟨S_, .i32⟩
  | .hbm, ⟨75, _⟩ => ⟨S4096, .i32⟩
  | .hbm, ⟨76, _⟩ => ⟨S4096, .i1⟩
  | .hbm, ⟨77, _⟩ => ⟨S_, .i32⟩
  | .hbm, ⟨78, _⟩ => ⟨S4096, .i32⟩
  | .hbm, ⟨79, _⟩ => ⟨S4096, .i32⟩
  | .hbm, ⟨80, _⟩ => ⟨S4096, .i32⟩
  | .hbm, ⟨81, _⟩ => ⟨S4096x1, .i32⟩
  | .hbm, ⟨82, _⟩ => ⟨S4096, .f32⟩
  | .hbm, ⟨83, _⟩ => ⟨S_, .i32⟩
  | .hbm, ⟨84, _⟩ => ⟨S4096, .i32⟩
  | .hbm, ⟨85, _⟩ => ⟨S4096, .i1⟩
  | .hbm, ⟨86, _⟩ => ⟨S_, .i32⟩
  | .hbm, ⟨87, _⟩ => ⟨S4096, .i32⟩
  | .hbm, ⟨88, _⟩ => ⟨S4096, .i32⟩
  | .hbm, ⟨89, _⟩ => ⟨S4096, .i32⟩
  | .hbm, ⟨90, _⟩ => ⟨S4096x1, .i32⟩
  | .hbm, ⟨91, _⟩ => ⟨S4096, .f32⟩
  | .hbm, ⟨92, _⟩ => ⟨S1x4096, .f32⟩
  | .hbm, ⟨93, _⟩ => ⟨S4096x4096, .f32⟩
  | .hbm, ⟨94, _⟩ => ⟨S4096x4096, .f32⟩
  | .hbm, ⟨95, _⟩ => ⟨S_, .f32⟩
  | .hbm, ⟨96, _⟩ => ⟨S4096, .f32⟩
  | .hbm, ⟨97, _⟩ => ⟨S4096, .f32⟩
  | .hbm, ⟨98, _⟩ => ⟨S_, .f32⟩
  | .hbm, ⟨99, _⟩ => ⟨S4096, .f32⟩
  | .hbm, ⟨100, _⟩ => ⟨S1x4096, .i32⟩
  | .hbm, ⟨101, _⟩ => ⟨S4096, .i32⟩
  | .hbm, ⟨102, _⟩ => ⟨S1x4096, .i32⟩
  | .hbm, ⟨103, _⟩ => ⟨S4096, .i32⟩
  | .hbm, ⟨104, _⟩ => ⟨S_, .i32⟩
  | .hbm, ⟨105, _⟩ => ⟨S4096, .i32⟩
  | .hbm, ⟨106, _⟩ => ⟨S4096, .i1⟩
  | .hbm, ⟨107, _⟩ => ⟨S_, .i32⟩
  | .hbm, ⟨108, _⟩ => ⟨S4096, .i32⟩
  | .hbm, ⟨109, _⟩ => ⟨S4096, .i32⟩
  | .hbm, ⟨110, _⟩ => ⟨S4096, .i32⟩
  | .hbm, ⟨111, _⟩ => ⟨S4096x1, .i32⟩
  | .hbm, ⟨112, _⟩ => ⟨S4096, .f32⟩
  | .hbm, ⟨113, _⟩ => ⟨S_, .i32⟩
  | .hbm, ⟨114, _⟩ => ⟨S4096, .i32⟩
  | .hbm, ⟨115, _⟩ => ⟨S4096, .i1⟩
  | .hbm, ⟨116, _⟩ => ⟨S_, .i32⟩
  | .hbm, ⟨117, _⟩ => ⟨S4096, .i32⟩
  | .hbm, ⟨118, _⟩ => ⟨S4096, .i32⟩
  | .hbm, ⟨119, _⟩ => ⟨S4096, .i32⟩
  | .hbm, ⟨120, _⟩ => ⟨S4096x1, .i32⟩
  | .hbm, ⟨121, _⟩ => ⟨S4096, .f32⟩
  | .hbm, ⟨122, _⟩ => ⟨S1x4096, .f32⟩
  | .hbm, ⟨123, _⟩ => ⟨S4096x4096, .f32⟩
  | .hbm, ⟨124, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_c_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_8 : Ref sig .tc := ⟨.hbm, 53, rfl⟩
abbrev main_v36 : Ref sig .tc := ⟨.hbm, 54, rfl⟩
abbrev main_v37 : Ref sig .tc := ⟨.hbm, 55, rfl⟩
abbrev main_c_9 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_10 : Ref sig .tc := ⟨.hbm, 65, rfl⟩
abbrev main_v46 : Ref sig .tc := ⟨.hbm, 66, rfl⟩
abbrev main_v47 : Ref sig .tc := ⟨.hbm, 67, rfl⟩
abbrev main_cst_11 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_12 : Ref sig .tc := ⟨.hbm, 74, rfl⟩
abbrev main_v53 : Ref sig .tc := ⟨.hbm, 75, rfl⟩
abbrev main_v54 : Ref sig .tc := ⟨.hbm, 76, rfl⟩
abbrev main_c_13 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_c_14 : Ref sig .tc := ⟨.hbm, 83, rfl⟩
abbrev main_v60 : Ref sig .tc := ⟨.hbm, 84, rfl⟩
abbrev main_v61 : Ref sig .tc := ⟨.hbm, 85, rfl⟩
abbrev main_c_15 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_16 : Ref sig .tc := ⟨.hbm, 95, rfl⟩
abbrev main_v70 : Ref sig .tc := ⟨.hbm, 96, rfl⟩
abbrev main_v71 : Ref sig .tc := ⟨.hbm, 97, rfl⟩
abbrev main_cst_17 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_c_18 : Ref sig .tc := ⟨.hbm, 104, rfl⟩
abbrev main_v77 : Ref sig .tc := ⟨.hbm, 105, rfl⟩
abbrev main_v78 : Ref sig .tc := ⟨.hbm, 106, rfl⟩
abbrev main_c_19 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_c_20 : Ref sig .tc := ⟨.hbm, 113, rfl⟩
abbrev main_v84 : Ref sig .tc := ⟨.hbm, 114, rfl⟩
abbrev main_v85 : Ref sig .tc := ⟨.hbm, 115, rfl⟩
abbrev main_c_21 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩

abbrev nD : Nat := 1
abbrev τ : Topo := Topo.v7x

variable {F : FTy → Type} [FloatOps F]

class Facts₀ : Prop where
  reducesTo_S4096x4096_S4096_d0 : S4096x4096.ReducesTo [0] S4096
  h_S_ : 0 < S_.numel
  bcast_S_S4096 : S_.BroadcastsInDim S4096 (![] : Fin 0 → Fin S4096.rank)
  slices_S2x4096_S1x4096_1_0 : S2x4096.Slices ![1, 0] S1x4096
  shapeCasts_S1x4096_S4096 : S1x4096.ShapeCasts S4096
  slices_S2x4096_S1x4096_0_0 : S2x4096.Slices ![0, 0] S1x4096
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  reducesTo_S4096x4096_S4096_d1 : S4096x4096.ReducesTo [1] S4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  gather_S4096_S4096x1_S4096_n_0_n_n_0_1_1_wf : GatherDims.WF S4096 S4096x1 S4096 [] [0] [] [0] [] 1 ![1]
  scatter_S4096_S4096x1_S4096_n_0_0_1_wf : ScatterDims.WF S4096 S4096x1 S4096 [] [0] [0] 1

variable [Facts₀]

def gather_S4096_S4096x1_S4096_n_0_n_n_0_1_1 : GatherDims S4096 S4096x1 S4096 where
  offsetDims := []
  collapsedSliceDims := [0]
  operandBatchingDims := []
  startIndicesBatchingDims := []
  startIndexMap := [0]
  indexVectorDim := 1
  sliceSizes := ![1]
  wf := gather_S4096_S4096x1_S4096_n_0_n_n_0_1_1_wf
def scatter_S4096_S4096x1_S4096_n_0_0_1 : ScatterDims S4096 S4096x1 S4096 where
  updateWindowDims := []
  insertedWindowDims := [0]
  scatterDimsToOperandDims := [0]
  indexVectorDim := 1
  wf := scatter_S4096_S4096x1_S4096_n_0_0_1_wf

class Facts : Prop extends Facts₀ where

variable [Facts]
-- ==== Proof.Spec.lean ====
/-
  The specification: belief propagation over three cliques with variable domains of size 4096.

  Three potentials θ0 (over X, Y), θ1 (over Y, Z), θ2 (over Z, W), each a 4096 × 4096 array, and four index tables
  op0 … op3 (two rows of 4096 index words each). A message is a length-4096 vector; it is sent by `remap`: the vector
  is gathered at the table's first row (an index word below zero is taken from the end) and the gathered entries are
  summed into a vector of zeros at the positions the table's second row names.

  The messages, in order (`colsum` sums over the first axis, `rowsum` over the second, `total` over a vector):
    m0 = remap (colsum θ0) op0                                  clique 0 → clique 1
    m1 = remap (column sums of θ1 + m0 down the rows) op1       clique 1 → clique 2
    m2 = remap (row sums of θ2 + m1 down the rows, less m1) op2 clique 2 → clique 1
    m3 = remap (row sums of θ1 + m0 down the rows + m2 along the columns, less m0) op3   clique 1 → clique 0
  and the results are θ0 + m3 along the columns, θ1 + m0 down the rows + m2 along the columns, θ2 + m1 down the rows.

  Each vector handed to `remap` is written twice. The `R` forms sum the updated array and subtract:
    Σ_y (θ1(y,z) + m0 y),   Σ_w (θ2(z,w) + m1 z) − m1 z,   Σ_z ((θ1(y,z) + m0 y) + m2 z) − m0 y.
  The `K` forms sum the original array and correct by the message's own sum or by 4095 copies of it:
    Σ_y θ1(y,z) + Σ_y m0 y,   Σ_w θ2(z,w) + 4095 · m1 z,   (Σ_z θ1(y,z) + 4095 · m0 y) + Σ_z m2 z.
  The first pair is equal in any commutative monoid; the other two are equal when every entry is a real number
  (n copies of b less one b is (n − 1) · b only away from the infinities).
-/
import proofs.«122477_j61564061221583_2_alg».proof.KernelIdeal
import Idealize.ShloMosaic.PureOps.Ideal
import Idealize.ShloMosaic.Lib.ValueIdx

noncomputable section

namespace Cert.BP

open Idealize.ShloMosaic Idealize.ShloMosaic.ValueIdx Cert.KernelIdeal

/-- A 4096 × 4096 array of extended reals. -/
abbrev Mat := (⟨S4096x4096, .f32⟩ : BufTy).Contents (Elt Ideal)
/-- A length-4096 vector of extended reals. -/
abbrev Vec := (⟨S4096, .f32⟩ : BufTy).Contents (Elt Ideal)
/-- An index table: two rows of 4096 index words. -/
abbrev Tab := (⟨S2x4096, .i32⟩ : BufTy).Contents (Elt Ideal)
/-- A column of 4096 index words. -/
abbrev Col := (⟨S4096x1, .i32⟩ : BufTy).Contents (Elt Ideal)

-- the shape side conditions the printed program states (a proposition-valued class; the generated module proves it)
variable [Facts₀]
open Facts₀

/-- The table's first row as a column of index words, a word below zero moved up by 4096. -/
def srcCol (op : Tab) : Col :=
  broadcastInDim S4096x1 ![0] bcast_S4096_S4096x1_0 (select (cmpi .slt (shapeCast _ (extractStridedSlice S1x4096 ![0, 0] op slices_S2x4096_S1x4096_0_0) shapeCasts_S1x4096_S4096) (broadcastInDim S4096 ![] bcast_S_S4096 (constantI S_ 32 0#32))) (addi (shapeCast _ (extractStridedSlice S1x4096 ![0, 0] op slices_S2x4096_S1x4096_0_0) shapeCasts_S1x4096_S4096) (broadcastInDim S4096 ![] bcast_S_S4096 (constantI S_ 32 4096#32))) (shapeCast _ (extractStridedSlice S1x4096 ![0, 0] op slices_S2x4096_S1x4096_0_0) shapeCasts_S1x4096_S4096))

/-- The table's second row as a column of index words, a word below zero moved up by 4096. -/
def dstCol (op : Tab) : Col :=
  broadcastInDim S4096x1 ![0] bcast_S4096_S4096x1_0 (select (cmpi .slt (shapeCast _ (extractStridedSlice S1x4096 ![1, 0] op slices_S2x4096_S1x4096_1_0) shapeCasts_S1x4096_S4096) (broadcastInDim S4096 ![] bcast_S_S4096 (constantI S_ 32 0#32))) (addi (shapeCast _ (extractStridedSlice S1x4096 ![1, 0] op slices_S2x4096_S1x4096_1_0) shapeCasts_S1x4096_S4096) (broadcastInDim S4096 ![] bcast_S_S4096 (constantI S_ 32 4096#32))) (shapeCast _ (extractStridedSlice S1x4096 ![1, 0] op slices_S2x4096_S1x4096_1_0) shapeCasts_S1x4096_S4096))

/-- Sending a message: the vector gathered at the table's first row, summed into zeros at the second row's positions. -/
def remap (proc : Vec) (op : Tab) : Vec :=
  Host.scatterAdd (F := Ideal) scatter_S4096_S4096x1_S4096_n_0_0_1
    (broadcastInDim S4096 ![] bcast_S_S4096 (constant (F := Ideal) S_ .f32 0x00000000#32)) (dstCol op)
    (Host.gather gather_S4096_S4096x1_S4096_n_0_n_n_0_1_1 proc (srcCol op))

/-- A vector from its 4096 entries. -/
def vec (f : Fin 4096 → EReal) : Vec := fun i => f ⟨(i 0).val, (i 0).isLt⟩
/-- Entry `k` of a vector. -/
def ent (v : Vec) (k : Fin 4096) : EReal := v (ix1 k)

theorem ent_vec (f : Fin 4096 → EReal) (k : Fin 4096) : ent (vec f) k = f k := rfl

/-- The sum of column `y`. -/
def colsum (θ : Mat) (y : Fin 4096) : EReal := ∑ x : Fin 4096, θ (ix2 x y)
/-- The sum of row `x`. -/
def rowsum (θ : Mat) (x : Fin 4096) : EReal := ∑ y : Fin 4096, θ (ix2 x y)
/-- The sum of a vector's entries. -/
def total (f : Fin 4096 → EReal) : EReal := ∑ k : Fin 4096, f k

/-! ### Arrays the grid computations pass along -/

/-- A 1 × 4096 row. -/
abbrev Row := (⟨S1x4096, .f32⟩ : BufTy).Contents (Elt Ideal)

/-- Row `j` of strip `r` when the 4096 rows are cut into eight strips of 512. -/
def strip512 (r : Fin 8) (j : Fin 512) : Fin 4096 := ⟨r.val * 512 + j.val, by have := r.isLt; have := j.isLt; omega⟩
/-- Row `j` of strip `r` when the 4096 rows are cut into sixteen strips of 256. -/
def strip256 (r : Fin 16) (j : Fin 256) : Fin 4096 := ⟨r.val * 256 + j.val, by have := r.isLt; have := j.isLt; omega⟩

/-- A vector laid out as a 1 × 4096 row. -/
def rowOf (v : Vec) : Row := fun i => v (ix1 ⟨(i 1).val, (i 1).isLt⟩)
/-- The column sums as a 1 × 4096 row. -/
def colsumRow (θ : Mat) : Row := fun i => colsum θ ⟨(i 1).val, (i 1).isLt⟩
/-- Per strip of 512 rows, the column sums of that strip: entry (r, 0, z). -/
def stripColsums (θ : Mat) : (⟨S8x1x4096, .f32⟩ : BufTy).Contents (Elt Ideal) :=
  fun i => ∑ j : Fin 512, θ (ix2 (strip512 ⟨(i 0).val, (i 0).isLt⟩ j) (⟨(i 2).val, (i 2).isLt⟩ : Fin 4096))
/-- The row sums, eight strips of 512 rows: entry (r, 0, j) is the sum of row 512 r + j. -/
def stripRowsums512 (θ : Mat) : (⟨S8x1x512, .f32⟩ : BufTy).Contents (Elt Ideal) :=
  fun i => rowsum θ (strip512 ⟨(i 0).val, (i 0).isLt⟩ ⟨(i 2).val, (i 2).isLt⟩)
/-- The row sums, sixteen strips of 256 rows: entry (r, 0, j) is the sum of row 256 r + j. -/
def stripRowsums256 (θ : Mat) : (⟨S16x1x256, .f32⟩ : BufTy).Contents (Elt Ideal) :=
  fun i => rowsum θ (strip256 ⟨(i 0).val, (i 0).isLt⟩ ⟨(i 2).val, (i 2).isLt⟩)
/-- Entry `x` of the row added to every entry of row `x` of the array. -/
def addDownRows (θ : Mat) (r : Row) : Mat := fun i => θ i + r (ix2 (0 : Fin 1) (⟨(i 0).val, (i 0).isLt⟩ : Fin 4096))
/-- Entry `y` of the row added to every entry of column `y` of the array. -/
def addAlongCols (θ : Mat) (r : Row) : Mat := fun i => θ i + r (ix2 (0 : Fin 1) (⟨(i 1).val, (i 1).isLt⟩ : Fin 4096))

/-- The number 4095 as the f32 pattern the program spells. -/
abbrev c4095 : EReal := Ideal.ofBits .f32 0x457FF000#32

variable (θ0 θ1 θ2 : Mat) (op0 op1 op2 op3 : Tab)

/-- The first message, clique 0 → clique 1. -/
def m0 : Vec := remap (vec (colsum θ0)) op0

/-! ### The sums corrected by the messages (the K forms) -/

def proc1K (z : Fin 4096) : EReal := colsum θ1 z + total (ent (m0 θ0 op0))
def m1K : Vec := remap (vec (proc1K θ0 θ1 op0)) op1
def proc2K (z : Fin 4096) : EReal := rowsum θ2 z + c4095 * ent (m1K θ0 θ1 op0 op1) z
def m2K : Vec := remap (vec (proc2K θ0 θ1 θ2 op0 op1)) op2
def proc3K (y : Fin 4096) : EReal := (rowsum θ1 y + c4095 * ent (m0 θ0 op0) y) + total (ent (m2K θ0 θ1 θ2 op0 op1 op2))
def m3K : Vec := remap (vec (proc3K θ0 θ1 θ2 op0 op1 op2)) op3

def out0K : Mat := fun i => θ0 i + ent (m3K θ0 θ1 θ2 op0 op1 op2 op3) ⟨(i 1).val, (i 1).isLt⟩
def out1K : Mat := fun i => (θ1 i + ent (m0 θ0 op0) ⟨(i 0).val, (i 0).isLt⟩) + ent (m2K θ0 θ1 θ2 op0 op1 op2) ⟨(i 1).val, (i 1).isLt⟩
def out2K : Mat := fun i => θ2 i + ent (m1K θ0 θ1 op0 op1) ⟨(i 0).val, (i 0).isLt⟩

/-! ### The sums of the updated arrays (the R forms) -/

def proc1R (z : Fin 4096) : EReal := ∑ y : Fin 4096, (θ1 (ix2 y z) + ent (m0 θ0 op0) y)
def m1R : Vec := remap (vec (proc1R θ0 θ1 op0)) op1
def proc2R (z : Fin 4096) : EReal :=
  (∑ w : Fin 4096, (θ2 (ix2 z w) + ent (m1R θ0 θ1 op0 op1) z)) - ent (m1R θ0 θ1 op0 op1) z
def m2R : Vec := remap (vec (proc2R θ0 θ1 θ2 op0 op1)) op2
def proc3R (y : Fin 4096) : EReal :=
  (∑ z : Fin 4096, ((θ1 (ix2 y z) + ent (m0 θ0 op0) y) + ent (m2R θ0 θ1 θ2 op0 op1 op2) z)) - ent (m0 θ0 op0) y
def m3R : Vec := remap (vec (proc3R θ0 θ1 θ2 op0 op1 op2)) op3

def out0R : Mat := fun i => θ0 i + ent (m3R θ0 θ1 θ2 op0 op1 op2 op3) ⟨(i 1).val, (i 1).isLt⟩
def out1R : Mat := fun i => (θ1 i + ent (m0 θ0 op0) ⟨(i 0).val, (i 0).isLt⟩) + ent (m2R θ0 θ1 θ2 op0 op1 op2) ⟨(i 1).val, (i 1).isLt⟩
def out2R : Mat := fun i => θ2 i + ent (m1R θ0 θ1 op0 op1) ⟨(i 0).val, (i 0).isLt⟩

end Cert.BP

end
-- ==== Proof.KRun.lean ====
/-
  The idealized kernel's run with every buffer's final contents named.

  @main is nine segments: five grid computations among four stretches of host operations. From any launch memory every
  weakly fair execution terminates without a fault, and at the end each buffer that lives outside the grid computations'
  scopes holds the contents obtained by folding the segments over the launch memory: a host stretch applies its
  operations, a grid computation replaces its result arrays by what its grid points wrote back and leaves every other
  buffer alone. The argument arrays and the three result arrays are such buffers.
-/
import proofs.«122477_j61564061221583_2_alg».proof.Proof.Gen.KernelIdeal.Frame

set_option maxRecDepth 16384

noncomputable section

namespace Cert.BP.K

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every core at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- The same, read at one TensorCore buffer that no grid computation scopes. -/
theorem run_at (bs : List (Ref sig .tc)) (hbs : ∀ b ∈ bs, ¬ (Proc.devRef .tc b : DevRef τ sig).isScoped) :
    θ_run defs (onTc (τ := τ) (main (F := F))) ⟨m, fun _ => 0, ρ⟩ (fun r => ∀ c : Dev nD,
      ∀ b ∈ bs, r.2.mem ((c.tc : Thread nD τ).loc b) = W9 m ρ c (Proc.devRef .tc b)) :=
  (θ_run defs _ _).mono (fun r h c b hb => h c _ (mem_uc b (hbs b hb))) (run_all m ρ)

end Cert.BP.K

end
-- ==== Proof.LibRowCast.lean ====
/-
  A vector of length n and the row [1, n] that holds the same elements: a shape cast between the two keeps every
  element's row-major position, which is j for the vector's element j and 0 · n + j for the row's element (0, j).
  So the cast to a row reads the vector at the column coordinate, and the cast back reads the row at (0, j).
-/
import Idealize.ShloMosaic.Lib.ValueIdx
import Idealize.ShloMosaic.Lib.Pipeline.Value
import Idealize.ShloMosaic.Lib.ValueLayout

namespace Idealize.ShloMosaic.RowCast

open Idealize.ShloMosaic Idealize.ShloMosaic.ValueIdx

/-- A vector of length n cast to a row [1, n] reads, at (u, j), the vector at j, whatever the unit coordinate u:
    the row-major positions are u · n + j with u = 0, and j. -/
theorem shapeCast_row_apply {α : Type} {n : ℕ} (x : (⟨1, ![n]⟩ : Shape).Idx → α)
    (h : (⟨1, ![n]⟩ : Shape).ShapeCasts (⟨2, ![1, n]⟩ : Shape)) (u : Fin 1) (j : Fin n) :
    shapeCast (⟨2, ![1, n]⟩ : Shape) x h (ix2 u j) = x (ix1 j) :=
  shapeCast_apply x h _ _ (by
    have hu : u.val = 0 := by omega
    rw [Shape.rowMajor_val_two, Shape.rowMajor_val_one]
    show j.val = u.val * n + j.val
    rw [hu, Nat.zero_mul, Nat.zero_add])

/-- A row [1, n] cast to a vector of length n reads, at j, the row at (0, j): the row-major positions are
    0 · n + j and j. -/
theorem shapeCast_unrow_apply {α : Type} {n : ℕ} (x : (⟨2, ![1, n]⟩ : Shape).Idx → α)
    (h : (⟨2, ![1, n]⟩ : Shape).ShapeCasts (⟨1, ![n]⟩ : Shape)) (j : Fin n) :
    shapeCast (⟨1, ![n]⟩ : Shape) x h (ix1 j) = x (ix2 (0 : Fin 1) j) :=
  shapeCast_apply x h _ _ (by
    rw [Shape.rowMajor_val_two, Shape.rowMajor_val_one]
    show (0 : ℕ) * n + j.val = j.val
    rw [Nat.zero_mul, Nat.zero_add])

end Idealize.ShloMosaic.RowCast
-- ==== Proof.LibBatchNorm.lean ====
import Idealize.ShloMosaic.PureOps.Ideal
import Mathlib.Algebra.BigOperators.Fin
import Mathlib.Tactic

/-!
# Batch normalisation on the extended reals, for finite entries

A batch of extended reals that are all finite (each the image of a real number) has a mean and
a variance, and the two textbook ways of normalising it agree:

* the variance as the second moment minus the squared mean, and the normalisation as the affine
  map x ↦ x · scale + shift with scale = γ · rsqrt (var + ε), shift = β − mean · scale;
* the variance as the mean of the squared deviations, and the normalisation as
  ((x − mean) · rsqrt (var + ε)) · γ + β.

On the extended reals these identities fail at the infinities (⊤ − ⊤ is ⊥, 0 · ⊤ is 0), so every
statement here assumes finite entries: real witnesses are chosen, the identity is computed in ℝ,
and the coercion ℝ → EReal is pushed out through sums, products and differences.

The file also has two bookkeeping facts about sums that hold for all extended reals: a sum over
a · b rows regrouped into a blocks of b rows, and a running accumulator as a partial sum.
-/

namespace Cert.LibBatchNorm

noncomputable section

open Idealize.ShloMosaic

/-! ### Finite extended reals -/

/-- An extended real is finite when it is the image of a real number. -/
def IsFin (x : EReal) : Prop := ∃ a : ℝ, x = (a : EReal)

/-- The image of a real number is finite. -/
theorem isFin_coe (a : ℝ) : IsFin (a : EReal) := ⟨a, rfl⟩

/-- Zero is finite. -/
theorem isFin_zero : IsFin (0 : EReal) := ⟨0, rfl⟩

/-- One is finite. -/
theorem isFin_one : IsFin (1 : EReal) := ⟨1, rfl⟩

/-- A finite extended real is neither ⊥ nor ⊤. -/
theorem IsFin.ne_bot_top {x : EReal} (hx : IsFin x) : x ≠ ⊥ ∧ x ≠ ⊤ := by
  obtain ⟨a, rfl⟩ := hx
  exact ⟨EReal.coe_ne_bot a, EReal.coe_ne_top a⟩

/-- An extended real that is neither ⊥ nor ⊤ is finite. -/
theorem isFin_of_ne {x : EReal} (hb : x ≠ ⊥) (ht : x ≠ ⊤) : IsFin x :=
  ⟨x.toReal, (EReal.coe_toReal ht hb).symm⟩

/-- The sum of two finite extended reals is finite. -/
theorem IsFin.add {x y : EReal} (hx : IsFin x) (hy : IsFin y) : IsFin (x + y) := by
  obtain ⟨a, rfl⟩ := hx
  obtain ⟨b, rfl⟩ := hy
  exact ⟨a + b, (EReal.coe_add a b).symm⟩

/-- The difference of two finite extended reals is finite. -/
theorem IsFin.sub {x y : EReal} (hx : IsFin x) (hy : IsFin y) : IsFin (x - y) := by
  obtain ⟨a, rfl⟩ := hx
  obtain ⟨b, rfl⟩ := hy
  exact ⟨a - b, (EReal.coe_sub a b).symm⟩

/-- The product of two finite extended reals is finite. -/
theorem IsFin.mul {x y : EReal} (hx : IsFin x) (hy : IsFin y) : IsFin (x * y) := by
  obtain ⟨a, rfl⟩ := hx
  obtain ⟨b, rfl⟩ := hy
  exact ⟨a * b, (EReal.coe_mul a b).symm⟩

/-- The negation of a finite extended real is finite. -/
theorem IsFin.neg {x : EReal} (hx : IsFin x) : IsFin (-x) := by
  obtain ⟨a, rfl⟩ := hx
  exact ⟨-a, (EReal.coe_neg a).symm⟩

/-- The larger of two finite extended reals is finite. -/
theorem IsFin.max {x y : EReal} (hx : IsFin x) (hy : IsFin y) : IsFin (max x y) := by
  rcases max_choice x y with h | h <;> rw [h] <;> assumption

/-- The smaller of two finite extended reals is finite. -/
theorem IsFin.min {x y : EReal} (hx : IsFin x) (hy : IsFin y) : IsFin (min x y) := by
  rcases min_choice x y with h | h <;> rw [h] <;> assumption

/-- A choice between a finite extended real and zero is finite. -/
theorem IsFin.ite_zero {x : EReal} (hx : IsFin x) (p : Prop) [Decidable p] :
    IsFin (if p then x else 0) := by
  split
  · exact hx
  · exact isFin_zero

/-- A choice between two finite extended reals is finite. -/
theorem IsFin.ite {x y : EReal} (hx : IsFin x) (hy : IsFin y) (p : Prop) [Decidable p] :
    IsFin (if p then x else y) := by
  split
  · exact hx
  · exact hy

/-- The coercion ℝ → EReal commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of finite extended reals is finite. -/
theorem isFin_sum {ι : Type*} (s : Finset ι) (f : ι → EReal) (h : ∀ i ∈ s, IsFin (f i)) :
    IsFin (∑ i ∈ s, f i) := by
  classical
  induction s using Finset.induction_on with
  | empty => simpa using isFin_zero
  | insert a s ha ih =>
    rw [Finset.sum_insert ha]
    exact (h a (Finset.mem_insert_self a s)).add
      (ih (fun i hi => h i (Finset.mem_insert_of_mem hi)))

/-- A finite extended real divided by a nonzero real is finite. -/
theorem IsFin.div_coe {x : EReal} (hx : IsFin x) {n : ℝ} (hn : n ≠ 0) :
    IsFin (Ideal.div x (n : EReal)) := by
  obtain ⟨a, rfl⟩ := hx
  rw [Ideal.div_coe hn]
  exact ⟨a * (1 / n), (EReal.coe_mul a (1 / n)).symm⟩

/-- Dividing the image of a real by a nonzero real is the image of the real quotient. -/
theorem div_coe_coe (a : ℝ) {n : ℝ} (hn : n ≠ 0) :
    Ideal.div (a : EReal) (n : EReal) = ((a / n : ℝ) : EReal) := by
  rw [Ideal.div_coe hn, ← EReal.coe_mul, mul_one_div]

/-- The reciprocal square root of a positive real is the image of the real reciprocal square root. -/
theorem rsqrt_coe_pos {r : ℝ} (hr : 0 < r) :
    Ideal.rsqrt (r : EReal) = (((Real.sqrt r)⁻¹ : ℝ) : EReal) := by
  rw [Ideal.rsqrt_coe, if_neg (not_lt.mpr hr.le), if_neg hr.ne']

/-- Finite entries are the images of one real-valued function. -/
theorem exists_real_fun {ι : Type*} (y : ι → EReal) (hy : ∀ r, IsFin (y r)) :
    ∃ a : ι → ℝ, ∀ r, y r = (a r : EReal) :=
  ⟨fun r => (hy r).choose, fun r => (hy r).choose_spec⟩

/-! ### Mean and variance of a finite batch -/

section Batch

variable {ι : Type*} [Fintype ι]

/-- The mean of a batch: the sum of its entries divided by n. -/
abbrev mean (y : ι → EReal) (n : ℝ) : EReal := Ideal.div (∑ r, y r) (n : EReal)

/-- The variance as the second moment minus the squared mean. -/
abbrev varMoment (y : ι → EReal) (n : ℝ) : EReal :=
  Ideal.div (∑ r, y r * y r) (n : EReal) - mean y n * mean y n

/-- The variance as the mean of the squared deviations from the mean. -/
abbrev varCentered (y : ι → EReal) (n : ℝ) : EReal :=
  Ideal.div (∑ r, (y r - mean y n) * (y r - mean y n)) (n : EReal)

/-- The mean of the images of reals is the image of the real mean. -/
theorem mean_coe (a : ι → ℝ) {n : ℝ} (hn : n ≠ 0) :
    mean (fun r => (a r : EReal)) n = (((∑ r, a r) / n : ℝ) : EReal) := by
  rw [mean, ← coe_sum, div_coe_coe _ hn]

/-- The moment variance of the images of reals is the image of the real moment variance. -/
theorem varMoment_coe (a : ι → ℝ) {n : ℝ} (hn : n ≠ 0) :
    varMoment (fun r => (a r : EReal)) n
      = (((∑ r, a r * a r) / n - (∑ r, a r) / n * ((∑ r, a r) / n) : ℝ) : EReal) := by
  rw [varMoment, mean_coe a hn]
  simp only [← EReal.coe_mul]
  rw [← coe_sum, div_coe_coe _ hn, ← EReal.coe_sub]

/-- The centred variance of the images of reals is the image of the real centred variance. -/
theorem varCentered_coe (a : ι → ℝ) {n : ℝ} (hn : n ≠ 0) :
    varCentered (fun r => (a r : EReal)) n
      = (((∑ r, (a r - (∑ r, a r) / n) * (a r - (∑ r, a r) / n)) / n : ℝ) : EReal) := by
  rw [varCentered, mean_coe a hn]
  simp only [← EReal.coe_sub, ← EReal.coe_mul]
  rw [← coe_sum, div_coe_coe _ hn]

/-- For reals, the second moment minus the squared mean is the mean squared deviation. -/
theorem real_var_identity (a : ι → ℝ) {n : ℝ} (hn : n ≠ 0) (hcard : (Fintype.card ι : ℝ) = n) :
    (∑ r, a r * a r) / n - (∑ r, a r) / n * ((∑ r, a r) / n)
      = (∑ r, (a r - (∑ r, a r) / n) * (a r - (∑ r, a r) / n)) / n := by
  set S := ∑ r, a r with hS
  have h1 : ∑ r, (a r - S / n) * (a r - S / n)
      = (∑ r, a r * a r) - 2 * (S / n) * S + n * (S / n * (S / n)) := by
    have : ∀ r, (a r - S / n) * (a r - S / n)
        = a r * a r - 2 * (S / n) * a r + S / n * (S / n) := fun r => by ring
    simp only [this]
    rw [Finset.sum_add_distrib, Finset.sum_sub_distrib, ← Finset.mul_sum, Finset.sum_const,
      Finset.card_univ, nsmul_eq_mul, hcard]
  rw [h1]
  field_simp
  ring

variable (y : ι → EReal) (hy : ∀ r, IsFin (y r)) (n : ℝ) (hn : 0 < n)
  (hcard : (Fintype.card ι : ℝ) = n)

include hy hn in
/-- The mean of a finite batch is finite. -/
theorem mean_isFin : IsFin (mean y n) :=
  (isFin_sum _ _ (fun r _ => hy r)).div_coe hn.ne'

include hy hn hcard in
/-- Second moment minus squared mean equals mean squared deviation, for a finite batch of n entries. -/
theorem varMoment_eq_varCentered : varMoment y n = varCentered y n := by
  obtain ⟨a, ha⟩ := exists_real_fun y hy
  obtain rfl : y = fun r => (a r : EReal) := funext ha
  rw [varMoment_coe a hn.ne', varCentered_coe a hn.ne', real_var_identity a hn.ne' hcard]

include hy hn in
/-- The mean squared deviation of a finite batch is a nonnegative real. -/
theorem varCentered_nonneg : ∃ v : ℝ, 0 ≤ v ∧ varCentered y n = (v : EReal) := by
  obtain ⟨a, ha⟩ := exists_real_fun y hy
  obtain rfl : y = fun r => (a r : EReal) := funext ha
  refine ⟨_, ?_, varCentered_coe a hn.ne'⟩
  exact div_nonneg (Finset.sum_nonneg (fun r _ => mul_self_nonneg _)) hn.le

include hy hn hcard in
/-- The moment variance of a finite batch of n entries is a nonnegative real. -/
theorem varMoment_nonneg : ∃ v : ℝ, 0 ≤ v ∧ varMoment y n = (v : EReal) := by
  rw [varMoment_eq_varCentered y hy n hn hcard]
  exact varCentered_nonneg y hy n hn

include hy hn in
/-- The reciprocal square root of variance plus a positive ε is finite. -/
theorem rsqrt_var_isFin (e : ℝ) (he : 0 < e) :
    ∃ s : ℝ, Ideal.rsqrt (varCentered y n + (e : EReal)) = (s : EReal) := by
  obtain ⟨v, hv, hve⟩ := varCentered_nonneg y hy n hn
  rw [hve, ← EReal.coe_add, rsqrt_coe_pos (by linarith)]
  exact ⟨_, rfl⟩

include hy hn hcard in
/-- The affine normalisation with the moment variance equals the centred normalisation. -/
theorem normalize_eq (g b e : ℝ) (he : 0 < e) (r0 : ι) :
    y r0 * ((g : EReal) * Ideal.rsqrt (varMoment y n + (e : EReal)))
        + ((b : EReal) - mean y n * ((g : EReal) * Ideal.rsqrt (varMoment y n + (e : EReal))))
      = ((y r0 - mean y n) * Ideal.rsqrt (varCentered y n + (e : EReal))) * (g : EReal)
        + (b : EReal) := by
  rw [varMoment_eq_varCentered y hy n hn hcard]
  obtain ⟨s, hs⟩ := rsqrt_var_isFin y hy n hn e he
  obtain ⟨m, hm⟩ := mean_isFin y hy n hn
  obtain ⟨a, ha⟩ := hy r0
  rw [hs, hm, ha]
  simp only [← EReal.coe_mul, ← EReal.coe_sub, ← EReal.coe_add]
  congr 1
  ring

include hy hn hcard in
/-- The same identity with finite extended reals γ, β in place of images of reals. -/
theorem normalize_eq_of_isFin {γ β : EReal} (hγ : IsFin γ) (hβ : IsFin β) (e : ℝ) (he : 0 < e)
    (r0 : ι) :
    y r0 * (γ * Ideal.rsqrt (varMoment y n + (e : EReal)))
        + (β - mean y n * (γ * Ideal.rsqrt (varMoment y n + (e : EReal))))
      = ((y r0 - mean y n) * Ideal.rsqrt (varCentered y n + (e : EReal))) * γ + β := by
  obtain ⟨g, rfl⟩ := hγ
  obtain ⟨b, rfl⟩ := hβ
  exact normalize_eq y hy n hn hcard g b e he r0

include hy hn hcard in
/-- The affine normalisation of a finite batch by finite γ, β and positive ε is finite. -/
theorem normalize_isFin {γ β : EReal} (hγ : IsFin γ) (hβ : IsFin β) (e : ℝ) (he : 0 < e)
    (r0 : ι) :
    IsFin (y r0 * (γ * Ideal.rsqrt (varMoment y n + (e : EReal)))
        + (β - mean y n * (γ * Ideal.rsqrt (varMoment y n + (e : EReal))))) := by
  obtain ⟨s, hs⟩ := rsqrt_var_isFin y hy n hn e he
  rw [varMoment_eq_varCentered y hy n hn hcard, hs]
  have hm := mean_isFin y hy n hn
  exact ((hy r0).mul (hγ.mul (isFin_coe s))).add (hβ.sub (hm.mul (hγ.mul (isFin_coe s))))

end Batch

/-! ### Regrouping sums -/

/-- Row q of block t, in blocks of b rows, is a row below a · b. -/
theorem block_lt {a b : ℕ} (t : Fin a) (q : Fin b) : t.val * b + q.val < a * b :=
  calc t.val * b + q.val < t.val * b + b := Nat.add_lt_add_left q.isLt _
    _ = (t.val + 1) * b := by ring
    _ ≤ a * b := Nat.mul_le_mul_right b t.isLt

/-- A sum over a · b rows is the sum over a blocks of the sums over the b rows of each block. -/
theorem sum_blocks (a b : ℕ) (f : Fin (a * b) → EReal) :
    ∑ t : Fin a, ∑ q : Fin b, f ⟨t.val * b + q.val, block_lt t q⟩ = ∑ r : Fin (a * b), f r := by
  rw [← Fintype.sum_prod_type']
  refine Fintype.sum_equiv finProdFinEquiv _ _ (fun x => ?_)
  congr 1
  ext
  simp [finProdFinEquiv]
  ring

/-- A sum over the naturals below a · b, regrouped into a blocks of b consecutive naturals. -/
theorem sum_range_blocks (a b : ℕ) (f : ℕ → EReal) :
    ∑ t ∈ Finset.range a, ∑ q ∈ Finset.range b, f (t * b + q) = ∑ r ∈ Finset.range (a * b), f r := by
  induction a with
  | zero => simp
  | succ a ih =>
    rw [Finset.sum_range_succ, ih, Nat.succ_mul, Finset.sum_range_add]

/-- An accumulator started at 0 + s 0 and increased by s (k+1) at each step is the partial sum. -/
theorem acc_eq_sum (s acc : ℕ → EReal) (h0 : acc 0 = 0 + s 0)
    (hstep : ∀ k, acc (k + 1) = acc k + s (k + 1)) (k : ℕ) :
    acc k = ∑ i ∈ Finset.range (k + 1), s i := by
  induction k with
  | zero => simp [h0]
  | succ k ih => rw [hstep, ih]; exact (Finset.sum_range_succ s (k + 1)).symm

end

end Cert.LibBatchNorm
-- ==== Proof.LibScatterAdd.lean ====
/-
  An additive scatter of rows, read at one element.

  The host's accumulating scatter `x.at[idx].add(upd)` at the ideal instance is, at each element of the operand, that
  element plus the sum of the update elements whose destination is that element. For the two layouts a segment sum
  lowers to this file computes the destination and turns the sum over "updates that land here" into a sum over the
  update ROWS guarded by "this row's index word is my row":

  * rows: operand `[N, C]`, one index word per update row (indices `[E, 1]`), updates `[E, C]`. Update `(e, c)`
    lands on `(idx e, c)` when `0 ≤ idx e < N` (the word read signed, nothing clamped) and is dropped otherwise. So
    element `(n, k)` receives `∑ e, [idx e = n] · upd (e, k)`: only column `k` of the updates reaches column `k`.
  * scalars: operand `[N]`, indices `[E, 1]`, updates `[E]`. Update `e` lands on `idx e`; element `n`
    receives `∑ e, [idx e = n] · upd e`.

  Nothing here needs the summands to be finite: the sums are only re-indexed.
-/
import Idealize.ShloMosaic.PureOps.Ideal
import Idealize.ShloMosaic.Lib.ValueIdx

noncomputable section

open scoped BigOperators

namespace Idealize.ShloMosaic.ScatterAddAt

open Idealize.ShloMosaic Idealize.ShloMosaic.ValueIdx

/-! ## Rows: operand `[N, C]`, indices `[E, 1]`, updates `[E, C]` -/

section Rows
variable {N C E w : Nat}

/-- The dimension numbers of a row scatter: the updates' axis 1 is the window axis and goes to the operand's axis 1, the
    operand's axis 0 is the one the index word addresses, the index vector is the indices' axis 1 (of extent one). -/
abbrev rowDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable (wf : ScatterDims.WF ⟨2, ![N, C]⟩ ⟨2, ![E, 1]⟩ ⟨2, ![E, C]⟩ [1] [0] [0] 1)

/-- The index word of update row `e`. -/
abbrev rowWord (idx : IVec ⟨2, ![E, 1]⟩ w) (e : Fin E) : Int := (idx (ix2 e ⟨0, Nat.one_pos⟩)).toInt

/-- On the addressed axis the window starts at the update row's index word, read signed. -/
theorem rowDims_start0 (j : (⟨2, ![E, C]⟩ : Shape).Idx) (idx : IVec ⟨2, ![E, 1]⟩ w) :
    (rowDims N C E wf).start j idx 0 = rowWord idx (j 0) := by
  unfold ScatterDims.start
  rw [dif_pos (show (0 : Fin 2) ∈ (rowDims N C E wf).scatterDimsToOperandDims from List.mem_singleton.mpr rfl)]
  have hsi : (rowDims N C E wf).siIdx j ⟨List.idxOf (0 : Fin 2) (rowDims N C E wf).scatterDimsToOperandDims,
      List.idxOf_lt_length_iff.2 (List.mem_singleton.mpr rfl)⟩ = ix2 (j 0) ⟨0, Nat.one_pos⟩ := by
    funext b; refine Fin.ext ?_
    match b with
    | ⟨0, _⟩ => rfl
    | ⟨1, _⟩ => rfl
  rw [hsi]
  rfl

/-- On the window axis the window starts at zero. -/
theorem rowDims_start1 (j : (⟨2, ![E, C]⟩ : Shape).Idx) (idx : IVec ⟨2, ![E, 1]⟩ w) :
    (rowDims N C E wf).start j idx 1 = 0 := by
  unfold ScatterDims.start
  rw [dif_neg (show ¬ (1 : Fin 2) ∈ (rowDims N C E wf).scatterDimsToOperandDims from by simp)]

/-- The addressed axis has no window coordinate. -/
theorem rowDims_window0 (j : (⟨2, ![E, C]⟩ : Shape).Idx) : (rowDims N C E wf).window j 0 = 0 := by
  unfold ScatterDims.window
  rw [dif_neg (show ¬ (0 : Fin 2) ∈ (rowDims N C E wf).sKept from by simp [ScatterDims.sKept, Shape.kept])]

/-- The window coordinate on the operand's axis 1 is the update's column. -/
theorem rowDims_window1 (j : (⟨2, ![E, C]⟩ : Shape).Idx) : (rowDims N C E wf).window j 1 = (j 1).val := by
  unfold ScatterDims.window
  rw [dif_pos (show (1 : Fin 2) ∈ (rowDims N C E wf).sKept from by simp [ScatterDims.sKept, Shape.kept])]
  rfl

/-- WHERE AN UPDATE LANDS: update `j = (e, c)` lands on operand element `i` exactly when row `e`'s index word is
    `i`'s row and `c` is `i`'s column. (A word outside `[0, N)` is no row: the update is dropped.) -/
theorem rowDims_resultIdx_eq_some_iff (j : (⟨2, ![E, C]⟩ : Shape).Idx) (idx : IVec ⟨2, ![E, 1]⟩ w)
    (i : (⟨2, ![N, C]⟩ : Shape).Idx) :
    (rowDims N C E wf).resultIdx? j idx = some i ↔ rowWord idx (j 0) = ((i 0).val : Int) ∧ (j 1).val = (i 1).val := by
  have hi0 := idx2_lt0 i
  have hi1 := idx2_lt1 i
  have hj1 := idx2_lt1 j
  unfold ScatterDims.resultIdx?
  split
  · next h =>
    rw [Option.some.injEq]
    have h0 := h 0
    rw [rowDims_start0, rowDims_window0] at h0
    constructor
    · intro hi
      have e0 : ((rowDims N C E wf).start j idx 0 + ((rowDims N C E wf).window j 0 : Int)).toNat = (i 0).val :=
        congrArg (fun f => (f 0).val) hi
      have e1 : ((rowDims N C E wf).start j idx 1 + ((rowDims N C E wf).window j 1 : Int)).toNat = (i 1).val :=
        congrArg (fun f => (f 1).val) hi
      rw [rowDims_start0, rowDims_window0] at e0
      rw [rowDims_start1, rowDims_window1] at e1
      omega
    · intro ⟨e0, e1⟩
      funext a
      refine Fin.ext ?_
      match a with
      | ⟨0, _⟩ =>
        show ((rowDims N C E wf).start j idx 0 + ((rowDims N C E wf).window j 0 : Int)).toNat = (i 0).val
        rw [rowDims_start0, rowDims_window0]; omega
      | ⟨1, _⟩ =>
        show ((rowDims N C E wf).start j idx 1 + ((rowDims N C E wf).window j 1 : Int)).toNat = (i 1).val
        rw [rowDims_start1, rowDims_window1]; omega
  · next h =>
    constructor
    · intro hn; cases hn
    · intro ⟨e0, e1⟩
      refine absurd (fun a => ?_) h
      match a with
      | ⟨0, _⟩ =>
        show 0 ≤ (rowDims N C E wf).start j idx 0 + ((rowDims N C E wf).window j 0 : Int)
          ∧ (rowDims N C E wf).start j idx 0 + ((rowDims N C E wf).window j 0 : Int) < ((N : Nat) : Int)
        rw [rowDims_start0, rowDims_window0]; omega
      | ⟨1, _⟩ =>
        show 0 ≤ (rowDims N C E wf).start j idx 1 + ((rowDims N C E wf).window j 1 : Int)
          ∧ (rowDims N C E wf).start j idx 1 + ((rowDims N C E wf).window j 1 : Int) < ((C : Nat) : Int)
        rw [rowDims_start1, rowDims_window1]; omega

/-- THE ROW SCATTER READ AT `(n, k)`: the operand's element plus, over the update rows whose index word is `n`, their
    column-`k` entries. -/
theorem rowScatterAdd_apply (x : (⟨2, ![N, C]⟩ : Shape).Idx → EReal) (idx : IVec ⟨2, ![E, 1]⟩ w)
    (upd : (⟨2, ![E, C]⟩ : Shape).Idx → EReal) (n : Fin N) (k : Fin C) :
    Ideal.hostScatterAdd (rowDims N C E wf) x idx upd (ix2 n k)
      = x (ix2 n k) + ∑ e : Fin E, if rowWord idx e = (n.val : Int) then upd (ix2 e k) else 0 := by
  unfold Ideal.hostScatterAdd
  congr 1
  rw [Finset.sum_filter, sum_idx2]
  refine Finset.sum_congr rfl fun e _ => ?_
  simp only [rowDims_resultIdx_eq_some_iff]
  by_cases hc : rowWord idx e = (n.val : Int)
  · rw [if_pos hc, Finset.sum_eq_single k]
    · exact if_pos ⟨hc, rfl⟩
    · intro b _ hb
      exact if_neg fun h => hb (Fin.ext h.2)
    · intro h; exact absurd (Finset.mem_univ k) h
  · rw [if_neg hc]
    exact Finset.sum_eq_zero fun b _ => if_neg fun h => hc h.1

end Rows

/-! ## Scalars: operand `[N]`, indices `[E, 1]`, updates `[E]` -/

section Scalars
variable {N E w : Nat}

/-- The dimension numbers of a scalar scatter: no window axis; the operand's one axis is addressed by the index word. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable (wf : ScatterDims.WF ⟨1, ![N]⟩ ⟨2, ![E, 1]⟩ ⟨1, ![E]⟩ [] [0] [0] 1)

/-- The window starts at the update's index word, read signed. -/
theorem vecDims_start0 (j : (⟨1, ![E]⟩ : Shape).Idx) (idx : IVec ⟨2, ![E, 1]⟩ w) :
    (vecDims N E wf).start j idx 0 = rowWord idx (j 0) := by
  unfold ScatterDims.start
  rw [dif_pos (show (0 : Fin 1) ∈ (vecDims N E wf).scatterDimsToOperandDims from List.mem_singleton.mpr rfl)]
  have hsi : (vecDims N E wf).siIdx j ⟨List.idxOf (0 : Fin 1) (vecDims N E wf).scatterDimsToOperandDims,
      List.idxOf_lt_length_iff.2 (List.mem_singleton.mpr rfl)⟩ = ix2 (j 0) ⟨0, Nat.one_pos⟩ := by
    funext b; refine Fin.ext ?_
    match b with
    | ⟨0, _⟩ => rfl
    | ⟨1, _⟩ => rfl
  rw [hsi]
  rfl

/-- There is no window coordinate. -/
theorem vecDims_window0 (j : (⟨1, ![E]⟩ : Shape).Idx) : (vecDims N E wf).window j 0 = 0 := by
  unfold ScatterDims.window
  rw [dif_neg (show ¬ (0 : Fin 1) ∈ (vecDims N E wf).sKept from by simp [ScatterDims.sKept, Shape.kept])]

/-- WHERE AN UPDATE LANDS: update `e` lands on element `i` exactly when its index word is `i`. -/
theorem vecDims_resultIdx_eq_some_iff (j : (⟨1, ![E]⟩ : Shape).Idx) (idx : IVec ⟨2, ![E, 1]⟩ w)
    (i : (⟨1, ![N]⟩ : Shape).Idx) :
    (vecDims N E wf).resultIdx? j idx = some i ↔ rowWord idx (j 0) = ((i 0).val : Int) := by
  have hi0 : (i 0).val < N := (i 0).isLt
  unfold ScatterDims.resultIdx?
  split
  · next h =>
    rw [Option.some.injEq]
    have h0 := h 0
    rw [vecDims_start0, vecDims_window0] at h0
    constructor
    · intro hi
      have e0 : ((vecDims N E wf).start j idx 0 + ((vecDims N E wf).window j 0 : Int)).toNat = (i 0).val :=
        congrArg (fun f => (f 0).val) hi
      rw [vecDims_start0, vecDims_window0] at e0
      omega
    · intro e0
      funext a
      refine Fin.ext ?_
      match a with
      | ⟨0, _⟩ =>
        show ((vecDims N E wf).start j idx 0 + ((vecDims N E wf).window j 0 : Int)).toNat = (i 0).val
        rw [vecDims_start0, vecDims_window0]; omega
  · next h =>
    constructor
    · intro hn; cases hn
    · intro e0
      refine absurd (fun a => ?_) h
      match a with
      | ⟨0, _⟩ =>
        show 0 ≤ (vecDims N E wf).start j idx 0 + ((vecDims N E wf).window j 0 : Int)
          ∧ (vecDims N E wf).start j idx 0 + ((vecDims N E wf).window j 0 : Int) < ((N : Nat) : Int)
        rw [vecDims_start0, vecDims_window0]; omega

/-- A rank-1 index set is its coordinate's range, so a sum over it is the sum over the coordinate. -/
theorem sum_idx1 {M : Type*} [AddCommMonoid M] {n : Nat} (f : (⟨1, ![n]⟩ : Shape).Idx → M) :
    ∑ i, f i = ∑ a : Fin n, f (ix1 a) := by
  let eqv : (⟨1, ![n]⟩ : Shape).Idx ≃ Fin n :=
    { toFun := fun i => i 0, invFun := fun a => ix1 a, left_inv := fun i => (eq_ix1 i).symm, right_inv := fun _ => rfl }
  rw [← Equiv.sum_comp eqv.symm f]
  rfl

/-- THE SCALAR SCATTER READ AT `n`: the operand's element plus the updates whose index word is `n`. -/
theorem vecScatterAdd_apply (x : (⟨1, ![N]⟩ : Shape).Idx → EReal) (idx : IVec ⟨2, ![E, 1]⟩ w)
    (upd : (⟨1, ![E]⟩ : Shape).Idx → EReal) (n : Fin N) :
    Ideal.hostScatterAdd (vecDims N E wf) x idx upd (ix1 n)
      = x (ix1 n) + ∑ e : Fin E, if rowWord idx e = (n.val : Int) then upd (ix1 e) else 0 := by
  unfold Ideal.hostScatterAdd
  congr 1
  rw [Finset.sum_filter, sum_idx1]
  refine Finset.sum_congr rfl fun e _ => ?_
  simp only [vecDims_resultIdx_eq_some_iff]
  rfl

end Scalars

end Idealize.ShloMosaic.ScatterAddAt

end
-- ==== Proof.KVec.lean ====
/-
  The host's vector arithmetic between the grid computations, read entry by entry.

  Between two grid computations the program reshapes a row or a stack of strips into a length-4096 vector and combines
  vectors: a reshape keeps every entry's row-major position (a 1 × 4096 row's entry (0, k) is the vector's entry k;
  entry (r, 0, j) of eight strips of 512 is entry 512 r + j), a sum over an axis is 0 plus the sum over that axis's
  coordinate, a scalar broadcast repeats it. Summing the eight strips' column sums gives the whole column sum: a sum over
  4096 rows regrouped into eight blocks of 512.
-/
import proofs.«122477_j61564061221583_2_alg».proof.Proof.Spec
import proofs.«122477_j61564061221583_2_alg».proof.Proof.LibRowCast
import proofs.«122477_j61564061221583_2_alg».proof.Proof.LibBatchNorm
import proofs.«122477_j61564061221583_2_alg».proof.Proof.LibScatterAdd
import Idealize.ShloMosaic.PureOps.Ideal.Laws
import Idealize.ShloMosaic.Lib.Pipeline.Value
import Idealize.ShloMosaic.Lib.ValueIdx

noncomputable section

namespace Cert.BP

open Idealize.ShloMosaic Idealize.ShloMosaic.ValueIdx Cert.KernelIdeal

variable [Facts₀]
open Facts₀

/-- Every index of a length-4096 vector is `ix1` of its coordinate. -/
theorem exists_ix1 (i : S4096.Idx) : ∃ k : Fin 4096, i = ix1 k := ⟨⟨(i 0).val, (i 0).isLt⟩, eq_ix1 i⟩

/-! ### Reshapes -/

/-- The row of column sums reshaped to a vector is the vector of column sums. -/
theorem unrow_colsumRow (θ : Mat) : shapeCast S4096 (colsumRow θ) shapeCasts_S1x4096_S4096 = vec (colsum θ) := by
  funext i
  obtain ⟨k, rfl⟩ := exists_ix1 i
  exact (RowCast.shapeCast_unrow_apply (n := 4096) (colsumRow θ) _ k).trans rfl

/-- A vector reshaped to a 1 × 4096 row is the row that holds it. -/
theorem row_of_vec (v : Vec) : shapeCast S1x4096 v shapeCasts_S4096_S1x4096 = rowOf v := by
  funext i
  obtain ⟨u, k, rfl⟩ : ∃ (u : Fin 1) (k : Fin 4096), i = ix2 u k := ⟨i 0, i 1, eq_ix2 i⟩
  exact (RowCast.shapeCast_row_apply (n := 4096) v _ u k).trans rfl

/-- Eight strips of 512 row sums reshaped to a vector are the 4096 row sums. -/
theorem unstrip512 (θ : Mat) : shapeCast S4096 (stripRowsums512 θ) shapeCasts_S8x1x512_S4096 = vec (rowsum θ) := by
  funext i
  obtain ⟨k, rfl⟩ := exists_ix1 i
  have hr : k.val / 512 < 8 := by have := k.isLt; omega
  have hj : k.val % 512 < 512 := Nat.mod_lt _ (by norm_num)
  refine (shapeCast_apply (stripRowsums512 θ) shapeCasts_S8x1x512_S4096 (ix1 k)
    (ix3 (⟨k.val / 512, hr⟩ : Fin 8) (0 : Fin 1) (⟨k.val % 512, hj⟩ : Fin 512)) ?_).trans ?_
  · rw [Shape.rowMajor_val_three, Shape.rowMajor_val_one]
    show (k.val / 512 * 1 + 0) * 512 + k.val % 512 = k.val
    omega
  · show rowsum θ (strip512 ⟨k.val / 512, hr⟩ ⟨k.val % 512, hj⟩) = rowsum θ ⟨k.val, k.isLt⟩
    refine congrArg (rowsum θ) (Fin.ext ?_)
    show k.val / 512 * 512 + k.val % 512 = k.val
    omega

/-- Sixteen strips of 256 row sums reshaped to a vector are the 4096 row sums. -/
theorem unstrip256 (θ : Mat) : shapeCast S4096 (stripRowsums256 θ) shapeCasts_S16x1x256_S4096 = vec (rowsum θ) := by
  funext i
  obtain ⟨k, rfl⟩ := exists_ix1 i
  have hr : k.val / 256 < 16 := by have := k.isLt; omega
  have hj : k.val % 256 < 256 := Nat.mod_lt _ (by norm_num)
  refine (shapeCast_apply (stripRowsums256 θ) shapeCasts_S16x1x256_S4096 (ix1 k)
    (ix3 (⟨k.val / 256, hr⟩ : Fin 16) (0 : Fin 1) (⟨k.val % 256, hj⟩ : Fin 256)) ?_).trans ?_
  · rw [Shape.rowMajor_val_three, Shape.rowMajor_val_one]
    show (k.val / 256 * 1 + 0) * 256 + k.val % 256 = k.val
    omega
  · show rowsum θ (strip256 ⟨k.val / 256, hr⟩ ⟨k.val % 256, hj⟩) = rowsum θ ⟨k.val, k.isLt⟩
    refine congrArg (rowsum θ) (Fin.ext ?_)
    show k.val / 256 * 256 + k.val % 256 = k.val
    omega

/-! ### Sums -/

/-- The host's sum of a vector's entries from the f32 zero is the total of its entries. -/
theorem reduce_total (v : Vec) (j : S_.Idx) :
    Host.reduceAdd (F := Ideal) v (constant (F := Ideal) S_ .f32 0x00000000#32) reducesTo_S4096_S_d0 h_S_ j = total (ent v) := by
  simp only [Host.reduceAdd, Ideal.hostReduceAdd_def]
  rw [Ideal.hostReduceAdd_total reducesTo_S4096_S_d0 (fun b => b.elim0)]
  show Ideal.ofBits .f32 0x00000000#32 + _ = _
  rw [Ideal.ofBits_zero_f32, zero_add]
  exact (ScatterAddAt.sum_idx1 v).trans rfl

/-- The eight strips' column sums, stacked as 8 × 4096 and summed over the strips from the f32 zero, are the column sums. -/
theorem reduce_strips (θ : Mat) :
    Host.reduceAdd (F := Ideal) (shapeCast S8x4096 (stripColsums θ) shapeCasts_S8x1x4096_S8x4096)
      (constant (F := Ideal) S_ .f32 0x00000000#32) reducesTo_S8x4096_S4096_d0 h_S_ = vec (colsum θ) := by
  funext i
  obtain ⟨z, rfl⟩ := exists_ix1 i
  simp only [Host.reduceAdd, Ideal.hostReduceAdd_def]
  rw [Ideal.hostReduceAdd_single reducesTo_S8x4096_S4096_d0 (by decide)]
  show Ideal.ofBits .f32 0x00000000#32 + _ = _
  rw [Ideal.ofBits_zero_f32, zero_add]
  show _ = colsum θ ⟨z.val, z.isLt⟩
  unfold colsum
  rw [← Cert.LibBatchNorm.sum_blocks 8 512 (fun x => θ (ix2 x (⟨z.val, z.isLt⟩ : Fin 4096)))]
  refine Finset.sum_congr rfl fun r _ => ?_
  refine (shapeCast_apply (stripColsums θ) shapeCasts_S8x1x4096_S8x4096 _ (ix3 r (0 : Fin 1) z) ?_).trans ?_
  · rw [Shape.rowMajor_val_three, Shape.rowMajor_val_two]
    show (r.val * 1 + 0) * 4096 + z.val = r.val * 4096 + z.val
    omega
  · rfl

/-! ### The three vectors handed to `remap` -/

/-- A vector plus a broadcast total. -/
theorem add_total_vec (g : Fin 4096 → EReal) (v : Vec) :
    addf (vec g) (broadcastInDim S4096 ![] bcast_S_S4096
      (Host.reduceAdd (F := Ideal) v (constant (F := Ideal) S_ .f32 0x00000000#32) reducesTo_S4096_S_d0 h_S_))
    = vec (fun y => g y + total (ent v)) := by
  funext i
  show vec g i + Host.reduceAdd (F := Ideal) v (constant (F := Ideal) S_ .f32 0x00000000#32) reducesTo_S4096_S_d0 h_S_ _ = _
  rw [reduce_total]
  rfl

/-- The column sums by strips plus the total of the first message: the vector sent as the second message. -/
theorem proc1_vec (θ : Mat) (v : Vec) :
    addf (Host.reduceAdd (F := Ideal) (shapeCast S8x4096 (stripColsums θ) shapeCasts_S8x1x4096_S8x4096)
        (constant (F := Ideal) S_ .f32 0x00000000#32) reducesTo_S8x4096_S4096_d0 h_S_)
      (broadcastInDim S4096 ![] bcast_S_S4096
        (Host.reduceAdd (F := Ideal) v (constant (F := Ideal) S_ .f32 0x00000000#32) reducesTo_S4096_S_d0 h_S_))
    = vec (fun z => colsum θ z + total (ent v)) := by
  rw [reduce_strips]
  exact add_total_vec _ v

/-- A vector plus 4095 copies of a message. -/
theorem add_4095_vec (f : Fin 4096 → EReal) (v : Vec) :
    addf (vec f) (mulf (broadcastInDim S4096 ![] bcast_S_S4096 (constant (F := Ideal) S_ .f32 0x457FF000#32)) v)
    = vec (fun z => f z + c4095 * ent v z) := by
  funext i
  obtain ⟨k, rfl⟩ := exists_ix1 i
  rfl

end Cert.BP

end
-- ==== Proof.Region234Pay.lean ====
/-
  The four block computations of the last three grid computations, read entry by entry, for any blocks.
  A row vector enters a block computation as a 1 × n block; "added down the rows" means the block's entry (p, q) gets
  the row vector's entry p, "added along the columns" that it gets the row vector's entry q. The row sums of a block are
  left as a 1 × 1 × 256 block whose entry (0, 0, j) is the sum of the block's row j.
-/
import proofs.«122477_j61564061221583_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.BP.K

open Idealize.ShloMosaic Idealize.ShloMosaic.ValueIdx
open Cert.KernelIdeal Cert.KernelIdeal.Gen

/-! ### Three layout readings the blocks need -/

/-- An a × 1 column broadcast to a × b reads, at (p, q), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A length-a vector cast to an a × 1 column reads, at (p, u), the vector's entry p. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-! ### The block computations -/

/-- Adding a row vector along the columns of a 1024 × 1024 block. -/
theorem k3_pay1_apply (x0 : Vec Ideal S1024x1024 .f32) (x1 : Vec Ideal S1x1024 .f32) (p q : Fin 1024) :
    k3_pay1 x0 x1 (ix2 p q) = x0 (ix2 p q) + x1 (ix2 (0 : Fin 1) q) := by
  unfold k3_pay1
  refine congrArg (x0 (ix2 p q) + ·) ?_
  refine (broadcastTo_1b_ab_apply _ _ p q).trans ?_
  exact congrFun (shapeCast_self x1 _) _

/-- Adding one row vector down the rows and another along the columns of a 1024 × 1024 block. -/
theorem k4_pay1_apply (r : Vec Ideal S1x1024 .f32) (x : Vec Ideal S1024x1024 .f32) (s : Vec Ideal S1x1024 .f32)
    (p q : Fin 1024) :
    k4_pay1 r x s (ix2 p q) = (x (ix2 p q) + r (ix2 (0 : Fin 1) p)) + s (ix2 (0 : Fin 1) q) := by
  unfold k4_pay1
  refine congrArg₂ (· + ·) (congrArg (x (ix2 p q) + ·) ?_) ?_
  · refine (broadcastTo_a1_ab_apply _ _ p q).trans ?_
    refine (transpose_ix2_apply _ _ p (0 : Fin 1)).trans ?_
    exact congrFun (shapeCast_self r _) _
  · refine (broadcastTo_1b_ab_apply _ _ p q).trans ?_
    exact congrFun (shapeCast_self s _) _

/-- Adding a row vector down the rows of a 256 × 4096 block. -/
theorem k2_pay1_apply (x : Vec Ideal S256x4096 .f32) (r : Vec Ideal S1x256 .f32) (p : Fin 256) (q : Fin 4096) :
    k2_pay1 x r (ix2 p q) = x (ix2 p q) + r (ix2 (0 : Fin 1) p) := by
  unfold k2_pay1
  refine congrArg (x (ix2 p q) + ·) ?_
  refine (broadcastTo_a1_ab_apply _ _ p q).trans ?_
  refine (transpose_ix2_apply _ _ p (0 : Fin 1)).trans ?_
  exact congrFun (shapeCast_self r _) _

/-- The row sums of a 256 × 4096 block. -/
theorem k2_pay2_apply (x : Vec Ideal S256x4096 .f32) (u v : Fin 1) (j : Fin 256) :
    k2_pay2 x (ix3 u v j) = ∑ y : Fin 4096, x (ix2 j y) := by
  unfold k2_pay2
  refine (shapeCast_ab_1ab_apply _ _ u v j).trans ?_
  refine (transpose_ix2_apply _ _ v j).trans ?_
  refine (shapeCast_a_a1_apply _ _ j v).trans ?_
  refine (Ideal.multiReduction_add_single x 0x00000000#32 _ _ _ (ix1 j)).trans ?_
  refine Finset.sum_congr rfl fun y _ => congrArg x (funext fun a => Fin.ext ?_)
  match a with
  | ⟨0, _⟩ => rfl
  | ⟨1, _⟩ => rfl

end Cert.BP.K

end
-- ==== Proof.Region234Rows.lean ====
/-
  A row vector added along the columns or down the rows of a 4096 × 4096 array, read at an entry: any index of the
  row vector that names the entry's column (or row) will do.
-/
import proofs.«122477_j61564061221583_2_alg».proof.Proof.Spec
import Idealize.ShloMosaic.Lib.ValueIdx

noncomputable section

namespace Cert.BP.K

open Idealize.ShloMosaic Idealize.ShloMosaic.ValueIdx
open Cert.KernelIdeal

/-- Entry `i` of the array with the row vector added along the columns. -/
theorem addAlongCols_apply (θ : Mat) (r : Row) (i : S4096x4096.Idx) (k : S1x4096.Idx)
    (h0 : (k 0).val = 0) (h1 : (k 1).val = (i 1).val) : addAlongCols θ r i = θ i + r k := by
  unfold addAlongCols
  refine congrArg (θ i + ·) (congrArg r (funext fun a => Fin.ext ?_))
  match a with
  | ⟨0, _⟩ => exact h0.symm
  | ⟨1, _⟩ => exact h1.symm

/-- Entry `i` of the array with the row vector added down the rows. -/
theorem addDownRows_apply (θ : Mat) (r : Row) (i : S4096x4096.Idx) (k : S1x4096.Idx)
    (h0 : (k 0).val = 0) (h1 : (k 1).val = (i 0).val) : addDownRows θ r i = θ i + r k := by
  unfold addDownRows
  refine congrArg (θ i + ·) (congrArg r (funext fun a => Fin.ext ?_))
  match a with
  | ⟨0, _⟩ => exact h0.symm
  | ⟨1, _⟩ => exact h1.symm

/-- Zero offsets on two axes, however spelt. -/
theorem zero2 : (![0, 0] : Fin 2 → Nat) = fun _ => 0 := funext fun a => by fin_cases a <;> rfl

end Cert.BP.K

end
-- ==== Proof.Region234Add3.lean ====
/-
  The fourth grid computation: a 4 × 4 grid of 1024 × 1024 tiles. At tile (r, s) the body reads tile (r, s) of the
  operand and block s of the row vector, and writes back the tile with the row vector's entry added along the columns.
  The tiles cover the 4096 × 4096 result, so the result is the operand with entry y of the row vector added to
  every entry of column y.
-/
import proofs.«122477_j61564061221583_2_alg».proof.Proof.Gen.KernelIdeal.Frame
import proofs.«122477_j61564061221583_2_alg».proof.Proof.Spec
import proofs.«122477_j61564061221583_2_alg».proof.Proof.Region234Pay
import proofs.«122477_j61564061221583_2_alg».proof.Proof.Region234Rows
import Idealize.ShloMosaic.Lib.Pipeline.Value
import Idealize.ShloMosaic.Lib.ValueIdx

set_option maxRecDepth 16384

noncomputable section

namespace Cert.BP.K

open Idealize.ShloMosaic Idealize.ShloMosaic.ValueIdx Idealize.ShloMosaic.TcCoe Idealize.SL.Sem
open Cert.KernelIdeal Cert.KernelIdeal.Gen

variable (V : (c : Dev nD) → (b : Ref sig .tc) → Buf (Elt Ideal) ((c : Thread nD τ).loc b))

/-- The tiles' positions over the grid: the operand's tile and the result's tile are the same, the row vector's block
    is the tile's column block, and the tile indices stay below 4. -/
theorem tiles3 : ∀ t : Fin cfg3.N,
    win3_0.index t (0 : Fin 2) = win3_2.index t (0 : Fin 2)
    ∧ win3_0.index t (1 : Fin 2) = win3_2.index t (1 : Fin 2)
    ∧ win3_1.index t (0 : Fin 2) = 0
    ∧ win3_1.index t (1 : Fin 2) = win3_2.index t (1 : Fin 2)
    ∧ win3_2.index t (0 : Fin 2) ≤ 3 ∧ win3_2.index t (1 : Fin 2) ≤ 3 :=
  (by decide +kernel : ∀ t : Fin grid3.N, _)

/-- Every tile is some grid point's. -/
theorem tiles3_onto : ∀ (q0 q1 : Fin 4), ∃ t : Fin cfg3.N, win3_2.index t = ![q0.val, q1.val] :=
  (by decide +kernel : ∀ (q0 q1 : Fin 4), ∃ t : Fin grid3.N, win3_2.index t = ![q0.val, q1.val])

/-- What grid point `t` writes back is its tile of the operand with the row vector added along the columns. -/
theorem written3 (c : Dev nD) (t : Fin cfg3.N) :
    (dat3 V c).flushed 2 t
      = ((cfg3.win 2).blk t).view.read (Elt Ideal) (addAlongCols (V c main_arg0) (V c main_v97)) := by
  show (cfg3.win 2).cut (grid3.coords t) ((dat3 V c).after 2 t) = _
  rw [after3_2]
  unfold out3_2
  rw [View.canon_unit_zero zero2]
  simp only [View.ld_unit_zero (S := S1024x1024) zero2, View.ld_unit_zero (S := S1x1024) zero2]
  obtain ⟨e0, e1, e2, e3, -, -⟩ := tiles3 t
  funext j
  obtain ⟨p, q, rfl⟩ : ∃ (p q : Fin 1024), j = ix2 p q := ⟨j 0, j 1, eq_ix2 (n0 := 1024) (n1 := 1024) j⟩
  show k3_pay1 (iblk3 V c 0 t) (iblk3 V c 1 t) (ix2 p q)
    = addAlongCols (V c main_arg0) (V c main_v97) (((cfg3.win 2).blk t).view.emb (ix2 p q))
  refine (k3_pay1_apply (iblk3 V c 0 t) (iblk3 V c 1 t) p q).trans ?_
  refine Eq.trans ?_ (addAlongCols_apply (V c main_arg0) (V c main_v97) _
    (((cfg3.win 1).blk t).view.emb (ix2 (0 : Fin 1) q)) ?_ ?_).symm
  · refine congrArg₂ (fun x y : EReal => x + y) ?_ rfl
    show V c main_arg0 (((cfg3.win 0).blk t).view.emb (ix2 p q)) = V c main_arg0 (((cfg3.win 2).blk t).view.emb (ix2 p q))
    have h0 : ((cfg3.win 0).blk t).view.emb (ix2 p q) = ((cfg3.win 2).blk t).view.emb (ix2 p q) := by
      funext a; apply Fin.ext
      match a with
      | ⟨0, _⟩ => show win3_0.index t (0 : Fin 2) * 1024 + 1 * p.val = win3_2.index t (0 : Fin 2) * 1024 + 1 * p.val; omega
      | ⟨1, _⟩ => show win3_0.index t (1 : Fin 2) * 1024 + 1 * q.val = win3_2.index t (1 : Fin 2) * 1024 + 1 * q.val; omega
    rw [h0]
  · show win3_1.index t (0 : Fin 2) * 1 + 1 * (0 : ℕ) = 0
    omega
  · show win3_1.index t (1 : Fin 2) * 1024 + 1 * q.val = win3_2.index t (1 : Fin 2) * 1024 + 1 * q.val
    omega

/-- An entry of the result lies in grid point `t`'s tile iff each coordinate lies in the tile's range. -/
theorem mem_tile3 (t : Fin cfg3.N) (i : S4096x4096.Idx) :
    i ∈ ((cfg3.win 2).blk t).view.set ↔ ∀ a : Fin 2, win3_2.index t a * S1024x1024.size a ≤ (i a).val
      ∧ (i a).val < win3_2.index t a * S1024x1024.size a + S1024x1024.size a := by
  show i ∈ ((View.whole main_v98).slice (win3_2.rect t)).set ↔ _
  rw [View.set_slice_whole, Rect.mem_set_unit]
  exact Iff.rfl

/-- Every entry of the result lies in some grid point's tile: entry (x, y) in tile (x / 1024, y / 1024). -/
theorem covered3 (i : S4096x4096.Idx) :
    ∃ t : Fin cfg3.N, (cfg3.win 2).flush t = true ∧ i ∈ ((cfg3.win 2).blk t).view.set := by
  have hi0 : (i 0).val < 4096 := (i 0).isLt
  have hi1 : (i 1).val < 4096 := (i 1).isLt
  obtain ⟨t, ht⟩ := tiles3_onto ⟨(i 0).val / 1024, by omega⟩ ⟨(i 1).val / 1024, by omega⟩
  have q0 : win3_2.index t (0 : Fin 2) = (i 0).val / 1024 := congrFun ht 0
  have q1 : win3_2.index t (1 : Fin 2) = (i 1).val / 1024 := congrFun ht 1
  refine ⟨t, flush3_2 t, ?_⟩
  rw [mem_tile3]
  intro a
  match a with
  | ⟨0, _⟩ => show win3_2.index t (0 : Fin 2) * 1024 ≤ (i 0).val ∧ (i 0).val < win3_2.index t (0 : Fin 2) * 1024 + 1024; omega
  | ⟨1, _⟩ => show win3_2.index t (1 : Fin 2) * 1024 ≤ (i 1).val ∧ (i 1).val < win3_2.index t (1 : Fin 2) * 1024 + 1024; omega

/-- The fourth computation's result: entry y of the row vector added to every entry of column y of the operand. -/
theorem alongCols3 (c : Dev nD) :
    (dat3 V c).arrAt 2 cfg3.N = addAlongCols (V c main_arg0) (V c main_v97) :=
  (dat3 V c).arrAt_eq_of_cover 2 _ (fun t _ => written3 V c t) covered3

end Cert.BP.K

end
-- ==== Proof.Region234Add4.lean ====
/-
  The fifth grid computation: a 4 × 4 grid of 1024 × 1024 tiles. At tile (r, s) the body reads tile (r, s) of the
  operand, block r of the first row vector and block s of the second, and writes back the tile with the first row
  vector added down the rows and then the second added along the columns. The tiles cover the 4096 × 4096 result.
-/
import proofs.«122477_j61564061221583_2_alg».proof.Proof.Gen.KernelIdeal.Frame
import proofs.«122477_j61564061221583_2_alg».proof.Proof.Spec
import proofs.«122477_j61564061221583_2_alg».proof.Proof.Region234Pay
import proofs.«122477_j61564061221583_2_alg».proof.Proof.Region234Rows
import Idealize.ShloMosaic.Lib.Pipeline.Value
import Idealize.ShloMosaic.Lib.ValueIdx

set_option maxRecDepth 16384

noncomputable section

namespace Cert.BP.K

open Idealize.ShloMosaic Idealize.ShloMosaic.ValueIdx Idealize.ShloMosaic.TcCoe Idealize.SL.Sem
open Cert.KernelIdeal Cert.KernelIdeal.Gen

variable (V : (c : Dev nD) → (b : Ref sig .tc) → Buf (Elt Ideal) ((c : Thread nD τ).loc b))

/-- The tiles' positions over the grid: the operand's tile and the result's tile are the same, the first row vector's
    block is the tile's row block, the second's is the tile's column block, and the tile indices stay below 4. -/
theorem tiles4 : ∀ t : Fin cfg4.N,
    win4_0.index t (0 : Fin 2) = win4_3.index t (0 : Fin 2)
    ∧ win4_0.index t (1 : Fin 2) = win4_3.index t (1 : Fin 2)
    ∧ win4_1.index t (0 : Fin 2) = 0
    ∧ win4_1.index t (1 : Fin 2) = win4_3.index t (0 : Fin 2)
    ∧ win4_2.index t (0 : Fin 2) = 0
    ∧ win4_2.index t (1 : Fin 2) = win4_3.index t (1 : Fin 2)
    ∧ win4_3.index t (0 : Fin 2) ≤ 3 ∧ win4_3.index t (1 : Fin 2) ≤ 3 :=
  (by decide +kernel : ∀ t : Fin grid4.N, _)

/-- Every tile is some grid point's. -/
theorem tiles4_onto : ∀ (q0 q1 : Fin 4), ∃ t : Fin cfg4.N, win4_3.index t = ![q0.val, q1.val] :=
  (by decide +kernel : ∀ (q0 q1 : Fin 4), ∃ t : Fin grid4.N, win4_3.index t = ![q0.val, q1.val])

/-- What grid point `t` writes back is its tile of the operand with the first row vector added down the rows and the
    second along the columns. -/
theorem written4 (c : Dev nD) (t : Fin cfg4.N) :
    (dat4 V c).flushed 3 t
      = ((cfg4.win 3).blk t).view.read (Elt Ideal)
          (addAlongCols (addDownRows (V c main_arg1) (V c main_v99)) (V c main_v100)) := by
  show (cfg4.win 3).cut (grid4.coords t) ((dat4 V c).after 3 t) = _
  rw [after4_3]
  unfold out4_3
  rw [View.canon_unit_zero zero2]
  simp only [View.ld_unit_zero (S := S1024x1024) zero2, View.ld_unit_zero (S := S1x1024) zero2]
  obtain ⟨e0, e1, e2, e3, e4, e5, -, -⟩ := tiles4 t
  funext j
  obtain ⟨p, q, rfl⟩ : ∃ (p q : Fin 1024), j = ix2 p q := ⟨j 0, j 1, eq_ix2 (n0 := 1024) (n1 := 1024) j⟩
  show k4_pay1 (iblk4 V c 1 t) (iblk4 V c 0 t) (iblk4 V c 2 t) (ix2 p q)
    = addAlongCols (addDownRows (V c main_arg1) (V c main_v99)) (V c main_v100) (((cfg4.win 3).blk t).view.emb (ix2 p q))
  refine (k4_pay1_apply (iblk4 V c 1 t) (iblk4 V c 0 t) (iblk4 V c 2 t) p q).trans ?_
  refine Eq.trans ?_ (addAlongCols_apply (addDownRows (V c main_arg1) (V c main_v99)) (V c main_v100) _
    (((cfg4.win 2).blk t).view.emb (ix2 (0 : Fin 1) q)) ?_ ?_).symm
  · refine congrArg₂ (fun x y : EReal => x + y) ?_ rfl
    refine Eq.trans ?_ (addDownRows_apply (V c main_arg1) (V c main_v99) _
      (((cfg4.win 1).blk t).view.emb (ix2 (0 : Fin 1) p)) ?_ ?_).symm
    · refine congrArg₂ (fun x y : EReal => x + y) ?_ rfl
      show V c main_arg1 (((cfg4.win 0).blk t).view.emb (ix2 p q)) = V c main_arg1 (((cfg4.win 3).blk t).view.emb (ix2 p q))
      have h0 : ((cfg4.win 0).blk t).view.emb (ix2 p q) = ((cfg4.win 3).blk t).view.emb (ix2 p q) := by
        funext a; apply Fin.ext
        match a with
        | ⟨0, _⟩ => show win4_0.index t (0 : Fin 2) * 1024 + 1 * p.val = win4_3.index t (0 : Fin 2) * 1024 + 1 * p.val; omega
        | ⟨1, _⟩ => show win4_0.index t (1 : Fin 2) * 1024 + 1 * q.val = win4_3.index t (1 : Fin 2) * 1024 + 1 * q.val; omega
      rw [h0]
    · show win4_1.index t (0 : Fin 2) * 1 + 1 * (0 : ℕ) = 0
      omega
    · show win4_1.index t (1 : Fin 2) * 1024 + 1 * p.val = win4_3.index t (0 : Fin 2) * 1024 + 1 * p.val
      omega
  · show win4_2.index t (0 : Fin 2) * 1 + 1 * (0 : ℕ) = 0
    omega
  · show win4_2.index t (1 : Fin 2) * 1024 + 1 * q.val = win4_3.index t (1 : Fin 2) * 1024 + 1 * q.val
    omega

/-- An entry of the result lies in grid point `t`'s tile iff each coordinate lies in the tile's range. -/
theorem mem_tile4 (t : Fin cfg4.N) (i : S4096x4096.Idx) :
    i ∈ ((cfg4.win 3).blk t).view.set ↔ ∀ a : Fin 2, win4_3.index t a * S1024x1024.size a ≤ (i a).val
      ∧ (i a).val < win4_3.index t a * S1024x1024.size a + S1024x1024.size a := by
  show i ∈ ((View.whole main_v101).slice (win4_3.rect t)).set ↔ _
  rw [View.set_slice_whole, Rect.mem_set_unit]
  exact Iff.rfl

/-- Every entry of the result lies in some grid point's tile: entry (x, y) in tile (x / 1024, y / 1024). -/
theorem covered4 (i : S4096x4096.Idx) :
    ∃ t : Fin cfg4.N, (cfg4.win 3).flush t = true ∧ i ∈ ((cfg4.win 3).blk t).view.set := by
  have hi0 : (i 0).val < 4096 := (i 0).isLt
  have hi1 : (i 1).val < 4096 := (i 1).isLt
  obtain ⟨t, ht⟩ := tiles4_onto ⟨(i 0).val / 1024, by omega⟩ ⟨(i 1).val / 1024, by omega⟩
  have q0 : win4_3.index t (0 : Fin 2) = (i 0).val / 1024 := congrFun ht 0
  have q1 : win4_3.index t (1 : Fin 2) = (i 1).val / 1024 := congrFun ht 1
  refine ⟨t, flush4_3 t, ?_⟩
  rw [mem_tile4]
  intro a
  match a with
  | ⟨0, _⟩ => show win4_3.index t (0 : Fin 2) * 1024 ≤ (i 0).val ∧ (i 0).val < win4_3.index t (0 : Fin 2) * 1024 + 1024; omega
  | ⟨1, _⟩ => show win4_3.index t (1 : Fin 2) * 1024 ≤ (i 1).val ∧ (i 1).val < win4_3.index t (1 : Fin 2) * 1024 + 1024; omega

/-- The fifth computation's result: the first row vector added down the rows of the operand, then the second added
    along the columns. -/
theorem downRowsAlongCols4 (c : Dev nD) :
    (dat4 V c).arrAt 3 cfg4.N = addAlongCols (addDownRows (V c main_arg1) (V c main_v99)) (V c main_v100) :=
  (dat4 V c).arrAt_eq_of_cover 3 _ (fun t _ => written4 V c t) covered4

end Cert.BP.K

end
-- ==== Proof.Region234.lean ====
/-
  What the last two grid computations leave in their result arrays, for any contents `V` of the buffers they are
  entered with.
  The fourth adds entry y of a row vector to every entry of column y, tile by tile (1024 × 1024 tiles).
  The fifth adds entry y of one row vector to every entry of row y and then entry z of another to every entry of column z.
  Each is read off its tiles: what a grid point writes back is its tile of the whole-array result, and the sixteen
  tiles cover the array.
-/
import proofs.«122477_j61564061221583_2_alg».proof.Proof.Gen.KernelIdeal.Frame
import proofs.«122477_j61564061221583_2_alg».proof.Proof.Spec
import proofs.«122477_j61564061221583_2_alg».proof.Proof.Region234Add3
import proofs.«122477_j61564061221583_2_alg».proof.Proof.Region234Add4

set_option maxRecDepth 16384

noncomputable section

namespace Cert.BP.K

open Idealize.ShloMosaic Idealize.ShloMosaic.ValueIdx Idealize.ShloMosaic.TcCoe Idealize.SL.Sem
open Cert.KernelIdeal Cert.KernelIdeal.Gen

-- the buffer contents a region is entered with: every statement below holds for any such contents
variable (V : (c : Dev nD) → (b : Ref sig .tc) → Buf (Elt Ideal) ((c : Thread nD τ).loc b))

/-- The fourth computation's result: entry y of the row vector added to every entry of column y of the operand. -/
theorem region3_add (c : Dev nD) :
    (dat3 V c).arrAt 2 cfg3.N = addAlongCols (V c main_arg0) (V c main_v97) :=
  alongCols3 V c

/-- The fifth computation's result: entry y of the first row vector added down row y, then entry z of the second added
    along column z. -/
theorem region4_add (c : Dev nD) :
    (dat4 V c).arrAt 3 cfg4.N = addAlongCols (addDownRows (V c main_arg1) (V c main_v99)) (V c main_v100) :=
  downRowsAlongCols4 V c

end Cert.BP.K

end
-- ==== Proof.Region01Pay.lean ====
/-
  The block results of the first two grid computations, read one entry at a time.
  The first computation sums its 4096 × 512 block down the rows: entry (0, q) of its 1 × 512 result is the sum of column q.
  The second sums its 512 × 4096 strip both ways: entry (0, 0, q) of its 1 × 1 × 4096 result is the sum of column q of the
  strip, and entry (0, 0, p) of its 1 × 1 × 512 result is the sum of row p. The reshapes in between only add unit axes, and the
  transposition only exchanges a unit axis with the long one, so each entry is read where its row-major position says.
-/
import proofs.«122477_j61564061221583_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.BP.K.Region01

open Idealize.ShloMosaic Idealize.ShloMosaic.ValueIdx Idealize.SL.Sem
open Cert.KernelIdeal Cert.KernelIdeal.Gen

/-- One entry of the first computation's block result: the sum down column q of the 4096 × 512 block. -/
theorem colsumBlock_apply (x0 : Idealize.ShloMosaic.Vec Ideal S4096x512 .f32) (p : Fin 1) (q : Fin 512) :
    k0_pay1 (F := Ideal) x0 (ix2 p q) = ∑ k : Fin 4096, x0 (ix2 k q) := by
  unfold k0_pay1
  refine (shapeCast_apply _ _ (ix2 p q) (ix1 q) ?_).trans ?_
  · rw [Shape.rowMajor_val_one, Shape.rowMajor_val_two]
    have hp : p.val = 0 := by omega
    show q.val = p.val * 512 + q.val
    omega
  · refine (Ideal.multiReduction_add_single _ _ _ _ _ (ix1 q)).trans ?_
    refine Finset.sum_congr rfl fun k _ => congrArg x0 ?_
    funext a
    match a with
    | ⟨0, _⟩ => rfl
    | ⟨1, _⟩ => rfl

/-- One entry of the second computation's first block result: the sum down column q of the 512 × 4096 strip. -/
theorem stripColsum_apply (x0 : Idealize.ShloMosaic.Vec Ideal S512x4096 .f32) (a b : Fin 1) (q : Fin 4096) :
    k1_pay1 (F := Ideal) x0 (ix3 a b q) = ∑ k : Fin 512, x0 (ix2 k q) := by
  unfold k1_pay1
  have ha : a.val = 0 := by omega
  have hb : b.val = 0 := by omega
  refine (shapeCast_apply _ _ (ix3 a b q) (ix2 b q) ?_).trans ?_
  · rw [Shape.rowMajor_val_two, Shape.rowMajor_val_three]
    show b.val * 4096 + q.val = (a.val * 1 + b.val) * 4096 + q.val
    omega
  refine (shapeCast_apply _ _ (ix2 b q) (ix1 q) ?_).trans ?_
  · rw [Shape.rowMajor_val_one, Shape.rowMajor_val_two]
    show q.val = b.val * 4096 + q.val
    omega
  refine (Ideal.multiReduction_add_single _ _ _ _ _ (ix1 q)).trans ?_
  refine Finset.sum_congr rfl fun k _ => congrArg x0 ?_
  funext d
  match d with
  | ⟨0, _⟩ => rfl
  | ⟨1, _⟩ => rfl

/-- One entry of the second computation's second block result: the sum along row p of the 512 × 4096 strip. -/
theorem stripRowsum_apply (x0 : Idealize.ShloMosaic.Vec Ideal S512x4096 .f32) (a b : Fin 1) (p : Fin 512) :
    k1_pay2 (F := Ideal) x0 (ix3 a b p) = ∑ k : Fin 4096, x0 (ix2 p k) := by
  unfold k1_pay2
  have ha : a.val = 0 := by omega
  have hb : b.val = 0 := by omega
  refine (shapeCast_apply _ _ (ix3 a b p) (ix2 b p) ?_).trans ?_
  · rw [Shape.rowMajor_val_two, Shape.rowMajor_val_three]
    show b.val * 512 + p.val = (a.val * 1 + b.val) * 512 + p.val
    omega
  refine (transpose_apply _ _ _ (ix2 b p) (ix2 p b) ?_).trans ?_
  · intro d
    match d with
    | ⟨0, _⟩ => rfl
    | ⟨1, _⟩ => rfl
  refine (shapeCast_apply _ _ (ix2 p b) (ix1 p) ?_).trans ?_
  · rw [Shape.rowMajor_val_one, Shape.rowMajor_val_two]
    show p.val = p.val * 1 + b.val
    omega
  refine (Ideal.multiReduction_add_single _ _ _ _ _ (ix1 p)).trans ?_
  refine Finset.sum_congr rfl fun k _ => congrArg x0 ?_
  funext d
  match d with
  | ⟨0, _⟩ => rfl
  | ⟨1, _⟩ => rfl

end Cert.BP.K.Region01

end
-- ==== Proof.Region01.lean ====
/-
  What the first two grid computations leave in their result arrays, for any contents `V` of the buffers they are
  entered with.
  The first sums each column of its 4096 × 4096 operand, one strip of 512 columns per grid point, into a 1 × 4096 row.
  The second reads its operand in eight strips of 512 rows; strip r leaves the column sums of its own 512 rows in row r
  of an 8 × 1 × 4096 array, and the row sums of its 512 rows in row r of an 8 × 1 × 512 array.

  Each result is read off in three steps. What a grid point writes back is the block, at that point, of one function of
  the operand (the block's entries are sums over the operand's block, and an entry of a block sits in its array at
  block index × block size + its own coordinate). Every index of the result lies in some point's block. So the array
  ends holding that function.
-/
import proofs.«122477_j61564061221583_2_alg».proof.Proof.Gen.KernelIdeal.Frame
import proofs.«122477_j61564061221583_2_alg».proof.Proof.Spec
import proofs.«122477_j61564061221583_2_alg».proof.Proof.Region01Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.BP.K

open Idealize.ShloMosaic Idealize.ShloMosaic.ValueIdx Idealize.ShloMosaic.TcCoe Idealize.SL.Sem
open Cert.KernelIdeal Cert.KernelIdeal.Gen

-- the buffer contents a region is entered with: every statement below holds for any such contents
variable (V : (c : Dev nD) → (b : Ref sig .tc) → Buf (Elt Ideal) ((c : Thread nD τ).loc b))

namespace Region01

/-- Offsets (0, 0), however spelt, are all zero. -/
theorem zeroOff2 : (![0, 0] : Fin 2 → Nat) = fun _ => 0 := funext fun a => by fin_cases a <;> rfl
/-- Offsets (0, 0, 0), however spelt, are all zero. -/
theorem zeroOff3 : (![0, 0, 0] : Fin 3 → Nat) = fun _ => 0 := funext fun a => by fin_cases a <;> rfl

/-! ## The first computation: column sums, 512 columns per point -/

/-- The first computation's block indices: point t reads columns 512 t … 512 t + 511 of every row and writes the same
    columns of the result row. -/
theorem blockIdx0 : ∀ t : Fin cfg0.N, win0_0.index t (0 : Fin 2) = 0 ∧ win0_0.index t (1 : Fin 2) = t.val
    ∧ win0_1.index t (0 : Fin 2) = 0 ∧ win0_1.index t (1 : Fin 2) = t.val :=
  (by decide +kernel : ∀ t : Fin grid0.N, _)

/-- What point t writes back is block t of the column sums. -/
theorem flushed0_eq (c : Dev nD) (t : Fin cfg0.N) :
    (dat0 V c).flushed 1 t = ((cfg0.win 1).blk t).view.read (Elt Ideal) (colsumRow (V c main_arg0)) := by
  show (cfg0.win 1).cut (grid0.coords t) ((dat0 V c).after 1 t) = _
  rw [after0_1]
  unfold out0_1
  rw [View.canon_unit_zero zeroOff2]
  simp only [View.ld_unit_zero (S := S4096x512) zeroOff2]
  obtain ⟨e0, e1, e2, e3⟩ := blockIdx0 t
  funext j
  show k0_pay1 (iblk0 V c 0 t) j = colsumRow (V c main_arg0) (((cfg0.win 1).blk t).view.emb j)
  obtain ⟨p, q, rfl⟩ : ∃ (p : Fin 1) (q : Fin 512), j = ix2 p q := ⟨j 0, j 1, eq_ix2 j⟩
  refine (colsumBlock_apply (iblk0 V c 0 t) p q).trans ?_
  unfold colsumRow colsum
  refine Finset.sum_congr rfl fun k _ => ?_
  show V c main_arg0 (((cfg0.win 0).blk t).view.emb (ix2 k q)) = V c main_arg0 _
  refine congrArg (V c main_arg0) ?_
  funext a
  apply Fin.ext
  match a with
  | ⟨0, _⟩ => show win0_0.index t (0 : Fin 2) * 4096 + 1 * k.val = k.val; omega
  | ⟨1, _⟩ => show win0_0.index t (1 : Fin 2) * 512 + 1 * q.val = win0_1.index t (1 : Fin 2) * 512 + 1 * q.val; omega

/-- An index of the result row is in point t's block iff each coordinate is in the block's range on its axis. -/
theorem mem_blk0 (t : Fin cfg0.N) (i : S1x4096.Idx) :
    i ∈ ((cfg0.win 1).blk t).view.set ↔ ∀ a : Fin 2, win0_1.index t a * S1x512.size a ≤ (i a).val ∧ (i a).val < win0_1.index t a * S1x512.size a + S1x512.size a := by
  show i ∈ ((View.whole main_v0).slice (win0_1.rect t)).set ↔ _
  rw [View.set_slice_whole, Rect.mem_set_unit]
  exact Iff.rfl

/-- Every entry of the result row is written: column y by point y / 512. -/
theorem cover0 (i : S1x4096.Idx) :
    ∃ t : Fin cfg0.N, (cfg0.win 1).flush t = true ∧ i ∈ ((cfg0.win 1).blk t).view.set := by
  have hN : cfg0.N = 8 := N_0
  have hi0 : (i 0).val < 1 := (i 0).isLt
  have hi1 : (i 1).val < 4096 := (i 1).isLt
  refine ⟨⟨(i 1).val / 512, by omega⟩, flush0_1 _, ?_⟩
  rw [mem_blk0]
  obtain ⟨-, -, e2, e3⟩ := blockIdx0 ⟨(i 1).val / 512, by omega⟩
  intro a
  match a with
  | ⟨0, _⟩ => show win0_1.index _ (0 : Fin 2) * 1 ≤ (i 0).val ∧ (i 0).val < win0_1.index _ (0 : Fin 2) * 1 + 1; rw [e2]; omega
  | ⟨1, _⟩ => show win0_1.index _ (1 : Fin 2) * 512 ≤ (i 1).val ∧ (i 1).val < win0_1.index _ (1 : Fin 2) * 512 + 512; rw [e3]; show (i 1).val / 512 * 512 ≤ (i 1).val ∧ (i 1).val < (i 1).val / 512 * 512 + 512; omega

/-! ## The second computation: column sums and row sums of a strip of 512 rows per point -/

/-- The second computation's block indices: point t reads rows 512 t … 512 t + 511 (every column) and writes row t of
    each of its two results. -/
theorem blockIdx1 : ∀ t : Fin cfg1.N, win1_0.index t (0 : Fin 2) = t.val ∧ win1_0.index t (1 : Fin 2) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0 :=
  (by decide +kernel : ∀ t : Fin grid1.N, _)

/-- What point t writes back to the first result is block t of the strip column sums. -/
theorem flushed1_colpart (c : Dev nD) (t : Fin cfg1.N) :
    (dat1 V c).flushed 1 t = ((cfg1.win 1).blk t).view.read (Elt Ideal) (stripColsums (V c main_arg1)) := by
  show (cfg1.win 1).cut (grid1.coords t) ((dat1 V c).after 1 t) = _
  rw [after1_1]
  unfold out1_1
  rw [View.canon_unit_zero zeroOff3]
  simp only [View.ld_unit_zero (S := S512x4096) zeroOff2]
  obtain ⟨e0, e1, e2, e3, e4, e5, e6, e7⟩ := blockIdx1 t
  funext j
  show k1_pay1 (iblk1 V c 0 t) j = stripColsums (V c main_arg1) (((cfg1.win 1).blk t).view.emb j)
  obtain ⟨a, b, q, rfl⟩ : ∃ (a b : Fin 1) (q : Fin 4096), j = ix3 a b q := ⟨j 0, j 1, j 2, eq_ix3 j⟩
  refine (stripColsum_apply (iblk1 V c 0 t) a b q).trans ?_
  unfold stripColsums
  refine Finset.sum_congr rfl fun k _ => ?_
  show V c main_arg1 (((cfg1.win 0).blk t).view.emb (ix2 k q)) = V c main_arg1 _
  refine congrArg (V c main_arg1) ?_
  funext d
  apply Fin.ext
  have ha : a.val = 0 := by omega
  match d with
  | ⟨0, _⟩ => show win1_0.index t (0 : Fin 2) * 512 + 1 * k.val = (win1_1.index t (0 : Fin 3) * 1 + 1 * a.val) * 512 + k.val; omega
  | ⟨1, _⟩ => show win1_0.index t (1 : Fin 2) * 4096 + 1 * q.val = win1_1.index t (2 : Fin 3) * 4096 + 1 * q.val; omega

/-- What point t writes back to the second result is block t of the row sums. -/
theorem flushed1_rowsum (c : Dev nD) (t : Fin cfg1.N) :
    (dat1 V c).flushed 2 t = ((cfg1.win 2).blk t).view.read (Elt Ideal) (stripRowsums512 (V c main_arg1)) := by
  show (cfg1.win 2).cut (grid1.coords t) ((dat1 V c).after 2 t) = _
  rw [after1_2]
  unfold out1_2
  rw [View.canon_unit_zero zeroOff3]
  simp only [View.ld_unit_zero (S := S512x4096) zeroOff2]
  obtain ⟨e0, e1, e2, e3, e4, e5, e6, e7⟩ := blockIdx1 t
  funext j
  show k1_pay2 (iblk1 V c 0 t) j = stripRowsums512 (V c main_arg1) (((cfg1.win 2).blk t).view.emb j)
  obtain ⟨a, b, p, rfl⟩ : ∃ (a b : Fin 1) (p : Fin 512), j = ix3 a b p := ⟨j 0, j 1, j 2, eq_ix3 j⟩
  refine (stripRowsum_apply (iblk1 V c 0 t) a b p).trans ?_
  unfold stripRowsums512 rowsum
  refine Finset.sum_congr rfl fun k _ => ?_
  show V c main_arg1 (((cfg1.win 0).blk t).view.emb (ix2 p k)) = V c main_arg1 _
  refine congrArg (V c main_arg1) ?_
  funext d
  apply Fin.ext
  have ha : a.val = 0 := by omega
  match d with
  | ⟨0, _⟩ => show win1_0.index t (0 : Fin 2) * 512 + 1 * p.val = (win1_2.index t (0 : Fin 3) * 1 + 1 * a.val) * 512 + (win1_2.index t (2 : Fin 3) * 512 + 1 * p.val); omega
  | ⟨1, _⟩ => show win1_0.index t (1 : Fin 2) * 4096 + 1 * k.val = k.val; omega

/-- An index of the first result is in point t's block iff each coordinate is in the block's range on its axis. -/
theorem mem_blk1_colpart (t : Fin cfg1.N) (i : S8x1x4096.Idx) :
    i ∈ ((cfg1.win 1).blk t).view.set ↔ ∀ a : Fin 3, win1_1.index t a * S1x1x4096.size a ≤ (i a).val ∧ (i a).val < win1_1.index t a * S1x1x4096.size a + S1x1x4096.size a := by
  show i ∈ ((View.whole main_v21_0).slice (win1_1.rect t)).set ↔ _
  rw [View.set_slice_whole, Rect.mem_set_unit]
  exact Iff.rfl

/-- An index of the second result is in point t's block iff each coordinate is in the block's range on its axis. -/
theorem mem_blk1_rowsum (t : Fin cfg1.N) (i : S8x1x512.Idx) :
    i ∈ ((cfg1.win 2).blk t).view.set ↔ ∀ a : Fin 3, win1_2.index t a * S1x1x512.size a ≤ (i a).val ∧ (i a).val < win1_2.index t a * S1x1x512.size a + S1x1x512.size a := by
  show i ∈ ((View.whole main_v21_1).slice (win1_2.rect t)).set ↔ _
  rw [View.set_slice_whole, Rect.mem_set_unit]
  exact Iff.rfl

/-- Every entry of the first result is written: row r by point r. -/
theorem cover1_colpart (i : S8x1x4096.Idx) :
    ∃ t : Fin cfg1.N, (cfg1.win 1).flush t = true ∧ i ∈ ((cfg1.win 1).blk t).view.set := by
  have hN : cfg1.N = 8 := N_1
  have hi0 : (i 0).val < 8 := (i 0).isLt
  have hi1 : (i 1).val < 1 := (i 1).isLt
  have hi2 : (i 2).val < 4096 := (i 2).isLt
  refine ⟨⟨(i 0).val, by omega⟩, flush1_1 _, ?_⟩
  rw [mem_blk1_colpart]
  obtain ⟨-, -, e2, e3, e4, -, -, -⟩ := blockIdx1 ⟨(i 0).val, by omega⟩
  intro a
  match a with
  | ⟨0, _⟩ => show win1_1.index _ (0 : Fin 3) * 1 ≤ (i 0).val ∧ (i 0).val < win1_1.index _ (0 : Fin 3) * 1 + 1; rw [e2]; show (i 0).val * 1 ≤ (i 0).val ∧ (i 0).val < (i 0).val * 1 + 1; omega
  | ⟨1, _⟩ => show win1_1.index _ (1 : Fin 3) * 1 ≤ (i 1).val ∧ (i 1).val < win1_1.index _ (1 : Fin 3) * 1 + 1; rw [e3]; omega
  | ⟨2, _⟩ => show win1_1.index _ (2 : Fin 3) * 4096 ≤ (i 2).val ∧ (i 2).val < win1_1.index _ (2 : Fin 3) * 4096 + 4096; rw [e4]; omega

/-- Every entry of the second result is written: row r by point r. -/
theorem cover1_rowsum (i : S8x1x512.Idx) :
    ∃ t : Fin cfg1.N, (cfg1.win 2).flush t = true ∧ i ∈ ((cfg1.win 2).blk t).view.set := by
  have hN : cfg1.N = 8 := N_1
  have hi0 : (i 0).val < 8 := (i 0).isLt
  have hi1 : (i 1).val < 1 := (i 1).isLt
  have hi2 : (i 2).val < 512 := (i 2).isLt
  refine ⟨⟨(i 0).val, by omega⟩, flush1_2 _, ?_⟩
  rw [mem_blk1_rowsum]
  obtain ⟨-, -, -, -, -, e5, e6, e7⟩ := blockIdx1 ⟨(i 0).val, by omega⟩
  intro a
  match a with
  | ⟨0, _⟩ => show win1_2.index _ (0 : Fin 3) * 1 ≤ (i 0).val ∧ (i 0).val < win1_2.index _ (0 : Fin 3) * 1 + 1; rw [e5]; show (i 0).val * 1 ≤ (i 0).val ∧ (i 0).val < (i 0).val * 1 + 1; omega
  | ⟨1, _⟩ => show win1_2.index _ (1 : Fin 3) * 1 ≤ (i 1).val ∧ (i 1).val < win1_2.index _ (1 : Fin 3) * 1 + 1; rw [e6]; omega
  | ⟨2, _⟩ => show win1_2.index _ (2 : Fin 3) * 512 ≤ (i 2).val ∧ (i 2).val < win1_2.index _ (2 : Fin 3) * 512 + 512; rw [e7]; omega

end Region01

open Region01

/-! ## The result arrays -/

/-- The first result row holds the column sums of the operand. -/
theorem region0_colsum (c : Dev nD) :
    (dat0 V c).arrAt 1 cfg0.N = colsumRow (V c main_arg0) :=
  (dat0 V c).arrAt_eq_of_cover 1 (colsumRow (V c main_arg0)) (fun t _ => flushed0_eq V c t) cover0

/-- Row r of the second computation's first result holds the column sums of strip r (512 rows) of the operand. -/
theorem region1_colpart (c : Dev nD) :
    (dat1 V c).arrAt 1 cfg1.N = stripColsums (V c main_arg1) :=
  (dat1 V c).arrAt_eq_of_cover 1 (stripColsums (V c main_arg1)) (fun t _ => flushed1_colpart V c t) cover1_colpart

/-- Entry (r, 0, j) of the second computation's second result is the sum of row 512 r + j of the operand. -/
theorem region1_rowsum (c : Dev nD) :
    (dat1 V c).arrAt 2 cfg1.N = stripRowsums512 (V c main_arg1) :=
  (dat1 V c).arrAt_eq_of_cover 2 (stripRowsums512 (V c main_arg1)) (fun t _ => flushed1_rowsum V c t) cover1_rowsum

end Cert.BP.K

end
-- ==== Proof.KChain1.lean ====
/-
  The buffers' contents along the idealized kernel's run, first half: after the first grid computation (the column sums
  of θ0), after the host stretch that sends the first message m0, after the second grid computation (the column and row
  sums of θ1 by strips), and after the host stretch that forms Σ_y θ1(y,z) + Σ_y m0 y and sends the second message m1.
  A grid computation changes only its own result arrays; a host stretch only the buffers its operations write.
-/
import proofs.«122477_j61564061221583_2_alg».proof.Proof.Gen.KernelIdeal.Frame
import proofs.«122477_j61564061221583_2_alg».proof.Proof.Spec
import proofs.«122477_j61564061221583_2_alg».proof.Proof.KVec
import proofs.«122477_j61564061221583_2_alg».proof.Proof.Region01

import Idealize.ShloMosaic.Lib.StableHlo.Run

set_option maxRecDepth 16384

noncomputable section

namespace Cert.BP.K

open Idealize.ShloMosaic Idealize.ShloMosaic.ValueIdx Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ### After the first grid computation -/

theorem W1_v0 : W1 m ρ c (Proc.devRef .tc main_v0) = colsumRow (m ((c : Thread nD τ).loc main_arg0) : Mat) :=
  (W1_arr m ρ c 1).trans (region0_colsum (V0 m ρ) c)

theorem W1_arg1 : W1 m ρ c (Proc.devRef .tc main_arg1) = (m ((c : Thread nD τ).loc main_arg1) : Mat) := W1_of_ne m ρ c main_arg1 (by decide)
theorem W1_arg2 : W1 m ρ c (Proc.devRef .tc main_arg2) = (m ((c : Thread nD τ).loc main_arg2) : Mat) := W1_of_ne m ρ c main_arg2 (by decide)
theorem W1_arg3 : W1 m ρ c (Proc.devRef .tc main_arg3) = (m ((c : Thread nD τ).loc main_arg3) : Tab) := W1_of_ne m ρ c main_arg3 (by decide)
theorem W1_arg4 : W1 m ρ c (Proc.devRef .tc main_arg4) = (m ((c : Thread nD τ).loc main_arg4) : Tab) := W1_of_ne m ρ c main_arg4 (by decide)
theorem W1_arg5 : W1 m ρ c (Proc.devRef .tc main_arg5) = (m ((c : Thread nD τ).loc main_arg5) : Tab) := W1_of_ne m ρ c main_arg5 (by decide)
theorem W1_arg6 : W1 m ρ c (Proc.devRef .tc main_arg6) = (m ((c : Thread nD τ).loc main_arg6) : Tab) := W1_of_ne m ρ c main_arg6 (by decide)
theorem W1_arg0 : W1 m ρ c (Proc.devRef .tc main_arg0) = (m ((c : Thread nD τ).loc main_arg0) : Mat) :=
  (W1_arr m ρ c 0).trans (((dat0 (V0 m ρ) c).arrAt_in 0 rfl _).trans (A_eq0 (V0 m ρ) c 0))

/-! ### After the first host stretch: the first message -/

theorem W2_v20 : W2 m ρ c (Proc.devRef .tc main_v20) = m0 (m ((c : Thread nD τ).loc main_arg0) : Mat) (m ((c : Thread nD τ).loc main_arg3) : Tab) := by
  have h : W2 m ρ c (Proc.devRef .tc main_v20)
      = remap (shapeCast S4096 (W1 m ρ c (Proc.devRef .tc main_v0)) shapeCasts_S1x4096_S4096) (W1 m ρ c (Proc.devRef .tc main_arg3)) := by
    show StableHlo.after hostOps1 (W1 m ρ c) (Proc.devRef .tc main_v20) = _
    after_results_simp
    rfl
  rw [h, W1_v0, W1_arg3, unrow_colsumRow]
  rfl

theorem W2_arg0 : W2 m ρ c (Proc.devRef .tc main_arg0) = (m ((c : Thread nD τ).loc main_arg0) : Mat) := by
  refine Eq.trans ?_ (W1_arg0 m ρ c)
  show StableHlo.after hostOps1 (W1 m ρ c) (Proc.devRef .tc main_arg0) = _
  after_results_simp
theorem W2_arg1 : W2 m ρ c (Proc.devRef .tc main_arg1) = (m ((c : Thread nD τ).loc main_arg1) : Mat) := by
  refine Eq.trans ?_ (W1_arg1 m ρ c)
  show StableHlo.after hostOps1 (W1 m ρ c) (Proc.devRef .tc main_arg1) = _
  after_results_simp
theorem W2_arg2 : W2 m ρ c (Proc.devRef .tc main_arg2) = (m ((c : Thread nD τ).loc main_arg2) : Mat) := by
  refine Eq.trans ?_ (W1_arg2 m ρ c)
  show StableHlo.after hostOps1 (W1 m ρ c) (Proc.devRef .tc main_arg2) = _
  after_results_simp
theorem W2_arg4 : W2 m ρ c (Proc.devRef .tc main_arg4) = (m ((c : Thread nD τ).loc main_arg4) : Tab) := by
  refine Eq.trans ?_ (W1_arg4 m ρ c)
  show StableHlo.after hostOps1 (W1 m ρ c) (Proc.devRef .tc main_arg4) = _
  after_results_simp
theorem W2_arg5 : W2 m ρ c (Proc.devRef .tc main_arg5) = (m ((c : Thread nD τ).loc main_arg5) : Tab) := by
  refine Eq.trans ?_ (W1_arg5 m ρ c)
  show StableHlo.after hostOps1 (W1 m ρ c) (Proc.devRef .tc main_arg5) = _
  after_results_simp
theorem W2_arg6 : W2 m ρ c (Proc.devRef .tc main_arg6) = (m ((c : Thread nD τ).loc main_arg6) : Tab) := by
  refine Eq.trans ?_ (W1_arg6 m ρ c)
  show StableHlo.after hostOps1 (W1 m ρ c) (Proc.devRef .tc main_arg6) = _
  after_results_simp

/-! ### After the second grid computation -/

theorem W3_v21_0 : W3 m ρ c (Proc.devRef .tc main_v21_0) = stripColsums (m ((c : Thread nD τ).loc main_arg1) : Mat) :=
  (W3_arr m ρ c 1).trans ((region1_colpart (V2 m ρ) c).trans (congrArg stripColsums (W2_arg1 m ρ c)))
theorem W3_v21_1 : W3 m ρ c (Proc.devRef .tc main_v21_1) = stripRowsums512 (m ((c : Thread nD τ).loc main_arg1) : Mat) :=
  (W3_arr m ρ c 2).trans ((region1_rowsum (V2 m ρ) c).trans (congrArg stripRowsums512 (W2_arg1 m ρ c)))
theorem W3_v20 : W3 m ρ c (Proc.devRef .tc main_v20) = m0 (m ((c : Thread nD τ).loc main_arg0) : Mat) (m ((c : Thread nD τ).loc main_arg3) : Tab) :=
  (W3_of_ne m ρ c main_v20 (by decide)).trans (W2_v20 m ρ c)
theorem W3_arg0 : W3 m ρ c (Proc.devRef .tc main_arg0) = (m ((c : Thread nD τ).loc main_arg0) : Mat) := (W3_of_ne m ρ c main_arg0 (by decide)).trans (W2_arg0 m ρ c)
theorem W3_arg1 : W3 m ρ c (Proc.devRef .tc main_arg1) = (m ((c : Thread nD τ).loc main_arg1) : Mat) :=
  (W3_arr m ρ c 0).trans (((dat1 (V2 m ρ) c).arrAt_in 0 rfl _).trans ((A_eq1 (V2 m ρ) c 0).trans (W2_arg1 m ρ c)))
theorem W3_arg2 : W3 m ρ c (Proc.devRef .tc main_arg2) = (m ((c : Thread nD τ).loc main_arg2) : Mat) := (W3_of_ne m ρ c main_arg2 (by decide)).trans (W2_arg2 m ρ c)
theorem W3_arg4 : W3 m ρ c (Proc.devRef .tc main_arg4) = (m ((c : Thread nD τ).loc main_arg4) : Tab) := (W3_of_ne m ρ c main_arg4 (by decide)).trans (W2_arg4 m ρ c)
theorem W3_arg5 : W3 m ρ c (Proc.devRef .tc main_arg5) = (m ((c : Thread nD τ).loc main_arg5) : Tab) := (W3_of_ne m ρ c main_arg5 (by decide)).trans (W2_arg5 m ρ c)
theorem W3_arg6 : W3 m ρ c (Proc.devRef .tc main_arg6) = (m ((c : Thread nD τ).loc main_arg6) : Tab) := (W3_of_ne m ρ c main_arg6 (by decide)).trans (W2_arg6 m ρ c)

/-! ### After the second host stretch: the second message -/

theorem W4_v46 : W4 m ρ c (Proc.devRef .tc main_v46) = m1K (m ((c : Thread nD τ).loc main_arg0) : Mat) (m ((c : Thread nD τ).loc main_arg1) : Mat) (m ((c : Thread nD τ).loc main_arg3) : Tab) (m ((c : Thread nD τ).loc main_arg4) : Tab) := by
  have h : W4 m ρ c (Proc.devRef .tc main_v46)
      = remap (addf (Host.reduceAdd (F := Ideal) (shapeCast S8x4096 (W3 m ρ c (Proc.devRef .tc main_v21_0)) shapeCasts_S8x1x4096_S8x4096)
            (constant (F := Ideal) S_ .f32 0x00000000#32) reducesTo_S8x4096_S4096_d0 h_S_)
          (broadcastInDim S4096 ![] bcast_S_S4096
            (Host.reduceAdd (F := Ideal) (W3 m ρ c (Proc.devRef .tc main_v20)) (constant (F := Ideal) S_ .f32 0x00000000#32) reducesTo_S4096_S_d0 h_S_)))
        (W3 m ρ c (Proc.devRef .tc main_arg4)) := by
    show StableHlo.after hostOps2 (W3 m ρ c) (Proc.devRef .tc main_v46) = _
    after_results_simp
    rfl
  rw [h, W3_v21_0, W3_v20, W3_arg4, proc1_vec]
  rfl

theorem W4_v47 : W4 m ρ c (Proc.devRef .tc main_v47) = rowOf (m1K (m ((c : Thread nD τ).loc main_arg0) : Mat) (m ((c : Thread nD τ).loc main_arg1) : Mat) (m ((c : Thread nD τ).loc main_arg3) : Tab) (m ((c : Thread nD τ).loc main_arg4) : Tab)) := by
  have h : W4 m ρ c (Proc.devRef .tc main_v47) = shapeCast S1x4096 (W4 m ρ c (Proc.devRef .tc main_v46)) shapeCasts_S4096_S1x4096 := by
    show StableHlo.after hostOps2 (W3 m ρ c) (Proc.devRef .tc main_v47)
      = shapeCast S1x4096 (StableHlo.after hostOps2 (W3 m ρ c) (Proc.devRef .tc main_v46)) shapeCasts_S4096_S1x4096
    after_results_simp
    rfl
  rw [h, W4_v46, row_of_vec]

theorem W4_v24 : W4 m ρ c (Proc.devRef .tc main_v24) = vec (rowsum (m ((c : Thread nD τ).loc main_arg1) : Mat)) := by
  have h : W4 m ρ c (Proc.devRef .tc main_v24) = shapeCast S4096 (W3 m ρ c (Proc.devRef .tc main_v21_1)) shapeCasts_S8x1x512_S4096 := by
    show StableHlo.after hostOps2 (W3 m ρ c) (Proc.devRef .tc main_v24) = _
    after_results_simp
    rfl
  rw [h, W3_v21_1, unstrip512]

theorem W4_v20 : W4 m ρ c (Proc.devRef .tc main_v20) = m0 (m ((c : Thread nD τ).loc main_arg0) : Mat) (m ((c : Thread nD τ).loc main_arg3) : Tab) := by
  refine Eq.trans ?_ (W3_v20 m ρ c)
  show StableHlo.after hostOps2 (W3 m ρ c) (Proc.devRef .tc main_v20) = _
  after_results_simp
theorem W4_arg0 : W4 m ρ c (Proc.devRef .tc main_arg0) = (m ((c : Thread nD τ).loc main_arg0) : Mat) := by
  refine Eq.trans ?_ (W3_arg0 m ρ c)
  show StableHlo.after hostOps2 (W3 m ρ c) (Proc.devRef .tc main_arg0) = _
  after_results_simp
theorem W4_arg1 : W4 m ρ c (Proc.devRef .tc main_arg1) = (m ((c : Thread nD τ).loc main_arg1) : Mat) := by
  refine Eq.trans ?_ (W3_arg1 m ρ c)
  show StableHlo.after hostOps2 (W3 m ρ c) (Proc.devRef .tc main_arg1) = _
  after_results_simp
theorem W4_arg2 : W4 m ρ c (Proc.devRef .tc main_arg2) = (m ((c : Thread nD τ).loc main_arg2) : Mat) := by
  refine Eq.trans ?_ (W3_arg2 m ρ c)
  show StableHlo.after hostOps2 (W3 m ρ c) (Proc.devRef .tc main_arg2) = _
  after_results_simp
theorem W4_arg5 : W4 m ρ c (Proc.devRef .tc main_arg5) = (m ((c : Thread nD τ).loc main_arg5) : Tab) := by
  refine Eq.trans ?_ (W3_arg5 m ρ c)
  show StableHlo.after hostOps2 (W3 m ρ c) (Proc.devRef .tc main_arg5) = _
  after_results_simp
theorem W4_arg6 : W4 m ρ c (Proc.devRef .tc main_arg6) = (m ((c : Thread nD τ).loc main_arg6) : Tab) := by
  refine Eq.trans ?_ (W3_arg6 m ρ c)
  show StableHlo.after hostOps2 (W3 m ρ c) (Proc.devRef .tc main_arg6) = _
  after_results_simp

end Cert.BP.K

end
-- ==== Proof.Region2.lean ====
/-
  What the third grid computation leaves in its two result arrays, for any contents `V` of the buffers it is entered with.
  It reads its 4096 × 4096 operand in sixteen strips of 256 rows and a 1 × 4096 row vector: it adds entry z of the row
  vector to every entry of row z, and leaves the row sums of the ORIGINAL strip r in row r of a 16 × 1 × 256 array.

  At grid point t the body reads strip t of the operand and block t of the row vector; it writes back the strip with the
  row vector's entries added down its rows, and the strip's 256 row sums as block t of the second result. The strips
  cover the first result and the blocks cover the second, so each result is one function of the operand, entry by entry.
-/
import proofs.«122477_j61564061221583_2_alg».proof.Proof.Gen.KernelIdeal.Frame
import proofs.«122477_j61564061221583_2_alg».proof.Proof.Spec
import proofs.«122477_j61564061221583_2_alg».proof.Proof.Region234Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.BP.K.Region2

open Idealize.ShloMosaic Idealize.ShloMosaic.ValueIdx Idealize.ShloMosaic.TcCoe Idealize.SL.Sem
open Cert.KernelIdeal Cert.KernelIdeal.Gen

-- the buffer contents a region is entered with: every statement below holds for any such contents
variable (V : (c : Dev nD) → (b : Ref sig .tc) → Buf (Elt Ideal) ((c : Thread nD τ).loc b))

/-- The row vector added down the rows, read at an entry: any index of the row vector with the entry's row will do. -/
theorem addDownRows_at (θ : Mat) (r : Row) (i : S4096x4096.Idx) (k : S1x4096.Idx)
    (h0 : (k 0).val = 0) (h1 : (k 1).val = (i 0).val) : addDownRows θ r i = θ i + r k := by
  unfold addDownRows
  refine congrArg (θ i + ·) (congrArg r (funext fun a => Fin.ext ?_))
  match a with
  | ⟨0, _⟩ => exact h0.symm
  | ⟨1, _⟩ => exact h1.symm

/-- The strip row sums read at an entry (r, 0, j): the sum of row x of the operand, for x = 256 r + j. -/
theorem stripRowsums256_at (θ : Mat) (i : S16x1x256.Idx) (x : Fin 4096) (hx : x.val = (i 0).val * 256 + (i 2).val) :
    stripRowsums256 θ i = ∑ y : Fin 4096, θ (ix2 x y) := by
  unfold stripRowsums256 rowsum
  have e : strip256 ⟨(i 0).val, (i 0).isLt⟩ ⟨(i 2).val, (i 2).isLt⟩ = x := Fin.ext hx.symm
  rw [e]

/-- Zero offsets on two axes, however spelt. -/
theorem zeros2 : (![0, 0] : Fin 2 → Nat) = fun _ => 0 := funext fun a => by fin_cases a <;> rfl

/-- Zero offsets on three axes, however spelt. -/
theorem zeros3 : (![0, 0, 0] : Fin 3 → Nat) = fun _ => 0 := funext fun a => by fin_cases a <;> rfl

/-- The strips' positions over the grid: the operand's strip, the first result's strip and the second result's block
    all sit at the same strip index, below 16; the row vector's block is the strip's index; every other block index is 0. -/
theorem strips : ∀ t : Fin cfg2.N,
    win2_0.index t (0 : Fin 2) = win2_2.index t (0 : Fin 2)
    ∧ win2_0.index t (1 : Fin 2) = 0
    ∧ win2_1.index t (0 : Fin 2) = 0
    ∧ win2_1.index t (1 : Fin 2) = win2_2.index t (0 : Fin 2)
    ∧ win2_2.index t (0 : Fin 2) ≤ 15
    ∧ win2_2.index t (1 : Fin 2) = 0
    ∧ win2_3.index t (0 : Fin 3) = win2_2.index t (0 : Fin 2)
    ∧ win2_3.index t (1 : Fin 3) = 0
    ∧ win2_3.index t (2 : Fin 3) = 0 :=
  (by decide +kernel : ∀ t : Fin grid2.N, _)

/-- Every strip is some grid point's. -/
theorem strips_onto : ∀ q : Fin 16, ∃ t : Fin cfg2.N, win2_2.index t (0 : Fin 2) = q.val :=
  (by decide +kernel : ∀ q : Fin 16, ∃ t : Fin grid2.N, win2_2.index t (0 : Fin 2) = q.val)

/-! ### The first result -/

/-- What grid point `t` writes back to the first result is its strip of the operand with the row vector added down
    the rows. -/
theorem written_add (c : Dev nD) (t : Fin cfg2.N) :
    (dat2 V c).flushed 2 t
      = ((cfg2.win 2).blk t).view.read (Elt Ideal) (addDownRows (V c main_arg2) (V c main_v47)) := by
  show (cfg2.win 2).cut (grid2.coords t) ((dat2 V c).after 2 t) = _
  rw [after2_2]
  unfold out2_2
  rw [View.canon_unit_zero zeros2]
  simp only [View.ld_unit_zero (S := S256x4096) zeros2, View.ld_unit_zero (S := S1x256) zeros2]
  obtain ⟨e0, e1, e2, e3, -, e5, -, -, -⟩ := strips t
  funext j
  obtain ⟨p, q, rfl⟩ : ∃ (p : Fin 256) (q : Fin 4096), j = ix2 p q := ⟨j 0, j 1, eq_ix2 (n0 := 256) (n1 := 4096) j⟩
  show k2_pay1 (iblk2 V c 0 t) (iblk2 V c 1 t) (ix2 p q)
    = addDownRows (V c main_arg2) (V c main_v47) (((cfg2.win 2).blk t).view.emb (ix2 p q))
  refine (k2_pay1_apply (iblk2 V c 0 t) (iblk2 V c 1 t) p q).trans ?_
  refine Eq.trans ?_ (addDownRows_at (V c main_arg2) (V c main_v47) _
    (((cfg2.win 1).blk t).view.emb (ix2 (0 : Fin 1) p)) ?_ ?_).symm
  · refine congrArg₂ (fun a b : EReal => a + b) ?_ rfl
    show V c main_arg2 (((cfg2.win 0).blk t).view.emb (ix2 p q)) = V c main_arg2 (((cfg2.win 2).blk t).view.emb (ix2 p q))
    refine congrArg (V c main_arg2) (funext fun a => Fin.ext ?_)
    match a with
    | ⟨0, _⟩ => show win2_0.index t (0 : Fin 2) * 256 + 1 * p.val = win2_2.index t (0 : Fin 2) * 256 + 1 * p.val; omega
    | ⟨1, _⟩ => show win2_0.index t (1 : Fin 2) * 4096 + 1 * q.val = win2_2.index t (1 : Fin 2) * 4096 + 1 * q.val; omega
  · show win2_1.index t (0 : Fin 2) * 1 + 1 * (0 : ℕ) = 0
    omega
  · show win2_1.index t (1 : Fin 2) * 256 + 1 * p.val = win2_2.index t (0 : Fin 2) * 256 + 1 * p.val
    omega

/-- An entry of the first result lies in grid point `t`'s strip iff each coordinate lies in the strip's range. -/
theorem mem_strip (t : Fin cfg2.N) (i : S4096x4096.Idx) :
    i ∈ ((cfg2.win 2).blk t).view.set ↔ ∀ a : Fin 2, win2_2.index t a * S256x4096.size a ≤ (i a).val
      ∧ (i a).val < win2_2.index t a * S256x4096.size a + S256x4096.size a := by
  show i ∈ ((View.whole main_v48_0).slice (win2_2.rect t)).set ↔ _
  rw [View.set_slice_whole, Rect.mem_set_unit]
  exact Iff.rfl

/-- Every entry of the first result lies in some grid point's strip: entry (x, y) in strip x / 256. -/
theorem covered_add (i : S4096x4096.Idx) :
    ∃ t : Fin cfg2.N, (cfg2.win 2).flush t = true ∧ i ∈ ((cfg2.win 2).blk t).view.set := by
  have hi0 : (i 0).val < 4096 := (i 0).isLt
  have hi1 : (i 1).val < 4096 := (i 1).isLt
  obtain ⟨t, q0⟩ := strips_onto ⟨(i 0).val / 256, by omega⟩
  have q0' : win2_2.index t (0 : Fin 2) = (i 0).val / 256 := q0
  obtain ⟨-, -, -, -, -, q1, -, -, -⟩ := strips t
  refine ⟨t, flush2_2 t, ?_⟩
  rw [mem_strip]
  intro a
  match a with
  | ⟨0, _⟩ => show win2_2.index t (0 : Fin 2) * 256 ≤ (i 0).val ∧ (i 0).val < win2_2.index t (0 : Fin 2) * 256 + 256; omega
  | ⟨1, _⟩ => show win2_2.index t (1 : Fin 2) * 4096 ≤ (i 1).val ∧ (i 1).val < win2_2.index t (1 : Fin 2) * 4096 + 4096; omega

/-! ### The second result -/

/-- What grid point `t` writes back to the second result is its block of the strip row sums of the operand. -/
theorem written_rowsum (c : Dev nD) (t : Fin cfg2.N) :
    (dat2 V c).flushed 3 t
      = ((cfg2.win 3).blk t).view.read (Elt Ideal) (stripRowsums256 (V c main_arg2)) := by
  show (cfg2.win 3).cut (grid2.coords t) ((dat2 V c).after 3 t) = _
  rw [after2_3]
  unfold out2_3
  rw [View.canon_unit_zero zeros3]
  simp only [View.ld_unit_zero (S := S256x4096) zeros2]
  obtain ⟨e0, e1, -, -, e4, -, e6, -, e8⟩ := strips t
  funext j
  obtain ⟨u, v, k, rfl⟩ : ∃ (u v : Fin 1) (k : Fin 256), j = ix3 u v k :=
    ⟨j 0, j 1, j 2, eq_ix3 (n0 := 1) (n1 := 1) (n2 := 256) j⟩
  show k2_pay2 (iblk2 V c 0 t) (ix3 u v k)
    = stripRowsums256 (V c main_arg2) (((cfg2.win 3).blk t).view.emb (ix3 u v k))
  refine (k2_pay2_apply (iblk2 V c 0 t) u v k).trans ?_
  have hk : k.val < 256 := k.isLt
  have hu : u.val = 0 := by omega
  refine Eq.trans ?_ (stripRowsums256_at (V c main_arg2) _
    ⟨win2_0.index t (0 : Fin 2) * 256 + 1 * k.val, by omega⟩ ?_).symm
  · refine Finset.sum_congr rfl fun y _ => ?_
    show V c main_arg2 (((cfg2.win 0).blk t).view.emb (ix2 k y)) = V c main_arg2 (ix2 _ y)
    refine congrArg (V c main_arg2) (funext fun a => Fin.ext ?_)
    match a with
    | ⟨0, _⟩ => rfl
    | ⟨1, _⟩ => show win2_0.index t (1 : Fin 2) * 4096 + 1 * y.val = y.val; omega
  · show win2_0.index t (0 : Fin 2) * 256 + 1 * k.val
      = (win2_3.index t (0 : Fin 3) * 1 + 1 * u.val) * 256 + (win2_3.index t (2 : Fin 3) * 256 + 1 * k.val)
    omega

/-- An entry of the second result lies in grid point `t`'s block iff each coordinate lies in the block's range. -/
theorem mem_block (t : Fin cfg2.N) (i : S16x1x256.Idx) :
    i ∈ ((cfg2.win 3).blk t).view.set ↔ ∀ a : Fin 3, win2_3.index t a * S1x1x256.size a ≤ (i a).val
      ∧ (i a).val < win2_3.index t a * S1x1x256.size a + S1x1x256.size a := by
  show i ∈ ((View.whole main_v48_1).slice (win2_3.rect t)).set ↔ _
  rw [View.set_slice_whole, Rect.mem_set_unit]
  exact Iff.rfl

/-- Every entry of the second result lies in some grid point's block: entry (r, 0, j) in block r. -/
theorem covered_rowsum (i : S16x1x256.Idx) :
    ∃ t : Fin cfg2.N, (cfg2.win 3).flush t = true ∧ i ∈ ((cfg2.win 3).blk t).view.set := by
  have hi0 : (i 0).val < 16 := (i 0).isLt
  have hi1 : (i 1).val < 1 := (i 1).isLt
  have hi2 : (i 2).val < 256 := (i 2).isLt
  obtain ⟨t, q0⟩ := strips_onto ⟨(i 0).val, hi0⟩
  have q0' : win2_2.index t (0 : Fin 2) = (i 0).val := q0
  obtain ⟨-, -, -, -, -, -, e6, e7, e8⟩ := strips t
  refine ⟨t, flush2_3 t, ?_⟩
  rw [mem_block]
  intro a
  match a with
  | ⟨0, _⟩ => show win2_3.index t (0 : Fin 3) * 1 ≤ (i 0).val ∧ (i 0).val < win2_3.index t (0 : Fin 3) * 1 + 1; omega
  | ⟨1, _⟩ => show win2_3.index t (1 : Fin 3) * 1 ≤ (i 1).val ∧ (i 1).val < win2_3.index t (1 : Fin 3) * 1 + 1; omega
  | ⟨2, _⟩ => show win2_3.index t (2 : Fin 3) * 256 ≤ (i 2).val ∧ (i 2).val < win2_3.index t (2 : Fin 3) * 256 + 256; omega

end Cert.BP.K.Region2

namespace Cert.BP.K

open Idealize.ShloMosaic Idealize.ShloMosaic.ValueIdx Idealize.ShloMosaic.TcCoe Idealize.SL.Sem
open Cert.KernelIdeal Cert.KernelIdeal.Gen

-- the buffer contents a region is entered with: every statement below holds for any such contents
variable (V : (c : Dev nD) → (b : Ref sig .tc) → Buf (Elt Ideal) ((c : Thread nD τ).loc b))

/-- The third computation's first result: entry z of the row vector added to every entry of row z of the operand. -/
theorem region2_add (c : Dev nD) :
    (dat2 V c).arrAt 2 cfg2.N = addDownRows (V c main_arg2) (V c main_v47) :=
  (dat2 V c).arrAt_eq_of_cover 2 _ (fun t _ => Region2.written_add V c t) Region2.covered_add

/-- Entry (r, 0, j) of the third computation's second result is the sum of row 256 r + j of the operand. -/
theorem region2_rowsum (c : Dev nD) :
    (dat2 V c).arrAt 3 cfg2.N = stripRowsums256 (V c main_arg2) :=
  (dat2 V c).arrAt_eq_of_cover 3 _ (fun t _ => Region2.written_rowsum V c t) Region2.covered_rowsum

end Cert.BP.K

end
-- ==== Proof.KChain2.lean ====
/-
  The buffers' contents along the idealized kernel's run, second half up to the last message: after the third grid
  computation (θ2 + m1 down the rows, and the row sums of the original θ2 by strips), and after the host stretch that
  forms Σ_w θ2(z,w) + 4095 · m1 z, sends the third message m2, forms (Σ_z θ1(y,z) + 4095 · m0 y) + Σ_z m2 z and sends
  the fourth message m3.
-/
import proofs.«122477_j61564061221583_2_alg».proof.Proof.Gen.KernelIdeal.Frame
import proofs.«122477_j61564061221583_2_alg».proof.Proof.Spec
import proofs.«122477_j61564061221583_2_alg».proof.Proof.KVec
import proofs.«122477_j61564061221583_2_alg».proof.Proof.Region2
import proofs.«122477_j61564061221583_2_alg».proof.Proof.KChain1
import Idealize.ShloMosaic.Lib.StableHlo.Run

set_option maxRecDepth 16384

noncomputable section

namespace Cert.BP.K

open Idealize.ShloMosaic Idealize.ShloMosaic.ValueIdx Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ### After the third grid computation -/

theorem W5_v48_0 : W5 m ρ c (Proc.devRef .tc main_v48_0) = addDownRows (m ((c : Thread nD τ).loc main_arg2) : Mat) (rowOf (m1K (m ((c : Thread nD τ).loc main_arg0) : Mat) (m ((c : Thread nD τ).loc main_arg1) : Mat) (m ((c : Thread nD τ).loc main_arg3) : Tab) (m ((c : Thread nD τ).loc main_arg4) : Tab))) := by
  refine (W5_arr m ρ c 2).trans ((region2_add (V4 m ρ) c).trans ?_)
  show addDownRows (W4 m ρ c (Proc.devRef .tc main_arg2)) (W4 m ρ c (Proc.devRef .tc main_v47)) = _
  rw [W4_arg2, W4_v47]
theorem W5_v48_1 : W5 m ρ c (Proc.devRef .tc main_v48_1) = stripRowsums256 (m ((c : Thread nD τ).loc main_arg2) : Mat) :=
  (W5_arr m ρ c 3).trans ((region2_rowsum (V4 m ρ) c).trans (congrArg stripRowsums256 (W4_arg2 m ρ c)))
theorem W5_v46 : W5 m ρ c (Proc.devRef .tc main_v46) = m1K (m ((c : Thread nD τ).loc main_arg0) : Mat) (m ((c : Thread nD τ).loc main_arg1) : Mat) (m ((c : Thread nD τ).loc main_arg3) : Tab) (m ((c : Thread nD τ).loc main_arg4) : Tab) :=
  (W5_of_ne m ρ c main_v46 (by decide)).trans (W4_v46 m ρ c)
theorem W5_v20 : W5 m ρ c (Proc.devRef .tc main_v20) = m0 (m ((c : Thread nD τ).loc main_arg0) : Mat) (m ((c : Thread nD τ).loc main_arg3) : Tab) :=
  (W5_of_ne m ρ c main_v20 (by decide)).trans (W4_v20 m ρ c)
theorem W5_v24 : W5 m ρ c (Proc.devRef .tc main_v24) = vec (rowsum (m ((c : Thread nD τ).loc main_arg1) : Mat)) :=
  (W5_of_ne m ρ c main_v24 (by decide)).trans (W4_v24 m ρ c)
theorem W5_arg0 : W5 m ρ c (Proc.devRef .tc main_arg0) = (m ((c : Thread nD τ).loc main_arg0) : Mat) :=
  (W5_of_ne m ρ c main_arg0 (by decide)).trans (W4_arg0 m ρ c)
theorem W5_arg1 : W5 m ρ c (Proc.devRef .tc main_arg1) = (m ((c : Thread nD τ).loc main_arg1) : Mat) :=
  (W5_of_ne m ρ c main_arg1 (by decide)).trans (W4_arg1 m ρ c)
theorem W5_arg5 : W5 m ρ c (Proc.devRef .tc main_arg5) = (m ((c : Thread nD τ).loc main_arg5) : Tab) :=
  (W5_of_ne m ρ c main_arg5 (by decide)).trans (W4_arg5 m ρ c)
theorem W5_arg6 : W5 m ρ c (Proc.devRef .tc main_arg6) = (m ((c : Thread nD τ).loc main_arg6) : Tab) :=
  (W5_of_ne m ρ c main_arg6 (by decide)).trans (W4_arg6 m ρ c)

/-! ### After the third host stretch: the third and fourth messages -/

theorem W6_v71 : W6 m ρ c (Proc.devRef .tc main_v71) = m2K (m ((c : Thread nD τ).loc main_arg0) : Mat) (m ((c : Thread nD τ).loc main_arg1) : Mat) (m ((c : Thread nD τ).loc main_arg2) : Mat) (m ((c : Thread nD τ).loc main_arg3) : Tab) (m ((c : Thread nD τ).loc main_arg4) : Tab) (m ((c : Thread nD τ).loc main_arg5) : Tab) := by
  have h : W6 m ρ c (Proc.devRef .tc main_v71)
      = remap (addf (shapeCast S4096 (W5 m ρ c (Proc.devRef .tc main_v48_1)) shapeCasts_S16x1x256_S4096)
          (mulf (broadcastInDim S4096 ![] bcast_S_S4096 (constant (F := Ideal) S_ .f32 0x457FF000#32)) (W5 m ρ c (Proc.devRef .tc main_v46))))
        (W5 m ρ c (Proc.devRef .tc main_arg5)) := by
    show StableHlo.after hostOps3 (W5 m ρ c) (Proc.devRef .tc main_v71) = _
    after_results_simp
    rfl
  rw [h, W5_v48_1, W5_v46, W5_arg5, unstrip256, add_4095_vec]
  rfl

set_option maxHeartbeats 4000000 in
theorem W6_v96 : W6 m ρ c (Proc.devRef .tc main_v96) = m3K (m ((c : Thread nD τ).loc main_arg0) : Mat) (m ((c : Thread nD τ).loc main_arg1) : Mat) (m ((c : Thread nD τ).loc main_arg2) : Mat) (m ((c : Thread nD τ).loc main_arg3) : Tab) (m ((c : Thread nD τ).loc main_arg4) : Tab) (m ((c : Thread nD τ).loc main_arg5) : Tab) (m ((c : Thread nD τ).loc main_arg6) : Tab) := by
  have h : W6 m ρ c (Proc.devRef .tc main_v96)
      = remap (addf (addf (W5 m ρ c (Proc.devRef .tc main_v24))
            (mulf (broadcastInDim S4096 ![] bcast_S_S4096 (constant (F := Ideal) S_ .f32 0x457FF000#32)) (W5 m ρ c (Proc.devRef .tc main_v20))))
          (broadcastInDim S4096 ![] bcast_S_S4096
            (Host.reduceAdd (F := Ideal) (W6 m ρ c (Proc.devRef .tc main_v71)) (constant (F := Ideal) S_ .f32 0x00000000#32) reducesTo_S4096_S_d0 h_S_)))
        (W5 m ρ c (Proc.devRef .tc main_arg6)) := by
    show StableHlo.after hostOps3 (W5 m ρ c) (Proc.devRef .tc main_v96)
      = remap (addf (addf (W5 m ρ c (Proc.devRef .tc main_v24))
            (mulf (broadcastInDim S4096 ![] bcast_S_S4096 (constant (F := Ideal) S_ .f32 0x457FF000#32)) (W5 m ρ c (Proc.devRef .tc main_v20))))
          (broadcastInDim S4096 ![] bcast_S_S4096
            (Host.reduceAdd (F := Ideal) (StableHlo.after hostOps3 (W5 m ρ c) (Proc.devRef .tc main_v71)) (constant (F := Ideal) S_ .f32 0x00000000#32) reducesTo_S4096_S_d0 h_S_)))
        (W5 m ρ c (Proc.devRef .tc main_arg6))
    after_results_simp
    rfl
  rw [h, W5_v24, W5_v20, W6_v71, W5_arg6, add_4095_vec, add_total_vec]
  rfl

set_option maxHeartbeats 4000000 in
theorem W6_v97 : W6 m ρ c (Proc.devRef .tc main_v97) = rowOf (m3K (m ((c : Thread nD τ).loc main_arg0) : Mat) (m ((c : Thread nD τ).loc main_arg1) : Mat) (m ((c : Thread nD τ).loc main_arg2) : Mat) (m ((c : Thread nD τ).loc main_arg3) : Tab) (m ((c : Thread nD τ).loc main_arg4) : Tab) (m ((c : Thread nD τ).loc main_arg5) : Tab) (m ((c : Thread nD τ).loc main_arg6) : Tab)) := by
  have h : W6 m ρ c (Proc.devRef .tc main_v97) = shapeCast S1x4096 (W6 m ρ c (Proc.devRef .tc main_v96)) shapeCasts_S4096_S1x4096 := by
    show StableHlo.after hostOps3 (W5 m ρ c) (Proc.devRef .tc main_v97)
      = shapeCast S1x4096 (StableHlo.after hostOps3 (W5 m ρ c) (Proc.devRef .tc main_v96)) shapeCasts_S4096_S1x4096
    after_results_simp
    rfl
  rw [h, W6_v96, row_of_vec]

theorem W6_v20 : W6 m ρ c (Proc.devRef .tc main_v20) = m0 (m ((c : Thread nD τ).loc main_arg0) : Mat) (m ((c : Thread nD τ).loc main_arg3) : Tab) := by
  refine Eq.trans ?_ (W5_v20 m ρ c)
  show StableHlo.after hostOps3 (W5 m ρ c) (Proc.devRef .tc main_v20) = _
  after_results_simp
theorem W6_v48_0 : W6 m ρ c (Proc.devRef .tc main_v48_0) = addDownRows (m ((c : Thread nD τ).loc main_arg2) : Mat) (rowOf (m1K (m ((c : Thread nD τ).loc main_arg0) : Mat) (m ((c : Thread nD τ).loc main_arg1) : Mat) (m ((c : Thread nD τ).loc main_arg3) : Tab) (m ((c : Thread nD τ).loc main_arg4) : Tab))) := by
  refine Eq.trans ?_ (W5_v48_0 m ρ c)
  show StableHlo.after hostOps3 (W5 m ρ c) (Proc.devRef .tc main_v48_0) = _
  after_results_simp
theorem W6_arg0 : W6 m ρ c (Proc.devRef .tc main_arg0) = (m ((c : Thread nD τ).loc main_arg0) : Mat) := by
  refine Eq.trans ?_ (W5_arg0 m ρ c)
  show StableHlo.after hostOps3 (W5 m ρ c) (Proc.devRef .tc main_arg0) = _
  after_results_simp
theorem W6_arg1 : W6 m ρ c (Proc.devRef .tc main_arg1) = (m ((c : Thread nD τ).loc main_arg1) : Mat) := by
  refine Eq.trans ?_ (W5_arg1 m ρ c)
  show StableHlo.after hostOps3 (W5 m ρ c) (Proc.devRef .tc main_arg1) = _
  after_results_simp

end Cert.BP.K

end
-- ==== Proof.KChain3.lean ====
/-
  The buffers' contents along the idealized kernel's run, the end: after the fourth grid computation (θ0 + m3 along the
  columns), after the host stretch that lays m0 and m2 out as rows, and after the fifth grid computation (θ1 + m0 down the
  rows + m2 along the columns). The three result arrays then hold the K forms of the specification.
-/
import proofs.«122477_j61564061221583_2_alg».proof.Proof.Gen.KernelIdeal.Frame
import proofs.«122477_j61564061221583_2_alg».proof.Proof.Spec
import proofs.«122477_j61564061221583_2_alg».proof.Proof.KVec
import proofs.«122477_j61564061221583_2_alg».proof.Proof.Region234
import proofs.«122477_j61564061221583_2_alg».proof.Proof.KChain1
import proofs.«122477_j61564061221583_2_alg».proof.Proof.KChain2
import Idealize.ShloMosaic.Lib.StableHlo.Run

set_option maxRecDepth 16384

noncomputable section

namespace Cert.BP.K

open Idealize.ShloMosaic Idealize.ShloMosaic.ValueIdx Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ### After the fourth grid computation -/

theorem W7_v98 : W7 m ρ c (Proc.devRef .tc main_v98) = addAlongCols (m ((c : Thread nD τ).loc main_arg0) : Mat) (rowOf (m3K (m ((c : Thread nD τ).loc main_arg0) : Mat) (m ((c : Thread nD τ).loc main_arg1) : Mat) (m ((c : Thread nD τ).loc main_arg2) : Mat) (m ((c : Thread nD τ).loc main_arg3) : Tab) (m ((c : Thread nD τ).loc main_arg4) : Tab) (m ((c : Thread nD τ).loc main_arg5) : Tab) (m ((c : Thread nD τ).loc main_arg6) : Tab))) := by
  refine (W7_arr m ρ c 2).trans ((region3_add (V6 m ρ) c).trans ?_)
  show addAlongCols (W6 m ρ c (Proc.devRef .tc main_arg0)) (W6 m ρ c (Proc.devRef .tc main_v97)) = _
  rw [W6_arg0, W6_v97]
theorem W7_v20 : W7 m ρ c (Proc.devRef .tc main_v20) = m0 (m ((c : Thread nD τ).loc main_arg0) : Mat) (m ((c : Thread nD τ).loc main_arg3) : Tab) :=
  (W7_of_ne m ρ c main_v20 (by decide)).trans (W6_v20 m ρ c)
theorem W7_v71 : W7 m ρ c (Proc.devRef .tc main_v71) = m2K (m ((c : Thread nD τ).loc main_arg0) : Mat) (m ((c : Thread nD τ).loc main_arg1) : Mat) (m ((c : Thread nD τ).loc main_arg2) : Mat) (m ((c : Thread nD τ).loc main_arg3) : Tab) (m ((c : Thread nD τ).loc main_arg4) : Tab) (m ((c : Thread nD τ).loc main_arg5) : Tab) :=
  (W7_of_ne m ρ c main_v71 (by decide)).trans (W6_v71 m ρ c)
theorem W7_v48_0 : W7 m ρ c (Proc.devRef .tc main_v48_0) = addDownRows (m ((c : Thread nD τ).loc main_arg2) : Mat) (rowOf (m1K (m ((c : Thread nD τ).loc main_arg0) : Mat) (m ((c : Thread nD τ).loc main_arg1) : Mat) (m ((c : Thread nD τ).loc main_arg3) : Tab) (m ((c : Thread nD τ).loc main_arg4) : Tab))) :=
  (W7_of_ne m ρ c main_v48_0 (by decide)).trans (W6_v48_0 m ρ c)
theorem W7_arg1 : W7 m ρ c (Proc.devRef .tc main_arg1) = (m ((c : Thread nD τ).loc main_arg1) : Mat) :=
  (W7_of_ne m ρ c main_arg1 (by decide)).trans (W6_arg1 m ρ c)

/-! ### After the fourth host stretch: the two messages as rows -/

theorem W8_v99 : W8 m ρ c (Proc.devRef .tc main_v99) = rowOf (m0 (m ((c : Thread nD τ).loc main_arg0) : Mat) (m ((c : Thread nD τ).loc main_arg3) : Tab)) := by
  have h : W8 m ρ c (Proc.devRef .tc main_v99) = shapeCast S1x4096 (W7 m ρ c (Proc.devRef .tc main_v20)) shapeCasts_S4096_S1x4096 := by
    show StableHlo.after hostOps4 (W7 m ρ c) (Proc.devRef .tc main_v99) = _
    after_results_simp
    rfl
  rw [h, W7_v20, row_of_vec]
theorem W8_v100 : W8 m ρ c (Proc.devRef .tc main_v100) = rowOf (m2K (m ((c : Thread nD τ).loc main_arg0) : Mat) (m ((c : Thread nD τ).loc main_arg1) : Mat) (m ((c : Thread nD τ).loc main_arg2) : Mat) (m ((c : Thread nD τ).loc main_arg3) : Tab) (m ((c : Thread nD τ).loc main_arg4) : Tab) (m ((c : Thread nD τ).loc main_arg5) : Tab)) := by
  have h : W8 m ρ c (Proc.devRef .tc main_v100) = shapeCast S1x4096 (W7 m ρ c (Proc.devRef .tc main_v71)) shapeCasts_S4096_S1x4096 := by
    show StableHlo.after hostOps4 (W7 m ρ c) (Proc.devRef .tc main_v100) = _
    after_results_simp
    rfl
  rw [h, W7_v71, row_of_vec]
theorem W8_v98 : W8 m ρ c (Proc.devRef .tc main_v98) = addAlongCols (m ((c : Thread nD τ).loc main_arg0) : Mat) (rowOf (m3K (m ((c : Thread nD τ).loc main_arg0) : Mat) (m ((c : Thread nD τ).loc main_arg1) : Mat) (m ((c : Thread nD τ).loc main_arg2) : Mat) (m ((c : Thread nD τ).loc main_arg3) : Tab) (m ((c : Thread nD τ).loc main_arg4) : Tab) (m ((c : Thread nD τ).loc main_arg5) : Tab) (m ((c : Thread nD τ).loc main_arg6) : Tab))) := by
  refine Eq.trans ?_ (W7_v98 m ρ c)
  show StableHlo.after hostOps4 (W7 m ρ c) (Proc.devRef .tc main_v98) = _
  after_results_simp
theorem W8_v48_0 : W8 m ρ c (Proc.devRef .tc main_v48_0) = addDownRows (m ((c : Thread nD τ).loc main_arg2) : Mat) (rowOf (m1K (m ((c : Thread nD τ).loc main_arg0) : Mat) (m ((c : Thread nD τ).loc main_arg1) : Mat) (m ((c : Thread nD τ).loc main_arg3) : Tab) (m ((c : Thread nD τ).loc main_arg4) : Tab))) := by
  refine Eq.trans ?_ (W7_v48_0 m ρ c)
  show StableHlo.after hostOps4 (W7 m ρ c) (Proc.devRef .tc main_v48_0) = _
  after_results_simp
theorem W8_arg1 : W8 m ρ c (Proc.devRef .tc main_arg1) = (m ((c : Thread nD τ).loc main_arg1) : Mat) := by
  refine Eq.trans ?_ (W7_arg1 m ρ c)
  show StableHlo.after hostOps4 (W7 m ρ c) (Proc.devRef .tc main_arg1) = _
  after_results_simp

/-! ### After the fifth grid computation: the three results -/

theorem W9_v101 : W9 m ρ c (Proc.devRef .tc main_v101) = addAlongCols (addDownRows (m ((c : Thread nD τ).loc main_arg1) : Mat) (rowOf (m0 (m ((c : Thread nD τ).loc main_arg0) : Mat) (m ((c : Thread nD τ).loc main_arg3) : Tab)))) (rowOf (m2K (m ((c : Thread nD τ).loc main_arg0) : Mat) (m ((c : Thread nD τ).loc main_arg1) : Mat) (m ((c : Thread nD τ).loc main_arg2) : Mat) (m ((c : Thread nD τ).loc main_arg3) : Tab) (m ((c : Thread nD τ).loc main_arg4) : Tab) (m ((c : Thread nD τ).loc main_arg5) : Tab))) := by
  refine (W9_arr m ρ c 3).trans ((region4_add (V8 m ρ) c).trans ?_)
  show addAlongCols (addDownRows (W8 m ρ c (Proc.devRef .tc main_arg1)) (W8 m ρ c (Proc.devRef .tc main_v99))) (W8 m ρ c (Proc.devRef .tc main_v100)) = _
  rw [W8_arg1, W8_v99, W8_v100]
theorem W9_v98 : W9 m ρ c (Proc.devRef .tc main_v98) = addAlongCols (m ((c : Thread nD τ).loc main_arg0) : Mat) (rowOf (m3K (m ((c : Thread nD τ).loc main_arg0) : Mat) (m ((c : Thread nD τ).loc main_arg1) : Mat) (m ((c : Thread nD τ).loc main_arg2) : Mat) (m ((c : Thread nD τ).loc main_arg3) : Tab) (m ((c : Thread nD τ).loc main_arg4) : Tab) (m ((c : Thread nD τ).loc main_arg5) : Tab) (m ((c : Thread nD τ).loc main_arg6) : Tab))) :=
  (W9_of_ne m ρ c main_v98 (by decide)).trans (W8_v98 m ρ c)
theorem W9_v48_0 : W9 m ρ c (Proc.devRef .tc main_v48_0) = addDownRows (m ((c : Thread nD τ).loc main_arg2) : Mat) (rowOf (m1K (m ((c : Thread nD τ).loc main_arg0) : Mat) (m ((c : Thread nD τ).loc main_arg1) : Mat) (m ((c : Thread nD τ).loc main_arg3) : Tab) (m ((c : Thread nD τ).loc main_arg4) : Tab))) :=
  (W9_of_ne m ρ c main_v48_0 (by decide)).trans (W8_v48_0 m ρ c)

/-- The first result array ends at θ0 + m3 along the columns. -/
theorem kernel_out0 : W9 m ρ c (Proc.devRef .tc main_v98) = out0K (m ((c : Thread nD τ).loc main_arg0) : Mat) (m ((c : Thread nD τ).loc main_arg1) : Mat) (m ((c : Thread nD τ).loc main_arg2) : Mat) (m ((c : Thread nD τ).loc main_arg3) : Tab) (m ((c : Thread nD τ).loc main_arg4) : Tab) (m ((c : Thread nD τ).loc main_arg5) : Tab) (m ((c : Thread nD τ).loc main_arg6) : Tab) :=
  (W9_v98 m ρ c).trans (funext fun i => rfl)
/-- The second result array ends at θ1 + m0 down the rows + m2 along the columns. -/
theorem kernel_out1 : W9 m ρ c (Proc.devRef .tc main_v101) = out1K (m ((c : Thread nD τ).loc main_arg0) : Mat) (m ((c : Thread nD τ).loc main_arg1) : Mat) (m ((c : Thread nD τ).loc main_arg2) : Mat) (m ((c : Thread nD τ).loc main_arg3) : Tab) (m ((c : Thread nD τ).loc main_arg4) : Tab) (m ((c : Thread nD τ).loc main_arg5) : Tab) :=
  (W9_v101 m ρ c).trans (funext fun i => rfl)
/-- The third result array ends at θ2 + m1 down the rows. -/
theorem kernel_out2 : W9 m ρ c (Proc.devRef .tc main_v48_0) = out2K (m ((c : Thread nD τ).loc main_arg0) : Mat) (m ((c : Thread nD τ).loc main_arg1) : Mat) (m ((c : Thread nD τ).loc main_arg2) : Mat) (m ((c : Thread nD τ).loc main_arg3) : Tab) (m ((c : Thread nD τ).loc main_arg4) : Tab) :=
  (W9_v48_0 m ρ c).trans (funext fun i => rfl)

end Cert.BP.K

end
-- ==== Proof.RefValue.lean ====
/-
  The reference program's three results are the R forms of the specification.

  The reference's run is read one operation at a time: a sum over an axis is the initial value 0 plus the sum over that
  axis's coordinate, a broadcast of a vector along an axis reads the vector at the other coordinate, and the gather /
  additive scatter pair with its index preparation is `remap`, kept closed.
-/
import proofs.«122477_j61564061221583_2_alg».proof.Proof.Gen.ReferenceIdeal.Read
import proofs.«122477_j61564061221583_2_alg».proof.Proof.Gen.KernelIdeal
import proofs.«122477_j61564061221583_2_alg».proof.Proof.Spec

noncomputable section

namespace Cert.BP.Ref

open Idealize.ShloMosaic Idealize.ShloMosaic.ValueIdx Cert.BP
open Cert.ReferenceIdeal.Read

/-! ### The two programs' gather and scatter records, index columns and zero vector are the same -/

/-- The reference's gather record is the one `remap` uses: the same fields. -/
theorem gather_rec_eq :
    Cert.ReferenceIdeal.gather_S4096_S4096x1_S4096_n_0_n_n_0_1_1 = Cert.KernelIdeal.gather_S4096_S4096x1_S4096_n_0_n_n_0_1_1 := rfl

/-- The reference's scatter record is the one `remap` uses: the same fields. -/
theorem scatter_rec_eq :
    Cert.ReferenceIdeal.scatter_S4096_S4096x1_S4096_n_0_0_1 = Cert.KernelIdeal.scatter_S4096_S4096x1_S4096_n_0_0_1 := rfl

/-- A gather by the first row's column followed by an additive scatter into zeros by the second row's column,
    with the reference's records, is `remap`. -/
theorem remap_of (proc : Vec) (op : Tab) (z : Vec) (d s : Col)
    (hz : z = broadcastInDim Cert.KernelIdeal.S4096 ![] Cert.KernelIdeal.Facts₀.bcast_S_S4096
      (constant (F := Ideal) Cert.KernelIdeal.S_ .f32 0x00000000#32))
    (hd : d = dstCol op) (hs : s = srcCol op) :
    Host.scatterAdd (F := Ideal) (φ := .f32) Cert.ReferenceIdeal.scatter_S4096_S4096x1_S4096_n_0_0_1 z d
      (Host.gather Cert.ReferenceIdeal.gather_S4096_S4096x1_S4096_n_0_n_n_0_1_1 proc s) = remap proc op := by
  subst hz hd hs
  rw [gather_rec_eq, scatter_rec_eq]
  rfl

/-- The reference's vector of zeros is the one `remap` scatters into. -/
theorem zero1 : val_main_v1 (F := Ideal) = broadcastInDim Cert.KernelIdeal.S4096 ![] Cert.KernelIdeal.Facts₀.bcast_S_S4096
      (constant (F := Ideal) Cert.KernelIdeal.S_ .f32 0x00000000#32) := rfl
/-- The column of source positions the reference prepares from a table's first row. -/
theorem src3 (op : Tab) : val_main_v11 (F := Ideal) op = srcCol op := rfl
/-- The column of target positions the reference prepares from a table's second row. -/
theorem dst3 (op : Tab) : val_main_v18 (F := Ideal) op = dstCol op := rfl

variable (x0 x1 x2 : Mat) (x3 x4 x5 x6 : Tab)

/-! ### The first message -/

/-- The first sum: the column sums of θ0. -/
theorem v0_eq : val_main_v0 (F := Ideal) x0 = vec (colsum x0) := by
  funext i
  rw [val_main_v0_apply, val_main_cst_apply]
  show Ideal.ofBits .f32 0x00000000#32 + _ = _
  rw [Ideal.ofBits_zero_f32, zero_add]
  show _ = ∑ x : Fin 4096, x0 (ix2 x ⟨(i 0).val, (i 0).isLt⟩)
  refine Finset.sum_congr rfl fun k _ => ?_
  exact congrArg x0 (funext fun a => Fin.ext (by match a with | ⟨0, _⟩ => rfl | ⟨1, _⟩ => rfl))

/-- The first message. -/
theorem v19_eq : val_main_v19 (F := Ideal) x0 x3 = m0 x0 x3 := by
  unfold val_main_v19 val_main_v12 m0
  rw [v0_eq]
  exact remap_of _ x3 _ _ _ zero1 (dst3 x3) (src3 x3)

/-! ### The second potential with the first message added down the rows, and the second message -/

/-- θ1 with the first message added down the rows, at an index. -/
theorem v22_at (i : Cert.ReferenceIdeal.S4096x4096.Idx) :
    val_main_v22 (F := Ideal) x0 x1 x3 i = x1 i + ent (m0 x0 x3) ⟨(i 0).val, (i 0).isLt⟩ := by
  rw [val_main_v22_apply, val_main_v21_apply, val_main_v20_apply, v19_eq]
  show x1 i + _ = _
  refine congrArg (x1 i + ·) ?_
  exact congrArg (m0 x0 x3) (funext fun a => by match a with | ⟨0, _⟩ => rfl)

/-- The vector the second message is made from: the column sums of the updated θ1. -/
theorem v23_eq : val_main_v23 (F := Ideal) x0 x1 x3 = vec (proc1R x0 x1 x3) := by
  funext i
  rw [val_main_v23_apply, val_main_cst_4_apply]
  show Ideal.ofBits .f32 0x00000000#32 + _ = _
  rw [Ideal.ofBits_zero_f32, zero_add]
  show _ = ∑ y : Fin 4096, (x1 (ix2 y ⟨(i 0).val, (i 0).isLt⟩) + ent (m0 x0 x3) y)
  refine Finset.sum_congr rfl fun k _ => ?_
  rw [v22_at]
  have hi : idx_main_v23 i k = ix2 k ⟨(i 0).val, (i 0).isLt⟩ :=
    funext fun a => Fin.ext (by match a with | ⟨0, _⟩ => rfl | ⟨1, _⟩ => rfl)
  rw [hi]
  rfl

/-- The second message. -/
theorem v42_eq : val_main_v42 (F := Ideal) x0 x1 x3 x4 = m1R x0 x1 x3 x4 := by
  unfold val_main_v42 val_main_v35 m1R
  rw [v23_eq]
  exact remap_of _ x4 _ _ _ rfl rfl rfl

/-! ### The third potential with the second message added down the rows (the third result), and the third message -/

/-- θ2 with the second message added down the rows, at an index. -/
theorem v45_at (i : Cert.ReferenceIdeal.S4096x4096.Idx) :
    val_main_v45 (F := Ideal) x0 x1 x2 x3 x4 i = x2 i + ent (m1R x0 x1 x3 x4) ⟨(i 0).val, (i 0).isLt⟩ := by
  rw [val_main_v45_apply, val_main_v44_apply, val_main_v43_apply, v42_eq]
  show x2 i + _ = _
  refine congrArg (x2 i + ·) ?_
  exact congrArg (m1R x0 x1 x3 x4) (funext fun a => by match a with | ⟨0, _⟩ => rfl)

/-- The vector the third message is made from: the row sums of the updated θ2, less the second message. -/
theorem v47_eq : val_main_v47 (F := Ideal) x0 x1 x2 x3 x4 = vec (proc2R x0 x1 x2 x3 x4) := by
  funext i
  rw [val_main_v47_apply, val_main_v46_apply, val_main_cst_10_apply, v42_eq]
  show (Ideal.ofBits .f32 0x00000000#32 + _) - _ = _
  rw [Ideal.ofBits_zero_f32, zero_add]
  show _ = (∑ w : Fin 4096, (x2 (ix2 ⟨(i 0).val, (i 0).isLt⟩ w) + ent (m1R x0 x1 x3 x4) ⟨(i 0).val, (i 0).isLt⟩))
    - ent (m1R x0 x1 x3 x4) ⟨(i 0).val, (i 0).isLt⟩
  refine congrArg₂ (· - ·) (Finset.sum_congr rfl fun k _ => ?_) (congrArg (m1R x0 x1 x3 x4) (eq_ix1 i))
  rw [v45_at]
  have hi : idx_main_v46 i k = ix2 ⟨(i 0).val, (i 0).isLt⟩ k :=
    funext fun a => Fin.ext (by match a with | ⟨0, _⟩ => rfl | ⟨1, _⟩ => rfl)
  rw [hi]
  rfl

/-- The third message. -/
theorem v66_eq : val_main_v66 (F := Ideal) x0 x1 x2 x3 x4 x5 = m2R x0 x1 x2 x3 x4 x5 := by
  unfold val_main_v66 val_main_v59 m2R
  rw [v47_eq]
  exact remap_of _ x5 _ _ _ rfl rfl rfl

/-! ### The updated θ1 with the third message added along the columns (the second result), and the fourth message -/

/-- The updated θ1 with the third message added along the columns, at an index. -/
theorem v69_at (i : Cert.ReferenceIdeal.S4096x4096.Idx) :
    val_main_v69 (F := Ideal) x0 x1 x2 x3 x4 x5 i
      = (x1 i + ent (m0 x0 x3) ⟨(i 0).val, (i 0).isLt⟩) + ent (m2R x0 x1 x2 x3 x4 x5) ⟨(i 1).val, (i 1).isLt⟩ := by
  rw [val_main_v69_apply, val_main_v68_apply, val_main_v67_apply, v66_eq, v22_at]
  show (x1 i + ent (m0 x0 x3) ⟨(i 0).val, (i 0).isLt⟩) + _ = _
  refine congrArg ((x1 i + ent (m0 x0 x3) ⟨(i 0).val, (i 0).isLt⟩) + ·) ?_
  exact congrArg (m2R x0 x1 x2 x3 x4 x5) (funext fun a => by match a with | ⟨0, _⟩ => rfl)

/-- The vector the fourth message is made from: the row sums of the twice updated θ1, less the first message. -/
theorem v71_eq : val_main_v71 (F := Ideal) x0 x1 x2 x3 x4 x5 = vec (proc3R x0 x1 x2 x3 x4 x5) := by
  funext i
  rw [val_main_v71_apply, val_main_v70_apply, val_main_cst_16_apply, v19_eq]
  show (Ideal.ofBits .f32 0x00000000#32 + _) - _ = _
  rw [Ideal.ofBits_zero_f32, zero_add]
  show _ = (∑ z : Fin 4096, ((x1 (ix2 ⟨(i 0).val, (i 0).isLt⟩ z) + ent (m0 x0 x3) ⟨(i 0).val, (i 0).isLt⟩)
      + ent (m2R x0 x1 x2 x3 x4 x5) z)) - ent (m0 x0 x3) ⟨(i 0).val, (i 0).isLt⟩
  refine congrArg₂ (· - ·) (Finset.sum_congr rfl fun k _ => ?_) (congrArg (m0 x0 x3) (eq_ix1 i))
  rw [v69_at]
  have hi : idx_main_v70 i k = ix2 ⟨(i 0).val, (i 0).isLt⟩ k :=
    funext fun a => Fin.ext (by match a with | ⟨0, _⟩ => rfl | ⟨1, _⟩ => rfl)
  rw [hi]
  rfl

/-- The fourth message. -/
theorem v90_eq : val_main_v90 (F := Ideal) x0 x1 x2 x3 x4 x5 x6 = m3R x0 x1 x2 x3 x4 x5 x6 := by
  unfold val_main_v90 val_main_v83 m3R
  rw [v71_eq]
  exact remap_of _ x6 _ _ _ rfl rfl rfl

/-! ### The three results -/

/-- The reference's first result (θ0 + m3 along the columns). -/
theorem ref_out0 : Cert.ReferenceIdeal.Read.val_main_v93 (F := Ideal) x0 x1 x2 x3 x4 x5 x6 = out0R x0 x1 x2 x3 x4 x5 x6 := by
  funext i
  rw [val_main_v93_apply, val_main_v92_apply, val_main_v91_apply, v90_eq]
  show x0 i + _ = x0 i + ent (m3R x0 x1 x2 x3 x4 x5 x6) ⟨(i 1).val, (i 1).isLt⟩
  refine congrArg (x0 i + ·) ?_
  exact congrArg (m3R x0 x1 x2 x3 x4 x5 x6) (funext fun a => by match a with | ⟨0, _⟩ => rfl)

/-- The reference's second result (θ1 + m0 down the rows + m2 along the columns). -/
theorem ref_out1 : Cert.ReferenceIdeal.Read.val_main_v69 (F := Ideal) x0 x1 x2 x3 x4 x5 = out1R x0 x1 x2 x3 x4 x5 :=
  funext fun i => v69_at x0 x1 x2 x3 x4 x5 i

/-- The reference's third result (θ2 + m1 down the rows). -/
theorem ref_out2 : Cert.ReferenceIdeal.Read.val_main_v45 (F := Ideal) x0 x1 x2 x3 x4 = out2R x0 x1 x2 x3 x4 :=
  funext fun i => v45_at x0 x1 x2 x3 x4 i

end Cert.BP.Ref

end
-- ==== Proof.SpecEqConst.lean ====
/-
  The one float constant the specification spells, as the extended real its pattern denotes.

  0x457FF000 is the single-precision pattern of 4095 (sign 0, exponent 11, significand 4095 / 2048).
-/
import Idealize.ShloMosaic.PureOps.Ideal

noncomputable section

namespace Cert.BP

open Idealize.ShloMosaic

/-- The pattern 0x457FF000 denotes the real number 4095. -/
theorem ofBits_4095 : Ideal.ofBits .f32 0x457FF000#32 = ((4095 : ℝ) : EReal) := by
  simp [Ideal.ofBits, Ideal.ieee, -EReal.coe_mul]; norm_num

end Cert.BP

end
-- ==== Proof.LibGatherRows.lean ====
/-
  A gather of rows, read at one element.

  The host's gather `x[idx]` along the leading axis reads, for each result row, one index word; the word is read as a
  signed integer and clamped into `[0, N − 1]` (so that the slice of one row fits in the operand), and the result row is
  the operand's row at that clamped position. For the two layouts such a lookup lowers to this file computes the operand
  index a result element reads:

  * rows: operand `[N, C]`, one index word per result row (start indices `[E, 1]`), result `[E, C]`, slices of one whole
    row. Result element `(e, k)` is the operand at `(clamp (idx e), k)`.
  * scalars: operand `[N]`, start indices `[E, 1]`, result `[E]`, slices of one element. Result element `e` is the
    operand at `clamp (idx e)`.

  Here `clamp z = min (toNat z) (N − 1)`: a negative word reads row 0, a word past the end reads the last row. The
  element type is arbitrary: a gather only moves elements.
-/
import Idealize.ShloMosaic.PureOps.Ideal
import Idealize.ShloMosaic.Lib.ValueIdx

noncomputable section

namespace Idealize.ShloMosaic.GatherAt

open Idealize.ShloMosaic Idealize.ShloMosaic.ValueIdx

/-! ## Rows: operand `[N, C]`, start indices `[E, 1]`, result `[E, C]` -/

section Rows
variable {α : Type} {N C E w : Nat}

/-- The dimension numbers of a row gather: the result's axis 1 is the offset axis and reads the operand's axis 1 (a whole
    row is one slice), the operand's axis 0 is collapsed and is the one the index word addresses, the index vector is the
    start indices' axis 1 (of extent one). -/
abbrev rowGDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- On the addressed axis the slice starts at the result row's index word, read signed and clamped into `[0, N − 1]`. -/
theorem rowGDims_start0 (wf : GatherDims.WF ⟨2, ![N, C]⟩ ⟨2, ![E, 1]⟩ ⟨2, ![E, C]⟩ [1] [0] [] [0] [] 1 ![1, C])
    (j : (⟨2, ![E, C]⟩ : Shape).Idx) (idx : IVec ⟨2, ![E, 1]⟩ w) :
    (rowGDims N C E wf).start j idx 0 = min (idx (ix2 (j 0) ⟨0, Nat.one_pos⟩)).toInt.toNat (N - 1) := by
  unfold GatherDims.start
  rw [dif_pos (show (0 : Fin 2) ∈ (rowGDims N C E wf).startIndexMap from List.mem_singleton.mpr rfl)]
  have hsi : (rowGDims N C E wf).siIdx j ⟨List.idxOf (0 : Fin 2) (rowGDims N C E wf).startIndexMap,
      List.idxOf_lt_length_iff.2 (List.mem_singleton.mpr rfl)⟩ = ix2 (j 0) ⟨0, Nat.one_pos⟩ := by
    funext b; refine Fin.ext ?_
    match b with
    | ⟨0, _⟩ => rfl
    | ⟨1, _⟩ => rfl
  rw [hsi]
  rfl

/-- On the row's own axis the slice starts at zero. -/
theorem rowGDims_start1 (wf : GatherDims.WF ⟨2, ![N, C]⟩ ⟨2, ![E, 1]⟩ ⟨2, ![E, C]⟩ [1] [0] [] [0] [] 1 ![1, C])
    (j : (⟨2, ![E, C]⟩ : Shape).Idx) (idx : IVec ⟨2, ![E, 1]⟩ w) :
    (rowGDims N C E wf).start j idx 1 = 0 := by
  unfold GatherDims.start
  rw [dif_neg (show ¬ (1 : Fin 2) ∈ (rowGDims N C E wf).startIndexMap from by simp)]

/-- The addressed axis is collapsed: it has no offset coordinate. -/
theorem rowGDims_off0 (wf : GatherDims.WF ⟨2, ![N, C]⟩ ⟨2, ![E, 1]⟩ ⟨2, ![E, C]⟩ [1] [0] [] [0] [] 1 ![1, C])
    (j : (⟨2, ![E, C]⟩ : Shape).Idx) : (rowGDims N C E wf).offCoord j 0 = 0 :=
  GatherDims.offCoord_eq_zero _ _ _ (fun h => ((GatherDims.mem_sKept _ _).mp h).1 (List.mem_singleton.mpr rfl))

/-- The offset coordinate on the operand's axis 1 is the result's column. -/
theorem rowGDims_off1 (wf : GatherDims.WF ⟨2, ![N, C]⟩ ⟨2, ![E, 1]⟩ ⟨2, ![E, C]⟩ [1] [0] [] [0] [] 1 ![1, C])
    (j : (⟨2, ![E, C]⟩ : Shape).Idx) : (rowGDims N C E wf).offCoord j 1 = (j 1).val := by
  unfold GatherDims.offCoord
  rw [dif_pos (show (1 : Fin 2) ∈ (rowGDims N C E wf).sKept from by simp [GatherDims.sKept, Shape.kept])]
  rfl

/-- THE ROW GATHER READ AT `(e, k)`: the operand at row "index word of `e`, read signed and clamped into
    `[0, N − 1]`", column `k`. -/
theorem rowGather_apply (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGDims N C E wf) x idx (ix2 e k)
      = x (ix2 ⟨min (idx (ix2 e ⟨0, Nat.one_pos⟩)).toInt.toNat (N - 1), by omega⟩ k) := by
  unfold Host.gather
  congr 1
  funext a
  refine Fin.ext ?_
  match a with
  | ⟨0, _⟩ =>
    show (rowGDims N C E wf).start (ix2 e k) idx 0 + (rowGDims N C E wf).batchCoord (ix2 e k) 0
      + (rowGDims N C E wf).offCoord (ix2 e k) 0 = _
    rw [GatherDims.batchCoord_eq_zero _ _ _ List.not_mem_nil, rowGDims_off0, rowGDims_start0]
    rfl
  | ⟨1, _⟩ =>
    show (rowGDims N C E wf).start (ix2 e k) idx 1 + (rowGDims N C E wf).batchCoord (ix2 e k) 1
      + (rowGDims N C E wf).offCoord (ix2 e k) 1 = _
    rw [GatherDims.batchCoord_eq_zero _ _ _ List.not_mem_nil, rowGDims_off1, rowGDims_start1]
    simp only [Nat.add_zero, Nat.zero_add]
    rfl

end Rows

/-! ## Scalars: operand `[N]`, start indices `[E, 1]`, result `[E]` -/

section Scalars
variable {α : Type} {N E w : Nat}

/-- The dimension numbers of a scalar gather: no offset axis (a slice is one element); the operand's one axis is collapsed
    and addressed by the index word; the index vector is the start indices' axis 1 (of extent one). -/
abbrev vecGDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The slice starts at the result element's index word, read signed and clamped into `[0, N − 1]`. -/
theorem vecGDims_start0 (wf : GatherDims.WF ⟨1, ![N]⟩ ⟨2, ![E, 1]⟩ ⟨1, ![E]⟩ [] [0] [] [0] [] 1 ![1])
    (j : (⟨1, ![E]⟩ : Shape).Idx) (idx : IVec ⟨2, ![E, 1]⟩ w) :
    (vecGDims N E wf).start j idx 0 = min (idx (ix2 (j 0) ⟨0, Nat.one_pos⟩)).toInt.toNat (N - 1) := by
  unfold GatherDims.start
  rw [dif_pos (show (0 : Fin 1) ∈ (vecGDims N E wf).startIndexMap from List.mem_singleton.mpr rfl)]
  have hsi : (vecGDims N E wf).siIdx j ⟨List.idxOf (0 : Fin 1) (vecGDims N E wf).startIndexMap,
      List.idxOf_lt_length_iff.2 (List.mem_singleton.mpr rfl)⟩ = ix2 (j 0) ⟨0, Nat.one_pos⟩ := by
    funext b; refine Fin.ext ?_
    match b with
    | ⟨0, _⟩ => rfl
    | ⟨1, _⟩ => rfl
  rw [hsi]
  rfl

/-- THE SCALAR GATHER READ AT `e`: the operand at "index word of `e`, read signed and clamped into `[0, N − 1]`". -/
theorem vecGather_apply (hN : 0 < N) (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGDims N E wf) x idx (ix1 e)
      = x (ix1 ⟨min (idx (ix2 e ⟨0, Nat.one_pos⟩)).toInt.toNat (N - 1), by omega⟩) := by
  unfold Host.gather
  congr 1
  funext a
  obtain rfl : a = 0 := Subsingleton.elim _ _
  refine Fin.ext ?_
  show (vecGDims N E wf).start (ix1 e) idx 0 + (vecGDims N E wf).batchCoord (ix1 e) 0
    + (vecGDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl)),
    vecGDims_start0]
  rfl

end Scalars

end Idealize.ShloMosaic.GatherAt

end
-- ==== Proof.LibAggFinite.lean ====
/-
  Finiteness through a neighbour sum.

  A neighbour aggregation on the host is a gather of rows followed by an additive scatter of those rows into an array of
  zeros. On the extended reals a gather only moves elements, and an additive scatter read at an element is that element
  plus a finite sum of update elements; so if every entry of the gathered array is finite (the image of a real), every
  entry of the aggregate is finite. Each fact is stated first for arbitrary dimension numbers (it needs nothing about
  them), then for the row layouts: operand [N, C], one index word per row (indices [E, 1]), rows [E, C].
-/
import proofs.«122477_j61564061221583_2_alg».proof.Proof.LibBatchNorm
import proofs.«122477_j61564061221583_2_alg».proof.Proof.LibGatherRows
import proofs.«122477_j61564061221583_2_alg».proof.Proof.LibScatterAdd
import Idealize.ShloMosaic.PureOps.Ideal.Laws

noncomputable section

namespace Cert.LibAggFinite

open Idealize.ShloMosaic Idealize.ShloMosaic.ValueIdx
open Idealize.ShloMosaic.GatherAt Idealize.ShloMosaic.ScatterAddAt
open Cert.LibBatchNorm

/-! ### Any dimension numbers -/

/-- A gather only moves elements: every element of a gather of a finite array is finite. -/
theorem gather_isFin_of {s si t : Shape} {w : ℕ} (d : GatherDims s si t) (x : s.Idx → EReal) (idx : IVec si w)
    (hx : ∀ i, IsFin (x i)) (j : t.Idx) : IsFin (Host.gather d x idx j) :=
  hx _

/-- An additive scatter of finite updates into a finite array is finite at every element: the element plus a finite sum
    of update elements. -/
theorem scatterAdd_isFin_of {s si u : Shape} {w : ℕ} {φ : FTy} (d : ScatterDims s si u) (x : FVec Ideal s φ)
    (idx : IVec si w) (upd : FVec Ideal u φ) (hx : ∀ i, IsFin (x i)) (hu : ∀ j, IsFin (upd j)) (i : s.Idx) :
    IsFin (Host.scatterAdd (F := Ideal) d x idx upd i) := by
  show IsFin (Ideal.hostScatterAdd d x idx upd i)
  unfold Ideal.hostScatterAdd
  exact (hx i).add (isFin_sum _ _ (fun j _ => hu j))

/-- A broadcast only repeats elements: every element of a broadcast of a finite array is finite. -/
theorem broadcastInDim_isFin {s t : Shape} (dims : Fin s.rank → Fin t.rank) (h : s.BroadcastsInDim t dims)
    (x : s.Idx → EReal) (hx : ∀ i, IsFin (x i)) (j : t.Idx) : IsFin (broadcastInDim t dims h x j) :=
  hx _

/-- The constant array of the f32 zero pattern is zero, hence finite, at every index. -/
theorem constant_zero_isFin {s : Shape} (i : s.Idx) : IsFin (constant (F := Ideal) s .f32 0x00000000#32 i) := by
  show IsFin (Ideal.ofBits .f32 0x00000000#32)
  rw [Ideal.ofBits_zero_f32]
  exact isFin_zero

/-- The array of zeros a scalar zero is broadcast to is finite at every index. -/
theorem zeros_isFin {t : Shape} (h : (⟨0, ![]⟩ : Shape).BroadcastsInDim t ![]) (j : t.Idx) :
    IsFin (broadcastInDim t ![] h (constant (F := Ideal) ⟨0, ![]⟩ .f32 0x00000000#32) j) :=
  broadcastInDim_isFin (s := ⟨0, ![]⟩) _ h _ constant_zero_isFin j

/-- The neighbour sum of a finite array — its gathered rows scattered additively into zeros — is finite at every
    element, whatever the two index arrays. -/
theorem agg_isFin_of {s si si' u : Shape} {w w' : ℕ} (dS : ScatterDims s si' u) (dG : GatherDims s si u)
    (hb : (⟨0, ![]⟩ : Shape).BroadcastsInDim s ![]) (h : s.Idx → EReal) (hh : ∀ i, IsFin (h i))
    (src : IVec si w) (dst : IVec si' w') (i : s.Idx) :
    IsFin (Host.scatterAdd (F := Ideal) (φ := .f32) dS
      (broadcastInDim s ![] hb (constant (F := Ideal) ⟨0, ![]⟩ .f32 0x00000000#32)) dst (Host.gather dG h src) i) :=
  scatterAdd_isFin_of dS _ dst _ (zeros_isFin hb) (gather_isFin_of dG h src hh) i

/-! ### The row layouts: operand [N, C], indices [E, 1], rows [E, C] -/

section Rows
variable {N C E w w' : ℕ}

/-- A gather of rows of a finite array is finite at every element. -/
theorem gather_isFin (wf : GatherDims.WF ⟨2, ![N, C]⟩ ⟨2, ![E, 1]⟩ ⟨2, ![E, C]⟩ [1] [0] [] [0] [] 1 ![1, C])
    (x : (⟨2, ![N, C]⟩ : Shape).Idx → EReal) (idx : IVec ⟨2, ![E, 1]⟩ w) (hx : ∀ i, IsFin (x i))
    (j : (⟨2, ![E, C]⟩ : Shape).Idx) : IsFin (Host.gather (rowGDims N C E wf) x idx j) :=
  gather_isFin_of _ x idx hx j

/-- An additive scatter of finite rows into a finite array is finite at every element. -/
theorem scatterAdd_isFin (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (u : (⟨2, ![E, C]⟩ : Shape).Idx → EReal)
    (hx : ∀ i, IsFin (x i)) (hu : ∀ j, IsFin (u j)) (i : (⟨2, ![N, C]⟩ : Shape).Idx) :
    IsFin (Host.scatterAdd (F := Ideal) (φ := .f32) (rowDims N C E wf) x idx u i) :=
  scatterAdd_isFin_of (φ := .f32) _ x idx u hx hu i

/-- The neighbour sum of a finite [N, C] array over E edges is finite at every element. -/
theorem agg_isFin (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (hb : (⟨0, ![]⟩ : Shape).BroadcastsInDim ⟨2, ![N, C]⟩ ![])
    (h : (⟨2, ![N, C]⟩ : Shape).Idx → EReal) (hh : ∀ i, IsFin (h i))
    (src : IVec ⟨2, ![E, 1]⟩ w) (dst : IVec ⟨2, ![E, 1]⟩ w') (i : (⟨2, ![N, C]⟩ : Shape).Idx) :
    IsFin (Host.scatterAdd (F := Ideal) (φ := .f32) (rowDims N C E wfS)
      (broadcastInDim ⟨2, ![N, C]⟩ ![] hb (constant (F := Ideal) ⟨0, ![]⟩ .f32 0x00000000#32)) dst
      (Host.gather (rowGDims N C E wfG) h src) i) :=
  agg_isFin_of _ _ hb h hh src dst i

end Rows

end Cert.LibAggFinite

end
-- ==== Proof.SpecEq.lean ====
/-
  The two ways of writing each vector handed to `remap` agree when every entry of the three potentials is a real number.

  Summing the updated array and subtracting the message, or summing the original array and adding 4095 copies of the
  message, differ by n·b − b against (n − 1)·b with n = 4096: equal for a real b, not at the infinities. So the proof
  first carries "every entry is a real number" along the chain of messages (a gather moves entries, an additive scatter
  into zeros adds finitely many of them), then rewrites each sum over the reals.
-/
import proofs.«122477_j61564061221583_2_alg».proof.Proof.Spec
import proofs.«122477_j61564061221583_2_alg».proof.Proof.SpecEqConst
import proofs.«122477_j61564061221583_2_alg».proof.Proof.LibAggFinite

noncomputable section

namespace Cert.BP

open Idealize.ShloMosaic Idealize.ShloMosaic.ValueIdx Cert.KernelIdeal Cert.LibBatchNorm

/-! ### Two identities over the reals -/

/-- n copies of b added along a sum of n = 4096 terms, less one b, is 4095 copies of b. -/
theorem real_sum_add_sub (a : Fin 4096 → ℝ) (b : ℝ) :
    (∑ w : Fin 4096, (a w + b)) - b = (∑ w : Fin 4096, a w) + 4095 * b := by
  rw [Finset.sum_add_distrib, Finset.sum_const, Finset.card_univ, Fintype.card_fin, nsmul_eq_mul]
  push_cast
  ring

/-- The same with a second family added term by term. -/
theorem real_sum_add_add_sub (a d : Fin 4096 → ℝ) (b : ℝ) :
    (∑ z : Fin 4096, ((a z + b) + d z)) - b = ((∑ z : Fin 4096, a z) + 4095 * b) + ∑ z : Fin 4096, d z := by
  rw [Finset.sum_add_distrib, Finset.sum_add_distrib, Finset.sum_const, Finset.card_univ, Fintype.card_fin, nsmul_eq_mul]
  push_cast
  ring

/-! ### The same identities over the extended reals, for real entries -/

/-- For real entries: Σ_w (x w + y) − y = Σ_w x w + 4095 · y. -/
theorem sum_add_sub (x : Fin 4096 → EReal) (y : EReal) (hx : ∀ w, IsFin (x w)) (hy : IsFin y) :
    (∑ w : Fin 4096, (x w + y)) - y = (∑ w : Fin 4096, x w) + ((4095 : ℝ) : EReal) * y := by
  obtain ⟨a, ha⟩ := exists_real_fun x hx
  obtain ⟨b, rfl⟩ := hy
  simp only [ha]
  simp only [← EReal.coe_add, ← coe_sum, ← EReal.coe_sub, ← EReal.coe_mul]
  rw [real_sum_add_sub]

/-- For real entries: Σ_z ((x z + y) + u z) − y = (Σ_z x z + 4095 · y) + Σ_z u z. -/
theorem sum_add_add_sub (x u : Fin 4096 → EReal) (y : EReal) (hx : ∀ z, IsFin (x z)) (hu : ∀ z, IsFin (u z))
    (hy : IsFin y) :
    (∑ z : Fin 4096, ((x z + y) + u z)) - y
      = ((∑ z : Fin 4096, x z) + ((4095 : ℝ) : EReal) * y) + ∑ z : Fin 4096, u z := by
  obtain ⟨a, ha⟩ := exists_real_fun x hx
  obtain ⟨d, hd⟩ := exists_real_fun u hu
  obtain ⟨b, rfl⟩ := hy
  simp only [ha, hd]
  simp only [← EReal.coe_add, ← coe_sum, ← EReal.coe_sub, ← EReal.coe_mul]
  rw [real_sum_add_add_sub]

variable [Facts₀]

/-! ### Real entries along the chain of messages -/

/-- A message of a vector with real entries has real entries: the gather moves entries and the additive scatter
    into zeros adds finitely many of them. -/
theorem remap_isFin (proc : Vec) (op : Tab) (h : ∀ i, IsFin (proc i)) (i : S4096.Idx) : IsFin (remap proc op i) := by
  unfold remap
  exact Cert.LibAggFinite.agg_isFin_of _ _ _ proc h _ _ i

theorem vec_isFin (f : Fin 4096 → EReal) (h : ∀ k, IsFin (f k)) (i : S4096.Idx) : IsFin (vec f i) := h _

theorem ent_isFin (v : Vec) (h : ∀ i, IsFin (v i)) (k : Fin 4096) : IsFin (ent v k) := h _

theorem colsum_isFin (θ : Mat) (h : ∀ i, IsFin (θ i)) (y : Fin 4096) : IsFin (colsum θ y) :=
  isFin_sum _ _ (fun _ _ => h _)

theorem rowsum_isFin (θ : Mat) (h : ∀ i, IsFin (θ i)) (x : Fin 4096) : IsFin (rowsum θ x) :=
  isFin_sum _ _ (fun _ _ => h _)

theorem total_isFin (f : Fin 4096 → EReal) (h : ∀ k, IsFin (f k)) : IsFin (total f) :=
  isFin_sum _ _ (fun k _ => h k)

theorem c4095_isFin : IsFin c4095 := ⟨4095, ofBits_4095⟩

variable (θ0 θ1 θ2 : Mat) (op0 op1 op2 op3 : Tab)

theorem m0_isFin (h0 : ∀ i, IsFin (θ0 i)) (i : S4096.Idx) : IsFin (m0 θ0 op0 i) :=
  remap_isFin _ _ (vec_isFin _ (colsum_isFin θ0 h0)) i

theorem proc1K_isFin (h0 : ∀ i, IsFin (θ0 i)) (h1 : ∀ i, IsFin (θ1 i)) (z : Fin 4096) :
    IsFin (proc1K θ0 θ1 op0 z) :=
  (colsum_isFin θ1 h1 z).add (total_isFin _ (ent_isFin _ (m0_isFin θ0 op0 h0)))

theorem m1K_isFin (h0 : ∀ i, IsFin (θ0 i)) (h1 : ∀ i, IsFin (θ1 i)) (i : S4096.Idx) :
    IsFin (m1K θ0 θ1 op0 op1 i) :=
  remap_isFin _ _ (vec_isFin _ (proc1K_isFin θ0 θ1 op0 h0 h1)) i

theorem proc2K_isFin (h0 : ∀ i, IsFin (θ0 i)) (h1 : ∀ i, IsFin (θ1 i)) (h2 : ∀ i, IsFin (θ2 i)) (z : Fin 4096) :
    IsFin (proc2K θ0 θ1 θ2 op0 op1 z) :=
  (rowsum_isFin θ2 h2 z).add (c4095_isFin.mul (ent_isFin _ (m1K_isFin θ0 θ1 op0 op1 h0 h1) z))

theorem m2K_isFin (h0 : ∀ i, IsFin (θ0 i)) (h1 : ∀ i, IsFin (θ1 i)) (h2 : ∀ i, IsFin (θ2 i)) (i : S4096.Idx) :
    IsFin (m2K θ0 θ1 θ2 op0 op1 op2 i) :=
  remap_isFin _ _ (vec_isFin _ (proc2K_isFin θ0 θ1 θ2 op0 op1 h0 h1 h2)) i

/-! ### The messages, written either way -/

/-- The second message: a sum of sums is regrouped (true in any commutative monoid). -/
theorem m1_eq : m1R θ0 θ1 op0 op1 = m1K θ0 θ1 op0 op1 := by
  have h : proc1R θ0 θ1 op0 = proc1K θ0 θ1 op0 := by
    funext z
    unfold proc1R proc1K colsum total
    rw [Finset.sum_add_distrib]
  unfold m1R m1K
  rw [h]

/-- The third message, for real entries. -/
theorem m2_eq (h0 : ∀ i, IsFin (θ0 i)) (h1 : ∀ i, IsFin (θ1 i)) (h2 : ∀ i, IsFin (θ2 i)) :
    m2R θ0 θ1 θ2 op0 op1 op2 = m2K θ0 θ1 θ2 op0 op1 op2 := by
  have h : proc2R θ0 θ1 θ2 op0 op1 = proc2K θ0 θ1 θ2 op0 op1 := by
    funext z
    unfold proc2R proc2K rowsum
    rw [m1_eq]
    exact (sum_add_sub (fun w => θ2 (ix2 z w)) _ (fun _ => h2 _)
      (ent_isFin _ (m1K_isFin θ0 θ1 op0 op1 h0 h1) z)).trans (by rw [← ofBits_4095])
  unfold m2R m2K
  rw [h]

/-- The fourth message, for real entries. -/
theorem m3_eq (h0 : ∀ i, IsFin (θ0 i)) (h1 : ∀ i, IsFin (θ1 i)) (h2 : ∀ i, IsFin (θ2 i)) :
    m3R θ0 θ1 θ2 op0 op1 op2 op3 = m3K θ0 θ1 θ2 op0 op1 op2 op3 := by
  have h : proc3R θ0 θ1 θ2 op0 op1 op2 = proc3K θ0 θ1 θ2 op0 op1 op2 := by
    funext y
    unfold proc3R proc3K rowsum total
    rw [m2_eq θ0 θ1 θ2 op0 op1 op2 h0 h1 h2]
    exact (sum_add_add_sub (fun z => θ1 (ix2 y z)) (ent (m2K θ0 θ1 θ2 op0 op1 op2)) _ (fun _ => h1 _)
      (ent_isFin _ (m2K_isFin θ0 θ1 θ2 op0 op1 op2 h0 h1 h2))
      (ent_isFin _ (m0_isFin θ0 op0 h0) y)).trans (by rw [← ofBits_4095])
  unfold m3R m3K
  rw [h]

/-! ### The three results -/

/-- With real entries the first result is the same written either way. -/
theorem out0_eq (h0 : ∀ i, IsFin (θ0 i)) (h1 : ∀ i, IsFin (θ1 i)) (h2 : ∀ i, IsFin (θ2 i)) :
    out0R θ0 θ1 θ2 op0 op1 op2 op3 = out0K θ0 θ1 θ2 op0 op1 op2 op3 := by
  unfold out0R out0K
  rw [m3_eq θ0 θ1 θ2 op0 op1 op2 op3 h0 h1 h2]

/-- With real entries the second result is the same written either way. -/
theorem out1_eq (h0 : ∀ i, IsFin (θ0 i)) (h1 : ∀ i, IsFin (θ1 i)) (h2 : ∀ i, IsFin (θ2 i)) :
    out1R θ0 θ1 θ2 op0 op1 op2 = out1K θ0 θ1 θ2 op0 op1 op2 := by
  unfold out1R out1K
  rw [m2_eq θ0 θ1 θ2 op0 op1 op2 h0 h1 h2]

/-- The third result is the same written either way (no finiteness needed: only a sum is regrouped). -/
theorem out2_eq : out2R θ0 θ1 θ2 op0 op1 = out2K θ0 θ1 θ2 op0 op1 := by
  unfold out2R out2K
  rw [m1_eq]

end Cert.BP

end
-- ==== Proof.FiniteConst.lean ====
/-
  The float constant the precondition compares against: 0x7F800000 is the single-precision pattern of +∞
  (sign 0, exponent all ones, significand 0). An extended real whose absolute value lies strictly below it is a
  real number.
-/
import Idealize.ShloMosaic.PureOps.Ideal

noncomputable section

namespace Cert.BP

open Idealize.ShloMosaic

/-- The pattern 0x7F800000 denotes +∞. -/
theorem ofBits_inf : Ideal.ofBits .f32 0x7F800000#32 = (⊤ : EReal) := by
  simp [Ideal.ofBits, Ideal.ieee]

/-- |x| < +∞, as the comparison word the precondition computes, makes x the image of a real number. -/
theorem exists_real_of_abs_lt_inf (x : EReal)
    (h : Ideal.cmp .olt (max x (-x)) (Ideal.ofBits .f32 0x7F800000#32) = 1#1) : ∃ a : ℝ, x = (a : EReal) := by
  rw [ofBits_inf] at h
  unfold Ideal.cmp at h
  induction x using EReal.rec with
  | bot => simp at h
  | top => simp at h
  | coe a => exact ⟨a, rfl⟩

end Cert.BP

end
-- ==== Proof.Finite.lean ====
/-
  The precondition says every entry of the three potentials is a real number.

  The precondition is a host predicate: for each potential, "|x| < +∞ at every entry", the three conjoined; it evaluates
  to the one-bit word 1. Decoding it: the conjunction of bits is 1 iff each is, an all-reduction of bits is 1 iff every
  entry is, and an extended real whose absolute value is below +∞ is a real number.
-/
import proofs.«122477_j61564061221583_2_alg».proof.Defs
import proofs.«122477_j61564061221583_2_alg».proof.Proof.Gen.KernelIdeal
import proofs.«122477_j61564061221583_2_alg».proof.Proof.Gen.Pre_finite_inputs
import proofs.«122477_j61564061221583_2_alg».proof.Proof.LibBatchNorm
import proofs.«122477_j61564061221583_2_alg».proof.Proof.FiniteConst
import Idealize.ShloMosaic.Lib.ReduceAll
import Idealize.ShloMosaic.Lib.ValueIdx

noncomputable section

namespace Cert.BP

open Idealize.ShloMosaic Idealize.ShloMosaic.ValueIdx Idealize.SL.Sem Cert.KernelIdeal Cert.LibBatchNorm

/-- The scalar shape has one index. -/
instance : Subsingleton Cert.Pre_finite_inputs.S_.Idx := ⟨fun a b => funext fun d => d.elim0⟩

/-- One conjunct of the precondition: if "|x| < +∞ at every entry", reduced by `and` from 1, is 1, every entry of the
    array is a real number. -/
theorem isFin_of_all (A : FVec Ideal Cert.Pre_finite_inputs.S4096x4096 .f32)
    (hb : Cert.Pre_finite_inputs.S_.BroadcastsInDim Cert.Pre_finite_inputs.S4096x4096 ![])
    (hr : Cert.Pre_finite_inputs.S4096x4096.ReducesTo [0, 1] Cert.Pre_finite_inputs.S_)
    (hu : 0 < Cert.Pre_finite_inputs.S_.numel)
    (e : Host.reduce IntOp.andi
          (cmpf CmpFPredicate.olt (Host.absf A)
            (broadcastInDim Cert.Pre_finite_inputs.S4096x4096 ![] hb
              (constant (F := Ideal) Cert.Pre_finite_inputs.S_ FTy.f32 0x7F800000#32)))
          (constantI Cert.Pre_finite_inputs.S_ 1 1#1) hr hu ix0 = 1#1)
    (i : Cert.Pre_finite_inputs.S4096x4096.Idx) : IsFin (A i) :=
  exists_real_of_abs_lt_inf (A i) (Host.reduce_andi_all _ _ hr hu ix0 e i)

/-- Under the precondition every entry of each of the three potentials is a real number, on every device. -/
theorem finite_of_pre (m : (ℓ : Loc nD τ sig) → Buf (Elt Ideal) ℓ) (hpre : Cert.Pre_KernelIdeal m) (c : Dev nD) :
    (∀ i, IsFin ((m ((c.tc : Thread nD τ).loc main_arg0) : S4096x4096.Idx → EReal) i))
    ∧ (∀ i, IsFin ((m ((c.tc : Thread nD τ).loc main_arg1) : S4096x4096.Idx → EReal) i))
    ∧ (∀ i, IsFin ((m ((c.tc : Thread nD τ).loc main_arg2) : S4096x4096.Idx → EReal) i)) := by
  have e := congrFun (hpre c) ValueIdx.ix0
  dsimp only [Cert.Pre_finite_inputs.fn] at e
  obtain ⟨e01, e2⟩ := IntOp.andi_eq_one.1 e
  obtain ⟨e0, e1⟩ := IntOp.andi_eq_one.1 e01
  exact ⟨isFin_of_all _ _ _ _ e0, isFin_of_all _ _ _ _ e1, isFin_of_all _ _ _ _ e2⟩

end Cert.BP

end
-- ==== Proof.Claims.lean ====
/-
  The five claims of the certificate.

  Both programs, read on the extended reals, compute belief propagation over three cliques: four messages sent in turn and
  three updated potentials. The idealized kernel's run leaves its three result arrays at the specification's K forms (each sum
  taken over the original array and corrected by the message), the reference's run at the R forms (each sum taken over the
  updated array, the message subtracted afterwards). The precondition makes every entry of the three potentials a real number,
  and on real entries the two forms are equal: n copies of b less one b is (n − 1) · b away from the infinities. The arguments
  end unchanged in every run, which is all the three frame claims say; the idealization rewrote nothing.
-/
import proofs.«122477_j61564061221583_2_alg».proof.Defs
import proofs.«122477_j61564061221583_2_alg».proof.Proof.Gen.Kernel
import proofs.«122477_j61564061221583_2_alg».proof.Proof.Gen.Kernel.Frame
import proofs.«122477_j61564061221583_2_alg».proof.Proof.Gen.KernelIdeal
import proofs.«122477_j61564061221583_2_alg».proof.Proof.Gen.KernelIdeal.Frame
import proofs.«122477_j61564061221583_2_alg».proof.Proof.Gen.ReferenceIdeal
import proofs.«122477_j61564061221583_2_alg».proof.Proof.Gen.ReferenceIdeal.Run
import proofs.«122477_j61564061221583_2_alg».proof.Proof.Gen.ReferenceIdeal.Read
import proofs.«122477_j61564061221583_2_alg».proof.Proof.Gen.Pre_finite_inputs
import proofs.«122477_j61564061221583_2_alg».proof.Proof.Spec
import proofs.«122477_j61564061221583_2_alg».proof.Proof.KRun
import proofs.«122477_j61564061221583_2_alg».proof.Proof.KChain3
import proofs.«122477_j61564061221583_2_alg».proof.Proof.RefValue
import proofs.«122477_j61564061221583_2_alg».proof.Proof.SpecEq
import proofs.«122477_j61564061221583_2_alg».proof.Proof.Finite

noncomputable section

open Idealize.ShloMosaic Idealize.ShloMosaic.TcCoe Idealize.SL.Sem

namespace Cert.Proof.Claims

open Cert.BP Cert.LibBatchNorm

/-! ### The reference's results, from arguments that agree with the kernel's -/

section
variable (x0 x1 x2 y0 y1 y2 : Mat) (x3 x4 x5 x6 y3 y4 y5 y6 : Tab)

/-- The reference's first result of arguments equal to the kernel's, real in every entry of the three potentials: the K form. -/
theorem res0_of (e0 : y0 = x0) (e1 : y1 = x1) (e2 : y2 = x2) (e3 : y3 = x3) (e4 : y4 = x4) (e5 : y5 = x5) (e6 : y6 = x6)
    (f0 : ∀ i, IsFin (x0 i)) (f1 : ∀ i, IsFin (x1 i)) (f2 : ∀ i, IsFin (x2 i)) :
    Cert.ReferenceIdeal.Read.val_main_v93 (F := Ideal) y0 y1 y2 y3 y4 y5 y6 = out0K x0 x1 x2 x3 x4 x5 x6 := by
  subst e0 e1 e2 e3 e4 e5 e6
  exact (Cert.BP.Ref.ref_out0 _ _ _ _ _ _ _).trans (out0_eq _ _ _ _ _ _ _ f0 f1 f2)

/-- The reference's second result, likewise. -/
theorem res1_of (e0 : y0 = x0) (e1 : y1 = x1) (e2 : y2 = x2) (e3 : y3 = x3) (e4 : y4 = x4) (e5 : y5 = x5)
    (f0 : ∀ i, IsFin (x0 i)) (f1 : ∀ i, IsFin (x1 i)) (f2 : ∀ i, IsFin (x2 i)) :
    Cert.ReferenceIdeal.Read.val_main_v69 (F := Ideal) y0 y1 y2 y3 y4 y5 = out1K x0 x1 x2 x3 x4 x5 := by
  subst e0 e1 e2 e3 e4 e5
  exact (Cert.BP.Ref.ref_out1 _ _ _ _ _ _).trans (out1_eq _ _ _ _ _ _ f0 f1 f2)

/-- The reference's third result, likewise (only a sum is regrouped: no entry need be real). -/
theorem res2_of (e0 : y0 = x0) (e1 : y1 = x1) (e2 : y2 = x2) (e3 : y3 = x3) (e4 : y4 = x4) :
    Cert.ReferenceIdeal.Read.val_main_v45 (F := Ideal) y0 y1 y2 y3 y4 = out2K x0 x1 x2 x3 x4 := by
  subst e0 e1 e2 e3 e4
  exact (Cert.BP.Ref.ref_out2 _ _ _ _ _).trans (out2_eq _ _ _ _ _)

end

/-! ### The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote no operation: nothing to preserve. -/
theorem preserves : Cert.preserves_Kernel_KernelIdeal := trivial

open Cert.KernelIdeal Cert.KernelIdeal.Gen in
/-- On the extended reals, from memories that agree on the seven arguments, the kernel's three result arrays end at the K forms
    of the messages' specification and the reference's at the R forms; the potentials' entries are real by the precondition,
    so the two forms are equal. -/
theorem algebraic : Cert.algebraic_KernelIdeal_ReferenceIdeal := by
  intro m ρ m' ρ' hpre hagree
  refine ⟨fun c => out0K (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)),
      fun c => out1K (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)),
      fun c => out2K (m ((c : Thread nD τ).loc main_arg0)) (m ((c : Thread nD τ).loc main_arg1)) (m ((c : Thread nD τ).loc main_arg2))
        (m ((c : Thread nD τ).loc main_arg3)) (m ((c : Thread nD τ).loc main_arg4)), ?_, ?_⟩
  · exact (θ_run Cert.KernelIdeal.defs _ _).mono (fun r h c =>
      ⟨(h c _ (mem_uc main_v98 (by decide))).trans (Cert.BP.K.kernel_out0 m ρ c),
       (h c _ (mem_uc main_v101 (by decide))).trans (Cert.BP.K.kernel_out1 m ρ c),
       (h c _ (mem_uc main_v48_0 (by decide))).trans (Cert.BP.K.kernel_out2 m ρ c),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩) (Cert.BP.K.run_all m ρ)
  · refine (θ_run Cert.ReferenceIdeal.defs _ _).mono (fun r h c => ?_) (Cert.ReferenceIdeal.Value.run (F := Ideal) m' ρ')
    obtain ⟨f0, f1, f2⟩ := finite_of_pre m hpre c
    obtain ⟨e0, e1, e2, e3, e4, e5, e6⟩ := hagree c
    exact ⟨(h c).1.trans ((Cert.ReferenceIdeal.Read.val_main_v93_eq m' c).trans
        (res0_of _ _ _ _ _ _ _ _ _ _ _ _ _ _ e0 e1 e2 e3 e4 e5 e6 f0 f1 f2)),
      (h c).2.1.trans ((Cert.ReferenceIdeal.Read.val_main_v69_eq m' c).trans
        (res1_of _ _ _ _ _ _ _ _ _ _ _ _ e0 e1 e2 e3 e4 e5 f0 f1 f2)),
      (h c).2.2.1.trans ((Cert.ReferenceIdeal.Read.val_main_v45_eq _ _ _ _ _).trans
        (res2_of _ _ _ _ _ _ _ _ _ _ e0 e1 e2 e3 e4)),
      (h c).2.2.2⟩

end Cert.Proof.Claims

end
-- ==== Proof.lean ====
/- Belief propagation over three cliques on the extended reals: four messages, each a vector gathered and summed into place
   by an index table, and three updated potentials. The idealized kernel sums each original array and corrects by the message;
   the reference sums each updated array and subtracts the message. The precondition makes the potentials' entries real, where
   the two ways of writing each sum agree (Proof/SpecEq.lean); Proof/Claims.lean joins the kernel's run, the reference's run
   and that equality into the five claims, behind the witnesses of the side conditions the programs state. -/
import proofs.«122477_j61564061221583_2_alg».proof.Defs
import proofs.«122477_j61564061221583_2_alg».proof.Proof.Gen.Kernel
import proofs.«122477_j61564061221583_2_alg».proof.Proof.Gen.Kernel.Skeleton
import proofs.«122477_j61564061221583_2_alg».proof.Proof.Gen.Kernel.Launch
import proofs.«122477_j61564061221583_2_alg».proof.Proof.Gen.Kernel.Points
import proofs.«122477_j61564061221583_2_alg».proof.Proof.Gen.Kernel.Frame
import proofs.«122477_j61564061221583_2_alg».proof.Proof.Gen.KernelIdeal
import proofs.«122477_j61564061221583_2_alg».proof.Proof.Gen.KernelIdeal.Skeleton
import proofs.«122477_j61564061221583_2_alg».proof.Proof.Gen.KernelIdeal.Launch
import proofs.«122477_j61564061221583_2_alg».proof.Proof.Gen.KernelIdeal.Points
import proofs.«122477_j61564061221583_2_alg».proof.Proof.Gen.KernelIdeal.Frame
import proofs.«122477_j61564061221583_2_alg».proof.Proof.Gen.ReferenceIdeal
import proofs.«122477_j61564061221583_2_alg».proof.Proof.Gen.ReferenceIdeal.Run
import proofs.«122477_j61564061221583_2_alg».proof.Proof.Gen.ReferenceIdeal.Read
import proofs.«122477_j61564061221583_2_alg».proof.Proof.Gen.Pre_finite_inputs
import proofs.«122477_j61564061221583_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
